-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v162)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v162) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v212) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1250000 : Shape := ⟨2, ![2, 1250000]⟩
abbrev S100000 : Shape := ⟨1, ![100000]⟩
abbrev S5x64x64 : Shape := ⟨3, ![5, 64, 64]⟩
abbrev S64 : Shape := ⟨1, ![64]⟩
abbrev S64x10 : Shape := ⟨2, ![64, 10]⟩
abbrev S10 : Shape := ⟨1, ![10]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S5x64x64 : S_.BroadcastsInDim S5x64x64 (![] : Fin 0 → Fin S5x64x64.rank)
  reducesTo_S5x64x64_S_d0_1_2 : S5x64x64.ReducesTo [0, 1, 2] S_
  bcast_S_S64 : S_.BroadcastsInDim S64 (![] : Fin 0 → Fin S64.rank)
  reducesTo_S64_S_d0 : S64.ReducesTo [0] S_
  bcast_S_S64x10 : S_.BroadcastsInDim S64x10 (![] : Fin 0 → Fin S64x10.rank)
  reducesTo_S64x10_S_d0_1 : S64x10.ReducesTo [0, 1] S_
  bcast_S_S10 : S_.BroadcastsInDim S10 (![] : Fin 0 → Fin S10.rank)
  reducesTo_S10_S_d0 : S10.ReducesTo [0] S_

variable [Facts]

def fn_part1 {F : FTy → Type} [FloatOps F] (main_arg6 : FVec F S64 .f32) (main_arg7 : FVec F S64x10 .f32) (main_arg8 : FVec F S10 .f32) (main_v13 : IVec S_ 1) (main_v16 : IVec S5x64x64 1) : IVec S_ 1 :=
  let main_c_5 : IVec S_ 1 := constantI S_ 1 1#1
  let main_v17 : IVec S_ 1 := (fun x v => Host.reduce IntOp.andi x v reducesTo_S5x64x64_S_d0_1_2 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x10 .f32 := Host.absf main_arg7
  let main_cst_8 : FVec F S_ .f32 := constant S_ .f32 0x7F800000#32
  let main_v25 : FVec F S64x10 .f32 := broadcastInDim S64x10 ![] bcast_S_S64x10 main_cst_8
  let main_v26 : IVec S64x10 1 := cmpf .olt main_v24 main_v25
  let main_c_9 : IVec S_ 1 := constantI S_ 1 1#1
  let main_v27 : IVec S_ 1 := (fun x v => Host.reduce IntOp.andi x v reducesTo_S64x10_S_d0_1 h_S_) main_v26 main_c_9
  let main_v28 : IVec S_ 1 := andi main_v23 main_v27
  let main_v29 : FVec F S10 .f32 := Host.absf main_arg8
  let main_cst_10 : FVec F S_ .f32 := constant S_ .f32 0x7F800000#32
  let main_v30 : FVec F S10 .f32 := broadcastInDim S10 ![] bcast_S_S10 main_cst_10
  let main_v31 : IVec S10 1 := cmpf .olt main_v29 main_v30
  let main_c_11 : IVec S_ 1 := constantI S_ 1 1#1
  let main_v32 : IVec S_ 1 := (fun x v => Host.reduce IntOp.andi x v reducesTo_S10_S_d0 h_S_) main_v31 main_c_11
  let main_v33 : IVec S_ 1 := andi main_v28 main_v32
  main_v33

def fn {F : FTy → Type} [FloatOps F] (main_arg0 : FVec F S100000x64 .f32) (main_arg1 : IVec S2x1250000 32) (main_arg2 : IVec S100000 32) (main_arg3 : FVec F S5x64x64 .f32) (main_arg4 : FVec F S64 .f32) (main_arg5 : FVec F S5x64x64 .f32) (main_arg6 : FVec F S64 .f32) (main_arg7 : FVec F S64x10 .f32) (main_arg8 : FVec F S10 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S5x64x64 .f32 := Host.absf main_arg3
  let main_cst_0 : FVec F S_ .f32 := constant S_ .f32 0x7F800000#32
  let main_v5 : FVec F S5x64x64 .f32 := broadcastInDim S5x64x64 ![] bcast_S_S5x64x64 main_cst_0
  let main_v6 : IVec S5x64x64 1 := cmpf .olt main_v4 main_v5
  let main_c_1 : IVec S_ 1 := constantI S_ 1 1#1
  let main_v7 : IVec S_ 1 := (fun x v => Host.reduce IntOp.andi x v reducesTo_S5x64x64_S_d0_1_2 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S5x64x64 .f32 := Host.absf main_arg5
  let main_cst_4 : FVec F S_ .f32 := constant S_ .f32 0x7F800000#32
  let main_v15 : FVec F S5x64x64 .f32 := broadcastInDim S5x64x64 ![] bcast_S_S5x64x64 main_cst_4
  let main_v16 : IVec S5x64x64 1 := cmpf .olt main_v14 main_v15
  fn_part1 (F := F) main_arg6 main_arg7 main_arg8 main_v13 main_v16
-- ==== Kernel.lean ====
abbrev S100000x64 : Shape := ⟨2, ![100000, 64]⟩
abbrev S2x1250000 : Shape := ⟨2, ![2, 1250000]⟩
abbrev S100000 : Shape := ⟨1, ![100000]⟩
abbrev S5x64x64 : Shape := ⟨3, ![5, 64, 64]⟩
abbrev S64 : Shape := ⟨1, ![64]⟩
abbrev S64x10 : Shape := ⟨2, ![64, 10]⟩
abbrev S10 : Shape := ⟨1, ![10]⟩
abbrev S1x1250000 : Shape := ⟨2, ![1, 1250000]⟩
abbrev S1250000 : Shape := ⟨1, ![1250000]⟩
abbrev S_ : Shape := ⟨0, ![]⟩
abbrev S1250000x1 : Shape := ⟨2, ![1250000, 1]⟩
abbrev S1250000x64 : Shape := ⟨2, ![1250000, 64]⟩
abbrev S5000x64 : Shape := ⟨2, ![5000, 64]⟩
abbrev S1x64x64 : Shape := ⟨3, ![1, 64, 64]⟩
abbrev S64x64 : Shape := ⟨2, ![64, 64]⟩
abbrev S1x64 : Shape := ⟨2, ![1, 64]⟩
abbrev S100000x1 : Shape := ⟨2, ![100000, 1]⟩
abbrev S1x10 : Shape := ⟨2, ![1, 10]⟩

abbrev nBuf : Space → Nat
  | .hbm => 212
  | .vmem => 32
  | .smem => 0
  | _ => 0

abbrev hbmTy0_0 (i : Nat) : BufTy := match i % 128 with
  | 0 => ⟨S100000x64, .f32⟩
  | 1 => ⟨S2x1250000, .i32⟩
  | 2 => ⟨S100000, .i32⟩
  | 3 => ⟨S5x64x64, .f32⟩
  | 4 => ⟨S64, .f32⟩
  | 5 => ⟨S5x64x64, .f32⟩
  | 6 => ⟨S64, .f32⟩
  | 7 => ⟨S64x10, .f32⟩
  | 8 => ⟨S10, .f32⟩
  | 9 => ⟨S1x1250000, .i32⟩
  | 10 => ⟨S1250000, .i32⟩
  | 11 => ⟨S1x1250000, .i32⟩
  | 12 => ⟨S1250000, .i32⟩
  | 13 => ⟨S_, .f32⟩
  | 14 => ⟨S1250000, .f32⟩
  | 15 => ⟨S_, .f32⟩
  | 16 => ⟨S100000, .f32⟩
  | 17 => ⟨S1250000x1, .i32⟩
  | 18 => ⟨S100000, .f32⟩
  | 19 => ⟨S_, .f32⟩
  | 20 => ⟨S100000, .f32⟩
  | 21 => ⟨S100000, .i1⟩
  | 22 => ⟨S_, .f32⟩
  | 23 => ⟨S100000, .f32⟩
  | 24 => ⟨S100000, .f32⟩
  | 25 => ⟨S_, .f32⟩
  | 26 => ⟨S_, .f32⟩
  | 27 => ⟨S100000, .f32⟩
  | 28 => ⟨S100000, .f32⟩
  | 29 => ⟨S_, .i32⟩
  | 30 => ⟨S1250000, .i32⟩
  | 31 => ⟨S1250000, .i1⟩
  | 32 => ⟨S_, .i32⟩
  | 33 => ⟨S1250000, .i32⟩
  | 34 => ⟨S1250000, .i32⟩
  | 35 => ⟨S1250000, .i32⟩
  | 36 => ⟨S1250000x1, .i32⟩
  | 37 => ⟨S1250000, .f32⟩
  | 38 => ⟨S1250000, .f32⟩
  | 39 => ⟨S5x64x64, .bf16⟩
  | 40 => ⟨S5x64x64, .bf16⟩
  | 41 => ⟨S1250000x1, .f32⟩
  | 42 => ⟨S_, .i32⟩
  | 43 => ⟨S1250000, .i32⟩
  | 44 => ⟨S1250000, .i1⟩
  | 45 => ⟨S_, .i32⟩
  | 46 => ⟨S1250000, .i32⟩
  | 47 => ⟨S1250000, .i32⟩
  | 48 => ⟨S1250000, .i32⟩
  | 49 => ⟨S1250000x1, .i32⟩
  | 50 => ⟨S1250000x64, .f32⟩
  | 51 => ⟨S1250000x64, .f32⟩
  | 52 => ⟨S1250000x64, .f32⟩
  | 53 => ⟨S_, .f32⟩
  | 54 => ⟨S100000x64, .f32⟩
  | 55 => ⟨S1250000x1, .i32⟩
  | 56 => ⟨S100000x64, .f32⟩
  | 57 => ⟨S1250000x1, .f32⟩
  | 58 => ⟨S_, .i32⟩
  | 59 => ⟨S1250000, .i32⟩
  | 60 => ⟨S1250000, .i1⟩
  | 61 => ⟨S_, .i32⟩
  | 62 => ⟨S1250000, .i32⟩
  | 63 => ⟨S1250000, .i32⟩
  | 64 => ⟨S1250000, .i32⟩
  | 65 => ⟨S1250000x1, .i32⟩
  | 66 => ⟨S1250000x64, .f32⟩
  | 67 => ⟨S1250000x64, .f32⟩
  | 68 => ⟨S1250000x64, .f32⟩
  | 69 => ⟨S_, .f32⟩
  | 70 => ⟨S100000x64, .f32⟩
  | 71 => ⟨S1250000x1, .i32⟩
  | 72 => ⟨S100000x64, .f32⟩
  | 73 => ⟨S_, .f32⟩
  | 74 => ⟨S100000x64, .f32⟩
  | 75 => ⟨S100000x64, .f32⟩
  | 76 => ⟨S100000x64, .f32⟩
  | 77 => ⟨S1250000x1, .f32⟩
  | 78 => ⟨S_, .i32⟩
  | 79 => ⟨S1250000, .i32⟩
  | 80 => ⟨S1250000, .i1⟩
  | 81 => ⟨S_, .i32⟩
  | 82 => ⟨S1250000, .i32⟩
  | 83 => ⟨S1250000, .i32⟩
  | 84 => ⟨S1250000, .i32⟩
  | 85 => ⟨S1250000x1, .i32⟩
  | 86 => ⟨S1250000x64, .f32⟩
  | 87 => ⟨S1250000x64, .f32⟩
  | 88 => ⟨S1250000x64, .f32⟩
  | 89 => ⟨S_, .f32⟩
  | 90 => ⟨S100000x64, .f32⟩
  | 91 => ⟨S1250000x1, .i32⟩
  | 92 => ⟨S100000x64, .f32⟩
  | 93 => ⟨S_, .f32⟩
  | 94 => ⟨S100000x64, .f32⟩
  | 95 => ⟨S100000x64, .f32⟩
  | 96 => ⟨S100000x64, .f32⟩
  | 97 => ⟨S1250000x1, .f32⟩
  | 98 => ⟨S_, .i32⟩
  | 99 => ⟨S1250000, .i32⟩
  | 100 => ⟨S1250000, .i1⟩
  | 101 => ⟨S_, .i32⟩
  | 102 => ⟨S1250000, .i32⟩
  | 103 => ⟨S1250000, .i32⟩
  | 104 => ⟨S1250000, .i32⟩
  | 105 => ⟨S1250000x1, .i32⟩
  | 106 => ⟨S1250000x64, .f32⟩
  | 107 => ⟨S1250000x64, .f32⟩
  | 108 => ⟨S1250000x64, .f32⟩
  | 109 => ⟨S_, .f32⟩
  | 110 => ⟨S100000x64, .f32⟩
  | 111 => ⟨S1250000x1, .i32⟩
  | 112 => ⟨S100000x64, .f32⟩
  | 113 => ⟨S_, .f32⟩
  | 114 => ⟨S100000x64, .f32⟩
  | 115 => ⟨S100000x64, .f32⟩
  | 116 => ⟨S100000x64, .f32⟩
  | 117 => ⟨S100000x64, .bf16⟩
  | 118 => ⟨S100000x64, .bf16⟩
  | 119 => ⟨S100000x64, .bf16⟩
  | 120 => ⟨S100000x64, .bf16⟩
  | 121 => ⟨S100000x64, .bf16⟩
  | 122 => ⟨S100000x64, .f32⟩
  | 123 => ⟨S1250000x1, .f32⟩
  | 124 => ⟨S_, .i32⟩
  | 125 => ⟨S1250000, .i32⟩
  | 126 => ⟨S1250000, .i1⟩
  | 127 => ⟨S_, .i32⟩
  | _ => ⟨S100000x64, .f32⟩

abbrev hbmTy0_1 (i : Nat) : BufTy := match i % 128 with
  | 0 => ⟨S1250000, .i32⟩
  | 1 => ⟨S1250000, .i32⟩
  | 2 => ⟨S1250000, .i32⟩
  | 3 => ⟨S1250000x1, .i32⟩
  | 4 => ⟨S1250000x64, .f32⟩
  | 5 => ⟨S1250000x64, .f32⟩
  | 6 => ⟨S1250000x64, .f32⟩
  | 7 => ⟨S_, .f32⟩
  | 8 => ⟨S100000x64, .f32⟩
  | 9 => ⟨S1250000x1, .i32⟩
  | 10 => ⟨S100000x64, .f32⟩
  | 11 => ⟨S1250000x1, .f32⟩
  | 12 => ⟨S_, .i32⟩
  | 13 => ⟨S1250000, .i32⟩
  | 14 => ⟨S1250000, .i1⟩
  | 15 => ⟨S_, .i32⟩
  | 16 => ⟨S1250000, .i32⟩
  | 17 => ⟨S1250000, .i32⟩
  | 18 => ⟨S1250000, .i32⟩
  | 19 => ⟨S1250000x1, .i32⟩
  | 20 => ⟨S1250000x64, .f32⟩
  | 21 => ⟨S1250000x64, .f32⟩
  | 22 => ⟨S1250000x64, .f32⟩
  | 23 => ⟨S_, .f32⟩
  | 24 => ⟨S100000x64, .f32⟩
  | 25 => ⟨S1250000x1, .i32⟩
  | 26 => ⟨S100000x64, .f32⟩
  | 27 => ⟨S_, .f32⟩
  | 28 => ⟨S100000x64, .f32⟩
  | 29 => ⟨S100000x64, .f32⟩
  | 30 => ⟨S100000x64, .f32⟩
  | 31 => ⟨S1250000x1, .f32⟩
  | 32 => ⟨S_, .i32⟩
  | 33 => ⟨S1250000, .i32⟩
  | 34 => ⟨S1250000, .i1⟩
  | 35 => ⟨S_, .i32⟩
  | 36 => ⟨S1250000, .i32⟩
  | 37 => ⟨S1250000, .i32⟩
  | 38 => ⟨S1250000, .i32⟩
  | 39 => ⟨S1250000x1, .i32⟩
  | 40 => ⟨S1250000x64, .f32⟩
  | 41 => ⟨S1250000x64, .f32⟩
  | 42 => ⟨S1250000x64, .f32⟩
  | 43 => ⟨S_, .f32⟩
  | 44 => ⟨S100000x64, .f32⟩
  | 45 => ⟨S1250000x1, .i32⟩
  | 46 => ⟨S100000x64, .f32⟩
  | 47 => ⟨S_, .f32⟩
  | 48 => ⟨S100000x64, .f32⟩
  | 49 => ⟨S100000x64, .f32⟩
  | 50 => ⟨S100000x64, .f32⟩
  | 51 => ⟨S1250000x1, .f32⟩
  | 52 => ⟨S_, .i32⟩
  | 53 => ⟨S1250000, .i32⟩
  | 54 => ⟨S1250000, .i1⟩
  | 55 => ⟨S_, .i32⟩
  | 56 => ⟨S1250000, .i32⟩
  | 57 => ⟨S1250000, .i32⟩
  | 58 => ⟨S1250000, .i32⟩
  | 59 => ⟨S1250000x1, .i32⟩
  | 60 => ⟨S1250000x64, .f32⟩
  | 61 => ⟨S1250000x64, .f32⟩
  | 62 => ⟨S1250000x64, .f32⟩
  | 63 => ⟨S_, .f32⟩
  | 64 => ⟨S100000x64, .f32⟩
  | 65 => ⟨S1250000x1, .i32⟩
  | 66 => ⟨S100000x64, .f32⟩
  | 67 => ⟨S_, .f32⟩
  | 68 => ⟨S100000x64, .f32⟩
  | 69 => ⟨S100000x64, .f32⟩
  | 70 => ⟨S100000x64, .f32⟩
  | 71 => ⟨S100000x64, .bf16⟩
  | 72 => ⟨S100000x64, .bf16⟩
  | 73 => ⟨S100000x64, .bf16⟩
  | 74 => ⟨S100000x64, .bf16⟩
  | 75 => ⟨S100000x64, .bf16⟩
  | 76 => ⟨S100000x64, .f32⟩
  | 77 => ⟨S_, .f32⟩
  | 78 => ⟨S64x64, .f32⟩
  | 79 => ⟨S100000x1, .i32⟩
  | 80 => ⟨S64x64, .f32⟩
  | 81 => ⟨S64x64, .bf16⟩
  | 82 => ⟨S64x10, .bf16⟩
  | 83 => ⟨S64x10, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | .local _ .vmem, ⟨0, _⟩ => ⟨S5000x64, .bf16⟩
  | .local _ .vmem, ⟨1, _⟩ => ⟨S5000x64, .bf16⟩
  | .local _ .vmem, ⟨2, _⟩ => ⟨S5000x64, .bf16⟩
  | .local _ .vmem, ⟨3, _⟩ => ⟨S5000x64, .bf16⟩
  | .local _ .vmem, ⟨4, _⟩ => ⟨S5000x64, .bf16⟩
  | .local _ .vmem, ⟨5, _⟩ => ⟨S5000x64, .bf16⟩
  | .local _ .vmem, ⟨6, _⟩ => ⟨S5000x64, .bf16⟩
  | .local _ .vmem, ⟨7, _⟩ => ⟨S5000x64, .bf16⟩
  | .local _ .vmem, ⟨8, _⟩ => ⟨S5000x64, .bf16⟩
  | .local _ .vmem, ⟨9, _⟩ => ⟨S5000x64, .bf16⟩
  | .local _ .vmem, ⟨10, _⟩ => ⟨S5x64x64, .bf16⟩
  | .local _ .vmem, ⟨11, _⟩ => ⟨S64, .f32⟩
  | .local _ .vmem, ⟨12, _⟩ => ⟨S5000x64, .f32⟩
  | .local _ .vmem, ⟨13, _⟩ => ⟨S5000x64, .f32⟩
  | .local _ .vmem, ⟨14, _⟩ => ⟨S5000x64, .bf16⟩
  | .local _ .vmem, ⟨15, _⟩ => ⟨S5000x64, .bf16⟩
  | .local _ .vmem, ⟨16, _⟩ => ⟨S5000x64, .bf16⟩
  | .local _ .vmem, ⟨17, _⟩ => ⟨S5000x64, .bf16⟩
  | .local _ .vmem, ⟨18, _⟩ => ⟨S5000x64, .bf16⟩
  | .local _ .vmem, ⟨19, _⟩ => ⟨S5000x64, .bf16⟩
  | .local _ .vmem, ⟨20, _⟩ => ⟨S5000x64, .bf16⟩
  | .local _ .vmem, ⟨21, _⟩ => ⟨S5000x64, .bf16⟩
  | .local _ .vmem, ⟨22, _⟩ => ⟨S5000x64, .bf16⟩
  | .local _ .vmem, ⟨23, _⟩ => ⟨S5000x64, .bf16⟩
  | .local _ .vmem, ⟨24, _⟩ => ⟨S5x64x64, .bf16⟩
  | .local _ .vmem, ⟨25, _⟩ => ⟨S64, .f32⟩
  | .local _ .vmem, ⟨26, _⟩ => ⟨S5000x64, .f32⟩
  | .local _ .vmem, ⟨27, _⟩ => ⟨S5000x64, .f32⟩
  | .local _ .vmem, ⟨28, _⟩ => ⟨S64x64, .bf16⟩
  | .local _ .vmem, ⟨29, _⟩ => ⟨S64x10, .bf16⟩
  | .local _ .vmem, ⟨30, _⟩ => ⟨S10, .f32⟩
  | .local _ .vmem, ⟨31, _⟩ => ⟨S64x10, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_cst_2 : Ref sig .tc := ⟨.hbm, 22, rfl⟩
abbrev main_v10 : Ref sig .tc := ⟨.hbm, 23, rfl⟩
abbrev main_v11 : Ref sig .tc := ⟨.hbm, 24, rfl⟩
abbrev main_cst_3 : Ref sig .tc := ⟨.hbm, 25, rfl⟩
abbrev main_call0_v0 : Ref sig .tc := ⟨.hbm, 26, rfl⟩
abbrev main_call0_v1 : Ref sig .tc := ⟨.hbm, 27, rfl⟩
abbrev main_v12 : Ref sig .tc := ⟨.hbm, 28, rfl⟩
abbrev main_c : Ref sig .tc := ⟨.hbm, 29, rfl⟩
abbrev main_v13 : Ref sig .tc := ⟨.hbm, 30, rfl⟩
abbrev main_v14 : Ref sig .tc := ⟨.hbm, 31, rfl⟩
abbrev main_c_4 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_c_5 : Ref sig .tc := ⟨.hbm, 42, rfl⟩
abbrev main_v24 : Ref sig .tc := ⟨.hbm, 43, rfl⟩
abbrev main_v25 : Ref sig .tc := ⟨.hbm, 44, rfl⟩
abbrev main_c_6 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_cst_7 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_c_8 : Ref sig .tc := ⟨.hbm, 58, rfl⟩
abbrev main_v37 : Ref sig .tc := ⟨.hbm, 59, rfl⟩
abbrev main_v38 : Ref sig .tc := ⟨.hbm, 60, rfl⟩
abbrev main_c_9 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_cst_10 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_cst_11 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_c_12 : Ref sig .tc := ⟨.hbm, 78, rfl⟩
abbrev main_v53 : Ref sig .tc := ⟨.hbm, 79, rfl⟩
abbrev main_v54 : Ref sig .tc := ⟨.hbm, 80, rfl⟩
abbrev main_c_13 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_cst_14 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_cst_15 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_c_16 : Ref sig .tc := ⟨.hbm, 98, rfl⟩
abbrev main_v69 : Ref sig .tc := ⟨.hbm, 99, rfl⟩
abbrev main_v70 : Ref sig .tc := ⟨.hbm, 100, rfl⟩
abbrev main_c_17 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_cst_18 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_cst_19 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_c_20 : Ref sig .tc := ⟨.hbm, 124, rfl⟩
abbrev main_v91 : Ref sig .tc := ⟨.hbm, 125, rfl⟩
abbrev main_v92 : Ref sig .tc := ⟨.hbm, 126, rfl⟩
abbrev main_c_21 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_cst_22 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_c_23 : Ref sig .tc := ⟨.hbm, 140, rfl⟩
abbrev main_v104 : Ref sig .tc := ⟨.hbm, 141, rfl⟩
abbrev main_v105 : Ref sig .tc := ⟨.hbm, 142, rfl⟩
abbrev main_c_24 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_cst_25 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩
abbrev main_cst_26 : Ref sig .tc := ⟨.hbm, 155, rfl⟩
abbrev main_v116 : Ref sig .tc := ⟨.hbm, 156, rfl⟩
abbrev main_v117 : Ref sig .tc := ⟨.hbm, 157, rfl⟩
abbrev main_v118 : Ref sig .tc := ⟨.hbm, 158, rfl⟩
abbrev main_v119 : Ref sig .tc := ⟨.hbm, 159, rfl⟩
abbrev main_c_27 : Ref sig .tc := ⟨.hbm, 160, rfl⟩
abbrev main_v120 : Ref sig .tc := ⟨.hbm, 161, rfl⟩
abbrev main_v121 : Ref sig .tc := ⟨.hbm, 162, rfl⟩
abbrev main_c_28 : Ref sig .tc := ⟨.hbm, 163, rfl⟩
abbrev main_v122 : Ref sig .tc := ⟨.hbm, 164, rfl⟩
abbrev main_v123 : Ref sig .tc := ⟨.hbm, 165, rfl⟩
abbrev main_v124 : Ref sig .tc := ⟨.hbm, 166, rfl⟩
abbrev main_v125 : Ref sig .tc := ⟨.hbm, 167, rfl⟩
abbrev main_v126 : Ref sig .tc := ⟨.hbm, 168, rfl⟩
abbrev main_v127 : Ref sig .tc := ⟨.hbm, 169, rfl⟩
abbrev main_v128 : Ref sig .tc := ⟨.hbm, 170, rfl⟩
abbrev main_cst_29 : Ref sig .tc := ⟨.hbm, 171, rfl⟩
abbrev main_v129 : Ref sig .tc := ⟨.hbm, 172, rfl⟩
abbrev main_v130 : Ref sig .tc := ⟨.hbm, 173, rfl⟩
abbrev main_v131 : Ref sig .tc := ⟨.hbm, 174, rfl⟩
abbrev main_cst_30 : Ref sig .tc := ⟨.hbm, 175, rfl⟩
abbrev main_v132 : Ref sig .tc := ⟨.hbm, 176, rfl⟩
abbrev main_v133 : Ref sig .tc := ⟨.hbm, 177, rfl⟩
abbrev main_v134 : Ref sig .tc := ⟨.hbm, 178, rfl⟩
abbrev main_v135 : Ref sig .tc := ⟨.hbm, 179, rfl⟩
abbrev main_c_31 : Ref sig .tc := ⟨.hbm, 180, rfl⟩
abbrev main_v136 : Ref sig .tc := ⟨.hbm, 181, rfl⟩
abbrev main_v137 : Ref sig .tc := ⟨.hbm, 182, rfl⟩
abbrev main_c_32 : Ref sig .tc := ⟨.hbm, 183, rfl⟩
abbrev main_v138 : Ref sig .tc := ⟨.hbm, 184, rfl⟩
abbrev main_v139 : Ref sig .tc := ⟨.hbm, 185, rfl⟩
abbrev main_v140 : Ref sig .tc := ⟨.hbm, 186, rfl⟩
abbrev main_v141 : Ref sig .tc := ⟨.hbm, 187, rfl⟩
abbrev main_v142 : Ref sig .tc := ⟨.hbm, 188, rfl⟩
abbrev main_v143 : Ref sig .tc := ⟨.hbm, 189, rfl⟩
abbrev main_v144 : Ref sig .tc := ⟨.hbm, 190, rfl⟩
abbrev main_cst_33 : Ref sig .tc := ⟨.hbm, 191, rfl⟩
abbrev main_v145 : Ref sig .tc := ⟨.hbm, 192, rfl⟩
abbrev main_v146 : Ref sig .tc := ⟨.hbm, 193, rfl⟩
abbrev main_v147 : Ref sig .tc := ⟨.hbm, 194, rfl⟩
abbrev main_cst_34 : Ref sig .tc := ⟨.hbm, 195, rfl⟩
abbrev main_v148 : Ref sig .tc := ⟨.hbm, 196, rfl⟩
abbrev main_v149 : Ref sig .tc := ⟨.hbm, 197, rfl⟩
abbrev main_v150 : Ref sig .tc := ⟨.hbm, 198, rfl⟩
abbrev main_v151 : Ref sig .tc := ⟨.hbm, 199, rfl⟩
abbrev main_v152 : Ref sig .tc := ⟨.hbm, 200, rfl⟩
abbrev main_v153 : Ref sig .tc := ⟨.hbm, 201, rfl⟩
abbrev main_v154 : Ref sig .tc := ⟨.hbm, 202, rfl⟩
abbrev main_v155 : Ref sig .tc := ⟨.hbm, 203, rfl⟩
abbrev main_v156 : Ref sig .tc := ⟨.hbm, 204, rfl⟩
abbrev main_cst_35 : Ref sig .tc := ⟨.hbm, 205, rfl⟩
abbrev main_v157 : Ref sig .tc := ⟨.hbm, 206, rfl⟩
abbrev main_v158 : Ref sig .tc := ⟨.hbm, 207, rfl⟩
abbrev main_v159 : Ref sig .tc := ⟨.hbm, 208, rfl⟩
abbrev main_v160 : Ref sig .tc := ⟨.hbm, 209, rfl⟩
abbrev main_v161 : Ref sig .tc := ⟨.hbm, 210, rfl⟩
abbrev main_v162 : Ref sig .tc := ⟨.hbm, 211, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc1_stg4_0 : Ref sig .tc := ⟨.vmem, 22, rfl⟩
abbrev cc1_stg4_1 : Ref sig .tc := ⟨.vmem, 23, rfl⟩
abbrev cc1_stg5_0 : Ref sig .tc := ⟨.vmem, 24, rfl⟩
abbrev cc1_stg6_0 : Ref sig .tc := ⟨.vmem, 25, rfl⟩
abbrev cc1_stg7_0 : Ref sig .tc := ⟨.vmem, 26, rfl⟩
abbrev cc1_stg7_1 : Ref sig .tc := ⟨.vmem, 27, rfl⟩
abbrev cc2_stg0_0 : Ref sig .tc := ⟨.vmem, 28, rfl⟩
abbrev cc2_stg1_0 : Ref sig .tc := ⟨.vmem, 29, rfl⟩
abbrev cc2_stg2_0 : Ref sig .tc := ⟨.vmem, 30, rfl⟩
abbrev cc2_stg3_0 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem3_1 : DmaSem sig := 21
abbrev cc1_sem4_0 : DmaSem sig := 22
abbrev cc1_sem4_1 : DmaSem sig := 23
abbrev cc1_sem5_0 : DmaSem sig := 24
abbrev cc1_sem6_0 : DmaSem sig := 25
abbrev cc1_sem7_0 : DmaSem sig := 26
abbrev cc1_sem7_1 : DmaSem sig := 27
abbrev cc2_sem0_0 : DmaSem sig := 28
abbrev cc2_sem1_0 : DmaSem sig := 29
abbrev cc2_sem2_0 : DmaSem sig := 30
abbrev cc2_sem3_0 : DmaSem sig := 31

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S5000x64 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S5x64x64 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S5000x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x64 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S5000x64 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S5000x64 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S5x64x64 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S5000x64 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S64x64 .bf16 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S64x10 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S10 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64x10 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

class Facts₀ : Prop where
  slices_S2x1250000_S1x1250000_0_0 : S2x1250000.Slices ![0, 0] S1x1250000
  shapeCasts_S1x1250000_S1250000 : S1x1250000.ShapeCasts S1250000
  slices_S2x1250000_S1x1250000_1_0 : S2x1250000.Slices ![1, 0] S1x1250000
  bcast_S_S1250000 : S_.BroadcastsInDim S1250000 (![] : Fin 0 → Fin S1250000.rank)
  bcast_S_S100000 : S_.BroadcastsInDim S100000 (![] : Fin 0 → Fin S100000.rank)
  bcast_S1250000_S1250000x1_0 : S1250000.BroadcastsInDim S1250000x1 (![0] : Fin 1 → Fin S1250000x1.rank)
  bitsLt_bf16_f32 : FTy.bits .bf16 < FTy.bits .f32
  bcast_S1250000x1_S1250000x64_0_1 : S1250000x1.BroadcastsInDim S1250000x64 (![0, 1] : Fin 2 → Fin S1250000x64.rank)
  bcast_S_S100000x64 : S_.BroadcastsInDim S100000x64 (![] : Fin 0 → Fin S100000x64.rank)
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S5x64x64_S1x64x64_0_0_0 : ∀ a, (![0, 0, 0] : Fin 3 → Nat) a + S1x64x64.size a ≤ S5x64x64.size a
  h_S1x64x64 : 0 < S1x64x64.numel
  shapeCasts_S1x64x64_S64x64 : S1x64x64.ShapeCasts S64x64
  inb_S5x64x64_S1x64x64_1_0_0 : ∀ a, (![1, 0, 0] : Fin 3 → Nat) a + S1x64x64.size a ≤ S5x64x64.size a
  inb_S5x64x64_S1x64x64_2_0_0 : ∀ a, (![2, 0, 0] : Fin 3 → Nat) a + S1x64x64.size a ≤ S5x64x64.size a
  inb_S5x64x64_S1x64x64_3_0_0 : ∀ a, (![3, 0, 0] : Fin 3 → Nat) a + S1x64x64.size a ≤ S5x64x64.size a
  inb_S5x64x64_S1x64x64_4_0_0 : ∀ a, (![4, 0, 0] : Fin 3 → Nat) a + S1x64x64.size a ≤ S5x64x64.size a
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  bcast_S_S64x64 : S_.BroadcastsInDim S64x64 (![] : Fin 0 → Fin S64x64.rank)
  bcast_S100000_S100000x1_0 : S100000.BroadcastsInDim S100000x1 (![0] : Fin 1 → Fin S100000x1.rank)
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S64x10_S64x10_0_0 : ∀ a, (![0, 0] : Fin 2 → Nat) a + S64x10.size a ≤ S64x10.size a
  h_S64x10 : 0 < S64x10.numel
  shapeCasts_S64x10_S64x10 : S64x10.ShapeCasts S64x10
  inb_S10_S10_0 : ∀ a, (![0] : Fin 1 → Nat) a + S10.size a ≤ S10.size a
  h_S10 : 0 < S10.numel
  shapeCasts_S10_S1x10 : S10.ShapeCasts S1x10
  broadcasts_S1x10_S64x10 : S1x10.Broadcasts S64x10
  scatter_S100000_S1250000x1_S1250000_n_0_0_1_wf : ScatterDims.WF S100000 S1250000x1 S1250000 [] [0] [0] 1
  gather_S100000_S1250000x1_S1250000_n_0_n_n_0_1_1_wf : GatherDims.WF S100000 S1250000x1 S1250000 [] [0] [] [0] [] 1 ![1]
  gather_S100000x64_S1250000x1_S1250000x64_1_0_n_n_0_1_164_wf : GatherDims.WF S100000x64 S1250000x1 S1250000x64 [1] [0] [] [0] [] 1 ![1, 64]
  scatter_S100000x64_S1250000x1_S1250000x64_1_0_0_1_wf : ScatterDims.WF S100000x64 S1250000x1 S1250000x64 [1] [0] [0] 1
  dot_S5000x64_S64x64_S5000x64_1_0_0_1_n_n_wf : DotDims.WF S5000x64 S64x64 S5000x64 [1] [0] [0] [1] [] []
  scatter_S64x64_S100000x1_S100000x64_1_0_0_1_wf : ScatterDims.WF S64x64 S100000x1 S100000x64 [1] [0] [0] 1
  dot_S64x64_S64x10_S64x10_1_0_0_1_n_n_wf : DotDims.WF S64x64 S64x10 S64x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .bf16 = 32 ∨ (Rect.block (s := S100000x64) S5000x64.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S100000x64.size a
  hwx0_1 : ∀ i : grid0.Coords, EltTy.bits .bf16 = 32 ∨ (Rect.block (s := S100000x64) S5000x64.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .bf16 = 32 ∨ (Rect.block (s := S100000x64) S5000x64.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S100000x64.size a
  hwx0_3 : ∀ i : grid0.Coords, EltTy.bits .bf16 = 32 ∨ (Rect.block (s := S100000x64) S5000x64.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x64.size a ≤ S100000x64.size a
  hwx0_4 : ∀ i : grid0.Coords, EltTy.bits .bf16 = 32 ∨ (Rect.block (s := S100000x64) S5000x64.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S5x64x64.size a ≤ S5x64x64.size a
  hwx0_5 : ∀ i : grid0.Coords, EltTy.bits .bf16 = 32 ∨ (Rect.block (s := S5x64x64) S5x64x64.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64.size a ≤ S64.size a
  hwx0_6 : ∀ i : grid0.Coords, EltTy.bits .f32 = 32 ∨ (Rect.block (s := S64) S64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S5000x64.size a ≤ S100000x64.size a
  hwx0_7 : ∀ i : grid0.Coords, EltTy.bits .f32 = 32 ∨ (Rect.block (s := S100000x64) S5000x64.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .bf16 = 32 ∨ (Rect.block (s := S100000x64) S5000x64.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .bf16 = 32 ∨ (Rect.block (s := S100000x64) S5000x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S100000x64.size a
  hwx1_2 : ∀ i : grid1.Coords, EltTy.bits .bf16 = 32 ∨ (Rect.block (s := S100000x64) S5000x64.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x64.size a ≤ S100000x64.size a
  hwx1_3 : ∀ i : grid1.Coords, EltTy.bits .bf16 = 32 ∨ (Rect.block (s := S100000x64) S5000x64.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x64.size a ≤ S100000x64.size a
  hwx1_4 : ∀ i : grid1.Coords, EltTy.bits .bf16 = 32 ∨ (Rect.block (s := S100000x64) S5000x64.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S5x64x64.size a ≤ S5x64x64.size a
  hwx1_5 : ∀ i : grid1.Coords, EltTy.bits .bf16 = 32 ∨ (Rect.block (s := S5x64x64) S5x64x64.size (cc1_transform_5 i) (hinb1_5 i)).WholeWords (EltTy.packing .bf16)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S64.size a ≤ S64.size a
  hwx1_6 : ∀ i : grid1.Coords, EltTy.bits .f32 = 32 ∨ (Rect.block (s := S64) S64.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x64.size a ≤ S100000x64.size a
  hwx1_7 : ∀ i : grid1.Coords, EltTy.bits .f32 = 32 ∨ (Rect.block (s := S100000x64) S5000x64.size (cc1_transform_7 i) (hinb1_7 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S64x64.size a ≤ S64x64.size a
  hwx2_0 : ∀ i : grid2.Coords, EltTy.bits .bf16 = 32 ∨ (Rect.block (s := S64x64) S64x64.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x10.size a ≤ S64x10.size a
  hwx2_1 : ∀ i : grid2.Coords, EltTy.bits .bf16 = 32 ∨ (Rect.block (s := S64x10) S64x10.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S10.size a ≤ S10.size a
  hwx2_2 : ∀ i : grid2.Coords, EltTy.bits .f32 = 32 ∨ (Rect.block (s := S10) S10.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x10.size a ≤ S64x10.size a
  hwx2_3 : ∀ i : grid2.Coords, EltTy.bits .f32 = 32 ∨ (Rect.block (s := S64x10) S64x10.size (cc2_transform_3 i) (hinb2_3 i)).WholeWords (EltTy.packing .f32)

variable [Facts₀]

def scatter_S100000_S1250000x1_S1250000_n_0_0_1 : ScatterDims S100000 S1250000x1 S1250000 where
  updateWindowDims := []
  insertedWindowDims := [0]
  scatterDimsToOperandDims := [0]
  indexVectorDim := 1
  wf := scatter_S100000_S1250000x1_S1250000_n_0_0_1_wf
def gather_S100000_S1250000x1_S1250000_n_0_n_n_0_1_1 : GatherDims S100000 S1250000x1 S1250000 where
  offsetDims := []
  collapsedSliceDims := [0]
  operandBatchingDims := []
  startIndicesBatchingDims := []
  startIndexMap := [0]
  indexVectorDim := 1
  sliceSizes := ![1]
  wf := gather_S100000_S1250000x1_S1250000_n_0_n_n_0_1_1_wf
def gather_S100000x64_S1250000x1_S1250000x64_1_0_n_n_0_1_164 : GatherDims S100000x64 S1250000x1 S1250000x64 where
  offsetDims := [1]
  collapsedSliceDims := [0]
  operandBatchingDims := []
  startIndicesBatchingDims := []
  startIndexMap := [0]
  indexVectorDim := 1
  sliceSizes := ![1, 64]
  wf := gather_S100000x64_S1250000x1_S1250000x64_1_0_n_n_0_1_164_wf
def scatter_S100000x64_S1250000x1_S1250000x64_1_0_0_1 : ScatterDims S100000x64 S1250000x1 S1250000x64 where
  updateWindowDims := [1]
  insertedWindowDims := [0]
  scatterDimsToOperandDims := [0]
  indexVectorDim := 1
  wf := scatter_S100000x64_S1250000x1_S1250000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def scatter_S64x64_S100000x1_S100000x64_1_0_0_1 : ScatterDims S64x64 S100000x1 S100000x64 where
  updateWindowDims := [1]
  insertedWindowDims := [0]
  scatterDimsToOperandDims := [0]
  indexVectorDim := 1
  wf := scatter_S64x64_S100000x1_S100000x64_1_0_0_1_wf
def dot_S64x64_S64x10_S64x10_1_0_0_1_n_n : DotDims S64x64 S64x10 S64x10 where
  lhsContracting := [1]
  rhsContracting := [0]
  lhsNonContracting := [0]
  rhsNonContracting := [1]
  lhsBatch := []
  rhsBatch := []
  wf := dot_S64x64_S64x10_S64x10_1_0_0_1_n_n_wf

abbrev win0_0 : Pipeline.Window sig grid0 :=
  Pipeline.Window.ofSpec (Memref.whole main_v84) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v85) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v86) S5000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v87) S5000x64.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v88) S5000x64.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v21) S5x64x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg4) S64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v89) S5000x64.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v151) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v152) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v153) S5000x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v154) S5000x64.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v155) S5000x64.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v22) S5x64x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg6) S64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v156) S5000x64.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v160) S64x64.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_v161) S64x10.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg8) S10.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v162) S64x10.size cc2_transform_3 reads2_3 true true 1 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S100000x64 : Shape := ⟨2, ![100000, 64]⟩
abbrev S2x1250000 : Shape := ⟨2, ![2, 1250000]⟩
abbrev S100000 : Shape := ⟨1, ![100000]⟩
abbrev S5x64x64 : Shape := ⟨3, ![5, 64, 64]⟩
abbrev S64 : Shape := ⟨1, ![64]⟩
abbrev S64x10 : Shape := ⟨2, ![64, 10]⟩
abbrev S10 : Shape := ⟨1, ![10]⟩
abbrev S1x1250000 : Shape := ⟨2, ![1, 1250000]⟩
abbrev S1250000 : Shape := ⟨1, ![1250000]⟩
abbrev S_ : Shape := ⟨0, ![]⟩
abbrev S1250000x1 : Shape := ⟨2, ![1250000, 1]⟩
abbrev S1x64x64 : Shape := ⟨3, ![1, 64, 64]⟩
abbrev S64x64 : Shape := ⟨2, ![64, 64]⟩
abbrev S1250000x64 : Shape := ⟨2, ![1250000, 64]⟩
abbrev S1x64 : Shape := ⟨2, ![1, 64]⟩
abbrev S100000x1 : Shape := ⟨2, ![100000, 1]⟩
abbrev S1x10 : Shape := ⟨2, ![1, 10]⟩

abbrev nBuf : Space → Nat
  | .hbm => 307
  | .vmem => 0
  | .smem => 0
  | _ => 0

abbrev hbmTy0_0 (i : Nat) : BufTy := match i % 128 with
  | 0 => ⟨S100000x64, .f32⟩
  | 1 => ⟨S2x1250000, .i32⟩
  | 2 => ⟨S100000, .i32⟩
  | 3 => ⟨S5x64x64, .f32⟩
  | 4 => ⟨S64, .f32⟩
  | 5 => ⟨S5x64x64, .f32⟩
  | 6 => ⟨S64, .f32⟩
  | 7 => ⟨S64x10, .f32⟩
  | 8 => ⟨S10, .f32⟩
  | 9 => ⟨S1x1250000, .i32⟩
  | 10 => ⟨S1250000, .i32⟩
  | 11 => ⟨S1x1250000, .i32⟩
  | 12 => ⟨S1250000, .i32⟩
  | 13 => ⟨S_, .f32⟩
  | 14 => ⟨S1250000, .f32⟩
  | 15 => ⟨S_, .f32⟩
  | 16 => ⟨S100000, .f32⟩
  | 17 => ⟨S1250000x1, .i32⟩
  | 18 => ⟨S100000, .f32⟩
  | 19 => ⟨S_, .f32⟩
  | 20 => ⟨S100000, .f32⟩
  | 21 => ⟨S100000, .i1⟩
  | 22 => ⟨S_, .f32⟩
  | 23 => ⟨S100000, .f32⟩
  | 24 => ⟨S100000, .f32⟩
  | 25 => ⟨S_, .f32⟩
  | 26 => ⟨S_, .f32⟩
  | 27 => ⟨S100000, .f32⟩
  | 28 => ⟨S100000, .f32⟩
  | 29 => ⟨S_, .i32⟩
  | 30 => ⟨S1250000, .i32⟩
  | 31 => ⟨S1250000, .i1⟩
  | 32 => ⟨S_, .i32⟩
  | 33 => ⟨S1250000, .i32⟩
  | 34 => ⟨S1250000, .i32⟩
  | 35 => ⟨S1250000, .i32⟩
  | 36 => ⟨S1250000x1, .i32⟩
  | 37 => ⟨S1250000, .f32⟩
  | 38 => ⟨S1250000, .f32⟩
  | 39 => ⟨S1x64x64, .f32⟩
  | 40 => ⟨S64x64, .f32⟩
  | 41 => ⟨S100000x64, .f32⟩
  | 42 => ⟨S1250000x1, .f32⟩
  | 43 => ⟨S_, .i32⟩
  | 44 => ⟨S1250000, .i32⟩
  | 45 => ⟨S1250000, .i1⟩
  | 46 => ⟨S_, .i32⟩
  | 47 => ⟨S1250000, .i32⟩
  | 48 => ⟨S1250000, .i32⟩
  | 49 => ⟨S1250000, .i32⟩
  | 50 => ⟨S1250000x1, .i32⟩
  | 51 => ⟨S1250000x64, .f32⟩
  | 52 => ⟨S1250000x64, .f32⟩
  | 53 => ⟨S1250000x64, .f32⟩
  | 54 => ⟨S_, .f32⟩
  | 55 => ⟨S100000x64, .f32⟩
  | 56 => ⟨S1250000x1, .i32⟩
  | 57 => ⟨S100000x64, .f32⟩
  | 58 => ⟨S1x64x64, .f32⟩
  | 59 => ⟨S64x64, .f32⟩
  | 60 => ⟨S100000x64, .f32⟩
  | 61 => ⟨S100000x64, .f32⟩
  | 62 => ⟨S1250000x1, .f32⟩
  | 63 => ⟨S_, .i32⟩
  | 64 => ⟨S1250000, .i32⟩
  | 65 => ⟨S1250000, .i1⟩
  | 66 => ⟨S_, .i32⟩
  | 67 => ⟨S1250000, .i32⟩
  | 68 => ⟨S1250000, .i32⟩
  | 69 => ⟨S1250000, .i32⟩
  | 70 => ⟨S1250000x1, .i32⟩
  | 71 => ⟨S1250000x64, .f32⟩
  | 72 => ⟨S1250000x64, .f32⟩
  | 73 => ⟨S1250000x64, .f32⟩
  | 74 => ⟨S_, .f32⟩
  | 75 => ⟨S100000x64, .f32⟩
  | 76 => ⟨S1250000x1, .i32⟩
  | 77 => ⟨S100000x64, .f32⟩
  | 78 => ⟨S_, .f32⟩
  | 79 => ⟨S100000x64, .f32⟩
  | 80 => ⟨S100000x64, .f32⟩
  | 81 => ⟨S100000x64, .f32⟩
  | 82 => ⟨S1x64x64, .f32⟩
  | 83 => ⟨S64x64, .f32⟩
  | 84 => ⟨S100000x64, .f32⟩
  | 85 => ⟨S100000x64, .f32⟩
  | 86 => ⟨S1250000x1, .f32⟩
  | 87 => ⟨S_, .i32⟩
  | 88 => ⟨S1250000, .i32⟩
  | 89 => ⟨S1250000, .i1⟩
  | 90 => ⟨S_, .i32⟩
  | 91 => ⟨S1250000, .i32⟩
  | 92 => ⟨S1250000, .i32⟩
  | 93 => ⟨S1250000, .i32⟩
  | 94 => ⟨S1250000x1, .i32⟩
  | 95 => ⟨S1250000x64, .f32⟩
  | 96 => ⟨S1250000x64, .f32⟩
  | 97 => ⟨S1250000x64, .f32⟩
  | 98 => ⟨S_, .f32⟩
  | 99 => ⟨S100000x64, .f32⟩
  | 100 => ⟨S1250000x1, .i32⟩
  | 101 => ⟨S100000x64, .f32⟩
  | 102 => ⟨S_, .f32⟩
  | 103 => ⟨S100000x64, .f32⟩
  | 104 => ⟨S100000x64, .f32⟩
  | 105 => ⟨S100000x64, .f32⟩
  | 106 => ⟨S1x64x64, .f32⟩
  | 107 => ⟨S64x64, .f32⟩
  | 108 => ⟨S100000x64, .f32⟩
  | 109 => ⟨S100000x64, .f32⟩
  | 110 => ⟨S1250000x1, .f32⟩
  | 111 => ⟨S_, .i32⟩
  | 112 => ⟨S1250000, .i32⟩
  | 113 => ⟨S1250000, .i1⟩
  | 114 => ⟨S_, .i32⟩
  | 115 => ⟨S1250000, .i32⟩
  | 116 => ⟨S1250000, .i32⟩
  | 117 => ⟨S1250000, .i32⟩
  | 118 => ⟨S1250000x1, .i32⟩
  | 119 => ⟨S1250000x64, .f32⟩
  | 120 => ⟨S1250000x64, .f32⟩
  | 121 => ⟨S1250000x64, .f32⟩
  | 122 => ⟨S_, .f32⟩
  | 123 => ⟨S100000x64, .f32⟩
  | 124 => ⟨S1250000x1, .i32⟩
  | 125 => ⟨S100000x64, .f32⟩
  | 126 => ⟨S_, .f32⟩
  | 127 => ⟨S100000x64, .f32⟩
  | _ => ⟨S100000x64, .f32⟩

abbrev hbmTy0_1 (i : Nat) : BufTy := match i % 128 with
  | 0 => ⟨S100000x64, .f32⟩
  | 1 => ⟨S100000x64, .f32⟩
  | 2 => ⟨S1x64x64, .f32⟩
  | 3 => ⟨S64x64, .f32⟩
  | 4 => ⟨S100000x64, .f32⟩
  | 5 => ⟨S100000x64, .f32⟩
  | 6 => ⟨S1x64, .f32⟩
  | 7 => ⟨S100000x64, .f32⟩
  | 8 => ⟨S100000x64, .f32⟩
  | 9 => ⟨S_, .f32⟩
  | 10 => ⟨S_, .f32⟩
  | 11 => ⟨S100000x64, .f32⟩
  | 12 => ⟨S100000x64, .i1⟩
  | 13 => ⟨S_, .f32⟩
  | 14 => ⟨S100000x64, .f32⟩
  | 15 => ⟨S100000x64, .i1⟩
  | 16 => ⟨S_, .f32⟩
  | 17 => ⟨S_, .f32⟩
  | 18 => ⟨S100000x64, .f32⟩
  | 19 => ⟨S100000x64, .f32⟩
  | 20 => ⟨S100000x64, .f32⟩
  | 21 => ⟨S_, .f32⟩
  | 22 => ⟨S100000x64, .f32⟩
  | 23 => ⟨S100000x64, .f32⟩
  | 24 => ⟨S100000x64, .f32⟩
  | 25 => ⟨S_, .f32⟩
  | 26 => ⟨S100000x64, .f32⟩
  | 27 => ⟨S100000x64, .f32⟩
  | 28 => ⟨S_, .f32⟩
  | 29 => ⟨S1250000, .f32⟩
  | 30 => ⟨S_, .f32⟩
  | 31 => ⟨S100000, .f32⟩
  | 32 => ⟨S1250000x1, .i32⟩
  | 33 => ⟨S100000, .f32⟩
  | 34 => ⟨S_, .f32⟩
  | 35 => ⟨S100000, .f32⟩
  | 36 => ⟨S100000, .i1⟩
  | 37 => ⟨S_, .f32⟩
  | 38 => ⟨S100000, .f32⟩
  | 39 => ⟨S100000, .f32⟩
  | 40 => ⟨S_, .f32⟩
  | 41 => ⟨S_, .f32⟩
  | 42 => ⟨S100000, .f32⟩
  | 43 => ⟨S100000, .f32⟩
  | 44 => ⟨S_, .i32⟩
  | 45 => ⟨S1250000, .i32⟩
  | 46 => ⟨S1250000, .i1⟩
  | 47 => ⟨S_, .i32⟩
  | 48 => ⟨S1250000, .i32⟩
  | 49 => ⟨S1250000, .i32⟩
  | 50 => ⟨S1250000, .i32⟩
  | 51 => ⟨S1250000x1, .i32⟩
  | 52 => ⟨S1250000, .f32⟩
  | 53 => ⟨S1250000, .f32⟩
  | 54 => ⟨S1x64x64, .f32⟩
  | 55 => ⟨S64x64, .f32⟩
  | 56 => ⟨S100000x64, .f32⟩
  | 57 => ⟨S1250000x1, .f32⟩
  | 58 => ⟨S_, .i32⟩
  | 59 => ⟨S1250000, .i32⟩
  | 60 => ⟨S1250000, .i1⟩
  | 61 => ⟨S_, .i32⟩
  | 62 => ⟨S1250000, .i32⟩
  | 63 => ⟨S1250000, .i32⟩
  | 64 => ⟨S1250000, .i32⟩
  | 65 => ⟨S1250000x1, .i32⟩
  | 66 => ⟨S1250000x64, .f32⟩
  | 67 => ⟨S1250000x64, .f32⟩
  | 68 => ⟨S1250000x64, .f32⟩
  | 69 => ⟨S_, .f32⟩
  | 70 => ⟨S100000x64, .f32⟩
  | 71 => ⟨S1250000x1, .i32⟩
  | 72 => ⟨S100000x64, .f32⟩
  | 73 => ⟨S1x64x64, .f32⟩
  | 74 => ⟨S64x64, .f32⟩
  | 75 => ⟨S100000x64, .f32⟩
  | 76 => ⟨S100000x64, .f32⟩
  | 77 => ⟨S1250000x1, .f32⟩
  | 78 => ⟨S_, .i32⟩
  | 79 => ⟨S1250000, .i32⟩
  | 80 => ⟨S1250000, .i1⟩
  | 81 => ⟨S_, .i32⟩
  | 82 => ⟨S1250000, .i32⟩
  | 83 => ⟨S1250000, .i32⟩
  | 84 => ⟨S1250000, .i32⟩
  | 85 => ⟨S1250000x1, .i32⟩
  | 86 => ⟨S1250000x64, .f32⟩
  | 87 => ⟨S1250000x64, .f32⟩
  | 88 => ⟨S1250000x64, .f32⟩
  | 89 => ⟨S_, .f32⟩
  | 90 => ⟨S100000x64, .f32⟩
  | 91 => ⟨S1250000x1, .i32⟩
  | 92 => ⟨S100000x64, .f32⟩
  | 93 => ⟨S_, .f32⟩
  | 94 => ⟨S100000x64, .f32⟩
  | 95 => ⟨S100000x64, .f32⟩
  | 96 => ⟨S100000x64, .f32⟩
  | 97 => ⟨S1x64x64, .f32⟩
  | 98 => ⟨S64x64, .f32⟩
  | 99 => ⟨S100000x64, .f32⟩
  | 100 => ⟨S100000x64, .f32⟩
  | 101 => ⟨S1250000x1, .f32⟩
  | 102 => ⟨S_, .i32⟩
  | 103 => ⟨S1250000, .i32⟩
  | 104 => ⟨S1250000, .i1⟩
  | 105 => ⟨S_, .i32⟩
  | 106 => ⟨S1250000, .i32⟩
  | 107 => ⟨S1250000, .i32⟩
  | 108 => ⟨S1250000, .i32⟩
  | 109 => ⟨S1250000x1, .i32⟩
  | 110 => ⟨S1250000x64, .f32⟩
  | 111 => ⟨S1250000x64, .f32⟩
  | 112 => ⟨S1250000x64, .f32⟩
  | 113 => ⟨S_, .f32⟩
  | 114 => ⟨S100000x64, .f32⟩
  | 115 => ⟨S1250000x1, .i32⟩
  | 116 => ⟨S100000x64, .f32⟩
  | 117 => ⟨S_, .f32⟩
  | 118 => ⟨S100000x64, .f32⟩
  | 119 => ⟨S100000x64, .f32⟩
  | 120 => ⟨S100000x64, .f32⟩
  | 121 => ⟨S1x64x64, .f32⟩
  | 122 => ⟨S64x64, .f32⟩
  | 123 => ⟨S100000x64, .f32⟩
  | 124 => ⟨S100000x64, .f32⟩
  | 125 => ⟨S1250000x1, .f32⟩
  | 126 => ⟨S_, .i32⟩
  | 127 => ⟨S1250000, .i32⟩
  | _ => ⟨S100000x64, .f32⟩

abbrev hbmTy0_2 (i : Nat) : BufTy := match i % 128 with
  | 0 => ⟨S1250000, .i1⟩
  | 1 => ⟨S_, .i32⟩
  | 2 => ⟨S1250000, .i32⟩
  | 3 => ⟨S1250000, .i32⟩
  | 4 => ⟨S1250000, .i32⟩
  | 5 => ⟨S1250000x1, .i32⟩
  | 6 => ⟨S1250000x64, .f32⟩
  | 7 => ⟨S1250000x64, .f32⟩
  | 8 => ⟨S1250000x64, .f32⟩
  | 9 => ⟨S_, .f32⟩
  | 10 => ⟨S100000x64, .f32⟩
  | 11 => ⟨S1250000x1, .i32⟩
  | 12 => ⟨S100000x64, .f32⟩
  | 13 => ⟨S_, .f32⟩
  | 14 => ⟨S100000x64, .f32⟩
  | 15 => ⟨S100000x64, .f32⟩
  | 16 => ⟨S100000x64, .f32⟩
  | 17 => ⟨S1x64x64, .f32⟩
  | 18 => ⟨S64x64, .f32⟩
  | 19 => ⟨S100000x64, .f32⟩
  | 20 => ⟨S100000x64, .f32⟩
  | 21 => ⟨S1x64, .f32⟩
  | 22 => ⟨S100000x64, .f32⟩
  | 23 => ⟨S100000x64, .f32⟩
  | 24 => ⟨S_, .f32⟩
  | 25 => ⟨S_, .f32⟩
  | 26 => ⟨S100000x64, .f32⟩
  | 27 => ⟨S100000x64, .i1⟩
  | 28 => ⟨S_, .f32⟩
  | 29 => ⟨S100000x64, .f32⟩
  | 30 => ⟨S100000x64, .i1⟩
  | 31 => ⟨S_, .f32⟩
  | 32 => ⟨S_, .f32⟩
  | 33 => ⟨S100000x64, .f32⟩
  | 34 => ⟨S100000x64, .f32⟩
  | 35 => ⟨S100000x64, .f32⟩
  | 36 => ⟨S_, .f32⟩
  | 37 => ⟨S100000x64, .f32⟩
  | 38 => ⟨S100000x64, .f32⟩
  | 39 => ⟨S100000x64, .f32⟩
  | 40 => ⟨S_, .f32⟩
  | 41 => ⟨S100000x64, .f32⟩
  | 42 => ⟨S100000x64, .f32⟩
  | 43 => ⟨S_, .f32⟩
  | 44 => ⟨S64x64, .f32⟩
  | 45 => ⟨S100000x1, .i32⟩
  | 46 => ⟨S64x64, .f32⟩
  | 47 => ⟨S64x10, .f32⟩
  | 48 => ⟨S1x10, .f32⟩
  | 49 => ⟨S64x10, .f32⟩
  | 50 => ⟨S64x10, .f32⟩
  | _ => ⟨S100000x64, .f32⟩

abbrev hbmTy (i : Nat) : BufTy := match i / 128 with
  | 0 => hbmTy0_0 i
  | 1 => hbmTy0_1 i
  | 2 => hbmTy0_2 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_cst_2 : Ref sig .tc := ⟨.hbm, 22, rfl⟩
abbrev main_v10 : Ref sig .tc := ⟨.hbm, 23, rfl⟩
abbrev main_v11 : Ref sig .tc := ⟨.hbm, 24, rfl⟩
abbrev main_cst_3 : Ref sig .tc := ⟨.hbm, 25, rfl⟩
abbrev main_call0_v0 : Ref sig .tc := ⟨.hbm, 26, rfl⟩
abbrev main_call0_v1 : Ref sig .tc := ⟨.hbm, 27, rfl⟩
abbrev main_v12 : Ref sig .tc := ⟨.hbm, 28, rfl⟩
abbrev main_c : Ref sig .tc := ⟨.hbm, 29, rfl⟩
abbrev main_v13 : Ref sig .tc := ⟨.hbm, 30, rfl⟩
abbrev main_v14 : Ref sig .tc := ⟨.hbm, 31, rfl⟩
abbrev main_c_4 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_c_5 : Ref sig .tc := ⟨.hbm, 43, rfl⟩
abbrev main_v25 : Ref sig .tc := ⟨.hbm, 44, rfl⟩
abbrev main_v26 : Ref sig .tc := ⟨.hbm, 45, rfl⟩
abbrev main_c_6 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_cst_7 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_c_8 : Ref sig .tc := ⟨.hbm, 63, rfl⟩
abbrev main_v42 : Ref sig .tc := ⟨.hbm, 64, rfl⟩
abbrev main_v43 : Ref sig .tc := ⟨.hbm, 65, rfl⟩
abbrev main_c_9 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_cst_10 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_cst_11 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_c_12 : Ref sig .tc := ⟨.hbm, 87, rfl⟩
abbrev main_v62 : Ref sig .tc := ⟨.hbm, 88, rfl⟩
abbrev main_v63 : Ref sig .tc := ⟨.hbm, 89, rfl⟩
abbrev main_c_13 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_cst_14 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_cst_15 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_c_16 : Ref sig .tc := ⟨.hbm, 111, rfl⟩
abbrev main_v82 : Ref sig .tc := ⟨.hbm, 112, rfl⟩
abbrev main_v83 : Ref sig .tc := ⟨.hbm, 113, rfl⟩
abbrev main_c_17 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_cst_18 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_cst_19 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_call1_cst : Ref sig .tc := ⟨.hbm, 137, rfl⟩
abbrev main_call1_call0_cst : Ref sig .tc := ⟨.hbm, 138, rfl⟩
abbrev main_call1_call0_v0 : Ref sig .tc := ⟨.hbm, 139, rfl⟩
abbrev main_call1_call0_v1 : Ref sig .tc := ⟨.hbm, 140, rfl⟩
abbrev main_call1_call0_cst_0 : Ref sig .tc := ⟨.hbm, 141, rfl⟩
abbrev main_call1_call0_v2 : Ref sig .tc := ⟨.hbm, 142, rfl⟩
abbrev main_call1_call0_v3 : Ref sig .tc := ⟨.hbm, 143, rfl⟩
abbrev main_call1_call0_cst_1 : Ref sig .tc := ⟨.hbm, 144, rfl⟩
abbrev main_call1_call0_call0_v0 : Ref sig .tc := ⟨.hbm, 145, rfl⟩
abbrev main_call1_call0_call0_v1 : Ref sig .tc := ⟨.hbm, 146, rfl⟩
abbrev main_call1_call0_v4 : Ref sig .tc := ⟨.hbm, 147, rfl⟩
abbrev main_call1_call0_v5 : Ref sig .tc := ⟨.hbm, 148, rfl⟩
abbrev main_call1_call0_v6 : Ref sig .tc := ⟨.hbm, 149, rfl⟩
abbrev main_call1_call0_v7 : Ref sig .tc := ⟨.hbm, 150, rfl⟩
abbrev main_call1_call0_v8 : Ref sig .tc := ⟨.hbm, 151, rfl⟩
abbrev main_call1_v0 : Ref sig .tc := ⟨.hbm, 152, rfl⟩
abbrev main_call1_cst_0 : Ref sig .tc := ⟨.hbm, 153, rfl⟩
abbrev main_call1_v1 : Ref sig .tc := ⟨.hbm, 154, rfl⟩
abbrev main_v104 : Ref sig .tc := ⟨.hbm, 155, rfl⟩
abbrev main_cst_20 : Ref sig .tc := ⟨.hbm, 156, rfl⟩
abbrev main_v105 : Ref sig .tc := ⟨.hbm, 157, rfl⟩
abbrev main_cst_21 : Ref sig .tc := ⟨.hbm, 158, rfl⟩
abbrev main_v106 : Ref sig .tc := ⟨.hbm, 159, rfl⟩
abbrev main_v107 : Ref sig .tc := ⟨.hbm, 160, rfl⟩
abbrev main_v108 : Ref sig .tc := ⟨.hbm, 161, rfl⟩
abbrev main_cst_22 : Ref sig .tc := ⟨.hbm, 162, rfl⟩
abbrev main_v109 : Ref sig .tc := ⟨.hbm, 163, rfl⟩
abbrev main_v110 : Ref sig .tc := ⟨.hbm, 164, rfl⟩
abbrev main_cst_23 : Ref sig .tc := ⟨.hbm, 165, rfl⟩
abbrev main_v111 : Ref sig .tc := ⟨.hbm, 166, rfl⟩
abbrev main_v112 : Ref sig .tc := ⟨.hbm, 167, rfl⟩
abbrev main_cst_24 : Ref sig .tc := ⟨.hbm, 168, rfl⟩
abbrev main_call2_v0 : Ref sig .tc := ⟨.hbm, 169, rfl⟩
abbrev main_call2_v1 : Ref sig .tc := ⟨.hbm, 170, rfl⟩
abbrev main_v113 : Ref sig .tc := ⟨.hbm, 171, rfl⟩
abbrev main_c_25 : Ref sig .tc := ⟨.hbm, 172, rfl⟩
abbrev main_v114 : Ref sig .tc := ⟨.hbm, 173, rfl⟩
abbrev main_v115 : Ref sig .tc := ⟨.hbm, 174, rfl⟩
abbrev main_c_26 : Ref sig .tc := ⟨.hbm, 175, rfl⟩
abbrev main_v116 : Ref sig .tc := ⟨.hbm, 176, rfl⟩
abbrev main_v117 : Ref sig .tc := ⟨.hbm, 177, rfl⟩
abbrev main_v118 : Ref sig .tc := ⟨.hbm, 178, rfl⟩
abbrev main_v119 : Ref sig .tc := ⟨.hbm, 179, rfl⟩
abbrev main_v120 : Ref sig .tc := ⟨.hbm, 180, rfl⟩
abbrev main_v121 : Ref sig .tc := ⟨.hbm, 181, rfl⟩
abbrev main_v122 : Ref sig .tc := ⟨.hbm, 182, rfl⟩
abbrev main_v123 : Ref sig .tc := ⟨.hbm, 183, rfl⟩
abbrev main_v124 : Ref sig .tc := ⟨.hbm, 184, rfl⟩
abbrev main_v125 : Ref sig .tc := ⟨.hbm, 185, rfl⟩
abbrev main_c_27 : Ref sig .tc := ⟨.hbm, 186, rfl⟩
abbrev main_v126 : Ref sig .tc := ⟨.hbm, 187, rfl⟩
abbrev main_v127 : Ref sig .tc := ⟨.hbm, 188, rfl⟩
abbrev main_c_28 : Ref sig .tc := ⟨.hbm, 189, rfl⟩
abbrev main_v128 : Ref sig .tc := ⟨.hbm, 190, rfl⟩
abbrev main_v129 : Ref sig .tc := ⟨.hbm, 191, rfl⟩
abbrev main_v130 : Ref sig .tc := ⟨.hbm, 192, rfl⟩
abbrev main_v131 : Ref sig .tc := ⟨.hbm, 193, rfl⟩
abbrev main_v132 : Ref sig .tc := ⟨.hbm, 194, rfl⟩
abbrev main_v133 : Ref sig .tc := ⟨.hbm, 195, rfl⟩
abbrev main_v134 : Ref sig .tc := ⟨.hbm, 196, rfl⟩
abbrev main_cst_29 : Ref sig .tc := ⟨.hbm, 197, rfl⟩
abbrev main_v135 : Ref sig .tc := ⟨.hbm, 198, rfl⟩
abbrev main_v136 : Ref sig .tc := ⟨.hbm, 199, rfl⟩
abbrev main_v137 : Ref sig .tc := ⟨.hbm, 200, rfl⟩
abbrev main_v138 : Ref sig .tc := ⟨.hbm, 201, rfl⟩
abbrev main_v139 : Ref sig .tc := ⟨.hbm, 202, rfl⟩
abbrev main_v140 : Ref sig .tc := ⟨.hbm, 203, rfl⟩
abbrev main_v141 : Ref sig .tc := ⟨.hbm, 204, rfl⟩
abbrev main_v142 : Ref sig .tc := ⟨.hbm, 205, rfl⟩
abbrev main_c_30 : Ref sig .tc := ⟨.hbm, 206, rfl⟩
abbrev main_v143 : Ref sig .tc := ⟨.hbm, 207, rfl⟩
abbrev main_v144 : Ref sig .tc := ⟨.hbm, 208, rfl⟩
abbrev main_c_31 : Ref sig .tc := ⟨.hbm, 209, rfl⟩
abbrev main_v145 : Ref sig .tc := ⟨.hbm, 210, rfl⟩
abbrev main_v146 : Ref sig .tc := ⟨.hbm, 211, rfl⟩
abbrev main_v147 : Ref sig .tc := ⟨.hbm, 212, rfl⟩
abbrev main_v148 : Ref sig .tc := ⟨.hbm, 213, rfl⟩
abbrev main_v149 : Ref sig .tc := ⟨.hbm, 214, rfl⟩
abbrev main_v150 : Ref sig .tc := ⟨.hbm, 215, rfl⟩
abbrev main_v151 : Ref sig .tc := ⟨.hbm, 216, rfl⟩
abbrev main_cst_32 : Ref sig .tc := ⟨.hbm, 217, rfl⟩
abbrev main_v152 : Ref sig .tc := ⟨.hbm, 218, rfl⟩
abbrev main_v153 : Ref sig .tc := ⟨.hbm, 219, rfl⟩
abbrev main_v154 : Ref sig .tc := ⟨.hbm, 220, rfl⟩
abbrev main_cst_33 : Ref sig .tc := ⟨.hbm, 221, rfl⟩
abbrev main_v155 : Ref sig .tc := ⟨.hbm, 222, rfl⟩
abbrev main_v156 : Ref sig .tc := ⟨.hbm, 223, rfl⟩
abbrev main_v157 : Ref sig .tc := ⟨.hbm, 224, rfl⟩
abbrev main_v158 : Ref sig .tc := ⟨.hbm, 225, rfl⟩
abbrev main_v159 : Ref sig .tc := ⟨.hbm, 226, rfl⟩
abbrev main_v160 : Ref sig .tc := ⟨.hbm, 227, rfl⟩
abbrev main_v161 : Ref sig .tc := ⟨.hbm, 228, rfl⟩
abbrev main_v162 : Ref sig .tc := ⟨.hbm, 229, rfl⟩
abbrev main_c_34 : Ref sig .tc := ⟨.hbm, 230, rfl⟩
abbrev main_v163 : Ref sig .tc := ⟨.hbm, 231, rfl⟩
abbrev main_v164 : Ref sig .tc := ⟨.hbm, 232, rfl⟩
abbrev main_c_35 : Ref sig .tc := ⟨.hbm, 233, rfl⟩
abbrev main_v165 : Ref sig .tc := ⟨.hbm, 234, rfl⟩
abbrev main_v166 : Ref sig .tc := ⟨.hbm, 235, rfl⟩
abbrev main_v167 : Ref sig .tc := ⟨.hbm, 236, rfl⟩
abbrev main_v168 : Ref sig .tc := ⟨.hbm, 237, rfl⟩
abbrev main_v169 : Ref sig .tc := ⟨.hbm, 238, rfl⟩
abbrev main_v170 : Ref sig .tc := ⟨.hbm, 239, rfl⟩
abbrev main_v171 : Ref sig .tc := ⟨.hbm, 240, rfl⟩
abbrev main_cst_36 : Ref sig .tc := ⟨.hbm, 241, rfl⟩
abbrev main_v172 : Ref sig .tc := ⟨.hbm, 242, rfl⟩
abbrev main_v173 : Ref sig .tc := ⟨.hbm, 243, rfl⟩
abbrev main_v174 : Ref sig .tc := ⟨.hbm, 244, rfl⟩
abbrev main_cst_37 : Ref sig .tc := ⟨.hbm, 245, rfl⟩
abbrev main_v175 : Ref sig .tc := ⟨.hbm, 246, rfl⟩
abbrev main_v176 : Ref sig .tc := ⟨.hbm, 247, rfl⟩
abbrev main_v177 : Ref sig .tc := ⟨.hbm, 248, rfl⟩
abbrev main_v178 : Ref sig .tc := ⟨.hbm, 249, rfl⟩
abbrev main_v179 : Ref sig .tc := ⟨.hbm, 250, rfl⟩
abbrev main_v180 : Ref sig .tc := ⟨.hbm, 251, rfl⟩
abbrev main_v181 : Ref sig .tc := ⟨.hbm, 252, rfl⟩
abbrev main_v182 : Ref sig .tc := ⟨.hbm, 253, rfl⟩
abbrev main_c_38 : Ref sig .tc := ⟨.hbm, 254, rfl⟩
abbrev main_v183 : Ref sig .tc := ⟨.hbm, 255, rfl⟩
abbrev main_v184 : Ref sig .tc := ⟨.hbm, 256, rfl⟩
abbrev main_c_39 : Ref sig .tc := ⟨.hbm, 257, rfl⟩
abbrev main_v185 : Ref sig .tc := ⟨.hbm, 258, rfl⟩
abbrev main_v186 : Ref sig .tc := ⟨.hbm, 259, rfl⟩
abbrev main_v187 : Ref sig .tc := ⟨.hbm, 260, rfl⟩
abbrev main_v188 : Ref sig .tc := ⟨.hbm, 261, rfl⟩
abbrev main_v189 : Ref sig .tc := ⟨.hbm, 262, rfl⟩
abbrev main_v190 : Ref sig .tc := ⟨.hbm, 263, rfl⟩
abbrev main_v191 : Ref sig .tc := ⟨.hbm, 264, rfl⟩
abbrev main_cst_40 : Ref sig .tc := ⟨.hbm, 265, rfl⟩
abbrev main_v192 : Ref sig .tc := ⟨.hbm, 266, rfl⟩
abbrev main_v193 : Ref sig .tc := ⟨.hbm, 267, rfl⟩
abbrev main_v194 : Ref sig .tc := ⟨.hbm, 268, rfl⟩
abbrev main_cst_41 : Ref sig .tc := ⟨.hbm, 269, rfl⟩
abbrev main_v195 : Ref sig .tc := ⟨.hbm, 270, rfl⟩
abbrev main_v196 : Ref sig .tc := ⟨.hbm, 271, rfl⟩
abbrev main_v197 : Ref sig .tc := ⟨.hbm, 272, rfl⟩
abbrev main_v198 : Ref sig .tc := ⟨.hbm, 273, rfl⟩
abbrev main_v199 : Ref sig .tc := ⟨.hbm, 274, rfl⟩
abbrev main_v200 : Ref sig .tc := ⟨.hbm, 275, rfl⟩
abbrev main_v201 : Ref sig .tc := ⟨.hbm, 276, rfl⟩
abbrev main_v202 : Ref sig .tc := ⟨.hbm, 277, rfl⟩
abbrev main_v203 : Ref sig .tc := ⟨.hbm, 278, rfl⟩
abbrev main_v204 : Ref sig .tc := ⟨.hbm, 279, rfl⟩
abbrev main_call3_cst : Ref sig .tc := ⟨.hbm, 280, rfl⟩
abbrev main_call3_call0_cst : Ref sig .tc := ⟨.hbm, 281, rfl⟩
abbrev main_call3_call0_v0 : Ref sig .tc := ⟨.hbm, 282, rfl⟩
abbrev main_call3_call0_v1 : Ref sig .tc := ⟨.hbm, 283, rfl⟩
abbrev main_call3_call0_cst_0 : Ref sig .tc := ⟨.hbm, 284, rfl⟩
abbrev main_call3_call0_v2 : Ref sig .tc := ⟨.hbm, 285, rfl⟩
abbrev main_call3_call0_v3 : Ref sig .tc := ⟨.hbm, 286, rfl⟩
abbrev main_call3_call0_cst_1 : Ref sig .tc := ⟨.hbm, 287, rfl⟩
abbrev main_call3_call0_call0_v0 : Ref sig .tc := ⟨.hbm, 288, rfl⟩
abbrev main_call3_call0_call0_v1 : Ref sig .tc := ⟨.hbm, 289, rfl⟩
abbrev main_call3_call0_v4 : Ref sig .tc := ⟨.hbm, 290, rfl⟩
abbrev main_call3_call0_v5 : Ref sig .tc := ⟨.hbm, 291, rfl⟩
abbrev main_call3_call0_v6 : Ref sig .tc := ⟨.hbm, 292, rfl⟩
abbrev main_call3_call0_v7 : Ref sig .tc := ⟨.hbm, 293, rfl⟩
abbrev main_call3_call0_v8 : Ref sig .tc := ⟨.hbm, 294, rfl⟩
abbrev main_call3_v0 : Ref sig .tc := ⟨.hbm, 295, rfl⟩
abbrev main_call3_cst_0 : Ref sig .tc := ⟨.hbm, 296, rfl⟩
abbrev main_call3_v1 : Ref sig .tc := ⟨.hbm, 297, rfl⟩
abbrev main_v205 : Ref sig .tc := ⟨.hbm, 298, rfl⟩
abbrev main_cst_42 : Ref sig .tc := ⟨.hbm, 299, rfl⟩
abbrev main_v206 : Ref sig .tc := ⟨.hbm, 300, rfl⟩
abbrev main_v207 : Ref sig .tc := ⟨.hbm, 301, rfl⟩
abbrev main_v208 : Ref sig .tc := ⟨.hbm, 302, rfl⟩
abbrev main_v209 : Ref sig .tc := ⟨.hbm, 303, rfl⟩
abbrev main_v210 : Ref sig .tc := ⟨.hbm, 304, rfl⟩
abbrev main_v211 : Ref sig .tc := ⟨.hbm, 305, rfl⟩
abbrev main_v212 : Ref sig .tc := ⟨.hbm, 306, rfl⟩

abbrev nD : Nat := 1
abbrev τ : Topo := Topo.v7x

variable {F : FTy → Type} [FloatOps F]

class Facts₀ : Prop where
  slices_S2x1250000_S1x1250000_0_0 : S2x1250000.Slices ![0, 0] S1x1250000
  shapeCasts_S1x1250000_S1250000 : S1x1250000.ShapeCasts S1250000
  slices_S2x1250000_S1x1250000_1_0 : S2x1250000.Slices ![1, 0] S1x1250000
  bcast_S_S1250000 : S_.BroadcastsInDim S1250000 (![] : Fin 0 → Fin S1250000.rank)
  bcast_S_S100000 : S_.BroadcastsInDim S100000 (![] : Fin 0 → Fin S100000.rank)
  bcast_S1250000_S1250000x1_0 : S1250000.BroadcastsInDim S1250000x1 (![0] : Fin 1 → Fin S1250000x1.rank)
  slices_S5x64x64_S1x64x64_0_0_0 : S5x64x64.Slices ![0, 0, 0] S1x64x64
  shapeCasts_S1x64x64_S64x64 : S1x64x64.ShapeCasts S64x64
  bcast_S1250000x1_S1250000x64_0_1 : S1250000x1.BroadcastsInDim S1250000x64 (![0, 1] : Fin 2 → Fin S1250000x64.rank)
  bcast_S_S100000x64 : S_.BroadcastsInDim S100000x64 (![] : Fin 0 → Fin S100000x64.rank)
  slices_S5x64x64_S1x64x64_1_0_0 : S5x64x64.Slices ![1, 0, 0] S1x64x64
  slices_S5x64x64_S1x64x64_2_0_0 : S5x64x64.Slices ![2, 0, 0] S1x64x64
  slices_S5x64x64_S1x64x64_3_0_0 : S5x64x64.Slices ![3, 0, 0] S1x64x64
  slices_S5x64x64_S1x64x64_4_0_0 : S5x64x64.Slices ![4, 0, 0] S1x64x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S64x64 : S_.BroadcastsInDim S64x64 (![] : Fin 0 → Fin S64x64.rank)
  bcast_S100000_S100000x1_0 : S100000.BroadcastsInDim S100000x1 (![0] : Fin 1 → Fin S100000x1.rank)
  bcast_S10_S1x10_1 : S10.BroadcastsInDim S1x10 (![1] : Fin 1 → Fin S1x10.rank)
  bcast_S1x10_S64x10_0_1 : S1x10.BroadcastsInDim S64x10 (![0, 1] : Fin 2 → Fin S64x10.rank)
  scatter_S100000_S1250000x1_S1250000_n_0_0_1_wf : ScatterDims.WF S100000 S1250000x1 S1250000 [] [0] [0] 1
  gather_S100000_S1250000x1_S1250000_n_0_n_n_0_1_1_wf : GatherDims.WF S100000 S1250000x1 S1250000 [] [0] [] [0] [] 1 ![1]
  dot_S100000x64_S64x64_S100000x64_1_0_0_1_n_n_wf : DotDims.WF S100000x64 S64x64 S100000x64 [1] [0] [0] [1] [] []
  gather_S100000x64_S1250000x1_S1250000x64_1_0_n_n_0_1_164_wf : GatherDims.WF S100000x64 S1250000x1 S1250000x64 [1] [0] [] [0] [] 1 ![1, 64]
  scatter_S100000x64_S1250000x1_S1250000x64_1_0_0_1_wf : ScatterDims.WF S100000x64 S1250000x1 S1250000x64 [1] [0] [0] 1
  scatter_S64x64_S100000x1_S100000x64_1_0_0_1_wf : ScatterDims.WF S64x64 S100000x1 S100000x64 [1] [0] [0] 1
  dot_S64x64_S64x10_S64x10_1_0_0_1_n_n_wf : DotDims.WF S64x64 S64x10 S64x10 [1] [0] [0] [1] [] []

variable [Facts₀]

def scatter_S100000_S1250000x1_S1250000_n_0_0_1 : ScatterDims S100000 S1250000x1 S1250000 where
  updateWindowDims := []
  insertedWindowDims := [0]
  scatterDimsToOperandDims := [0]
  indexVectorDim := 1
  wf := scatter_S100000_S1250000x1_S1250000_n_0_0_1_wf
def gather_S100000_S1250000x1_S1250000_n_0_n_n_0_1_1 : GatherDims S100000 S1250000x1 S1250000 where
  offsetDims := []
  collapsedSliceDims := [0]
  operandBatchingDims := []
  startIndicesBatchingDims := []
  startIndexMap := [0]
  indexVectorDim := 1
  sliceSizes := ![1]
  wf := gather_S100000_S1250000x1_S1250000_n_0_n_n_0_1_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1250000x1_S1250000x64_1_0_n_n_0_1_164 : GatherDims S100000x64 S1250000x1 S1250000x64 where
  offsetDims := [1]
  collapsedSliceDims := [0]
  operandBatchingDims := []
  startIndicesBatchingDims := []
  startIndexMap := [0]
  indexVectorDim := 1
  sliceSizes := ![1, 64]
  wf := gather_S100000x64_S1250000x1_S1250000x64_1_0_n_n_0_1_164_wf
def scatter_S100000x64_S1250000x1_S1250000x64_1_0_0_1 : ScatterDims S100000x64 S1250000x1 S1250000x64 where
  updateWindowDims := [1]
  insertedWindowDims := [0]
  scatterDimsToOperandDims := [0]
  indexVectorDim := 1
  wf := scatter_S100000x64_S1250000x1_S1250000x64_1_0_0_1_wf
def scatter_S64x64_S100000x1_S100000x64_1_0_0_1 : ScatterDims S64x64 S100000x1 S100000x64 where
  updateWindowDims := [1]
  insertedWindowDims := [0]
  scatterDimsToOperandDims := [0]
  indexVectorDim := 1
  wf := scatter_S64x64_S100000x1_S100000x64_1_0_0_1_wf
def dot_S64x64_S64x10_S64x10_1_0_0_1_n_n : DotDims S64x64 S64x10 S64x10 where
  lhsContracting := [1]
  rhsContracting := [0]
  lhsNonContracting := [0]
  rhsNonContracting := [1]
  lhsBatch := []
  rhsBatch := []
  wf := dot_S64x64_S64x10_S64x10_1_0_0_1_n_n_wf

class Facts : Prop extends Facts₀ where

variable [Facts]
-- ==== Proof.KerRun.lean ====
/-
  The idealized kernel's run with its result named. The program is three pipelined regions among stretches of host
  operations; the contents of every buffer at each boundary are a fold through the program from the launch memory, and
  the last of these folds is what every unscoped buffer holds when the program ends. Read at the result buffer it names
  the program's value; read at the nine argument buffers it gives back the launch contents.
-/
import proofs.«178477_j50946902065605_1_alg».proof.Proof.Gen.KernelIdeal.Frame

set_option maxRecDepth 16384

noncomputable section

namespace Cert.KernelIdeal.KerRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program ends, without a fault, with the result buffer at the last boundary's
    contents and the nine arguments as launched. -/
theorem value_run : θ_run defs (onTc (τ := τ) (main (F := F))) ⟨m, fun _ => 0, ρ⟩ (fun r => ∀ c : Dev nD,
      r.2.mem ((c.tc : Thread nD τ).loc main_v162) = W8 m ρ c (Proc.devRef .tc main_v162)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v162 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c)⟩)

end Cert.KernelIdeal.KerRun

end
-- ==== Proof.RefOps.lean ====
/-
  The reference program's host operations, in program order, as lists: one entry per printed line of its @main, the
  lines of a called function (the two-way selects, ELU, SELU) written out at the call over that call's own buffers.
  The lists are cut where the program's printed windows are cut and, besides, after each of the two SELU calls, so
  that the first layer, the second layer and the pooling with the final projection can each be read by itself.
-/
import proofs.«178477_j50946902065605_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 40000000 in
/-- 62 operations. -/
abbrev p0 : List (HloOp τ sig (Elt F)) :=
  ( StableHlo.unary main_arg1 main_v0 ((extractStridedSlice S1x1250000 ![0, 0] · slices_S2x1250000_S1x1250000_0_0) : (⟨S2x1250000, .i32⟩ : BufTy).Contents (Elt F) → (⟨S1x1250000, .i32⟩ : BufTy).Contents (Elt F))
  :: StableHlo.reshape main_v0 main_v1 rfl shapeCasts_S1x1250000_S1250000
  :: StableHlo.unary main_arg1 main_v2 ((extractStridedSlice S1x1250000 ![1, 0] · slices_S2x1250000_S1x1250000_1_0) : (⟨S2x1250000, .i32⟩ : BufTy).Contents (Elt F) → (⟨S1x1250000, .i32⟩ : BufTy).Contents (Elt F))
  :: StableHlo.reshape main_v2 main_v3 rfl shapeCasts_S1x1250000_S1250000
  :: StableHlo.nullary main_cst (constant S_ .f32 0x3F800000#32)
  :: StableHlo.unary main_cst main_v4 (broadcastInDim S1250000 ![] bcast_S_S1250000 : (⟨S_, .f32⟩ : BufTy).Contents (Elt F) → (⟨S1250000, .f32⟩ : BufTy).Contents (Elt F))
  :: StableHlo.nullary main_cst_0 (constant S_ .f32 0x00000000#32)
  :: StableHlo.unary main_cst_0 main_v5 (broadcastInDim S100000 ![] bcast_S_S100000 : (⟨S_, .f32⟩ : BufTy).Contents (Elt F) → (⟨S100000, .f32⟩ : BufTy).Contents (Elt F))
  :: StableHlo.unary main_v1 main_v6 (broadcastInDim S1250000x1 ![0] bcast_S1250000_S1250000x1_0 : (⟨S1250000, .i32⟩ : BufTy).Contents (Elt F) → (⟨S1250000x1, .i32⟩ : BufTy).Contents (Elt F))
  :: StableHlo.ternary main_v5 main_v6 main_v4 main_v7 ((fun x i u => Host.scatterAdd scatter_S100000_S1250000x1_S1250000_n_0_0_1 x i u) : (⟨S100000, .f32⟩ : BufTy).Contents (Elt F) → (⟨S1250000x1, .i32⟩ : BufTy).Contents (Elt F) → (⟨S1250000, .f32⟩ : BufTy).Contents (Elt F) → (⟨S100000, .f32⟩ : BufTy).Contents (Elt F))
  :: StableHlo.nullary main_cst_1 (constant S_ .f32 0x00000000#32)
  :: StableHlo.unary main_cst_1 main_v8 (broadcastInDim S100000 ![] bcast_S_S100000 : (⟨S_, .f32⟩ : BufTy).Contents (Elt F) → (⟨S100000, .f32⟩ : BufTy).Contents (Elt F))
  :: StableHlo.binary main_v7 main_v8 main_v9 (cmpf .ogt : (⟨S100000, .f32⟩ : BufTy).Contents (Elt F) → (⟨S100000, .f32⟩ : BufTy).Contents (Elt F) → (⟨S100000, .i1⟩ : BufTy).Contents (Elt F))
  :: StableHlo.nullary main_cst_2 (constant S_ .f32 0x3F800000#32)
  :: StableHlo.unary main_cst_2 main_v10 (broadcastInDim S100000 ![] bcast_S_S100000 : (⟨S_, .f32⟩ : BufTy).Contents (Elt F) → (⟨S100000, .f32⟩ : BufTy).Contents (Elt F))
  :: StableHlo.binary main_v10 main_v7 main_v11 (Host.divf : (⟨S100000, .f32⟩ : BufTy).Contents (Elt F) → (⟨S100000, .f32⟩ : BufTy).Contents (Elt F) → (⟨S100000, .f32⟩ : BufTy).Contents (Elt F))
  :: StableHlo.nullary main_cst_3 (constant S_ .f32 0x00000000#32)
  :: StableHlo.TRef.unary (.of main_cst_3 : StableHlo.TRef sig ⟨S_, .f32⟩) main_call0.v0 id
  :: StableHlo.TRef.unary main_call0.v0 main_call0.v1 (broadcastInDim S100000 ![] bcast_S_S100000)
  :: StableHlo.TRef.ternary (.of main_v9 : StableHlo.TRef sig ⟨S100000, .i1⟩) (.of main_v11 : StableHlo.TRef sig ⟨S100000, .f32⟩) main_call0.v1 main_call0.v2 select
  :: StableHlo.nullary main_c (constantI S_ 32 0#32)
  :: StableHlo.unary main_c main_v13 (broadcastInDim S1250000 ![] bcast_S_S1250000 : (⟨S_, .i32⟩ : BufTy).Contents (Elt F) → (⟨S1250000, .i32⟩ : BufTy).Contents (Elt F))
  :: StableHlo.binary main_v1 main_v13 main_v14 (cmpi .slt : (⟨S1250000, .i32⟩ : BufTy).Contents (Elt F) → (⟨S1250000, .i32⟩ : BufTy).Contents (Elt F) → (⟨S1250000, .i1⟩ : BufTy).Contents (Elt F))
  :: StableHlo.nullary main_c_4 (constantI S_ 32 100000#32)
  :: StableHlo.unary main_c_4 main_v15 (broadcastInDim S1250000 ![] bcast_S_S1250000 : (⟨S_, .i32⟩ : BufTy).Contents (Elt F) → (⟨S1250000, .i32⟩ : BufTy).Contents (Elt F))
  :: StableHlo.binary main_v1 main_v15 main_v16 (addi : (⟨S1250000, .i32⟩ : BufTy).Contents (Elt F) → (⟨S1250000, .i32⟩ : BufTy).Contents (Elt F) → (⟨S1250000, .i32⟩ : BufTy).Contents (Elt F))
  :: StableHlo.ternary main_v14 main_v16 main_v1 main_v17 (select : (⟨S1250000, .i1⟩ : BufTy).Contents (Elt F) → (⟨S1250000, .i32⟩ : BufTy).Contents (Elt F) → (⟨S1250000, .i32⟩ : BufTy).Contents (Elt F) → (⟨S1250000, .i32⟩ : BufTy).Contents (Elt F))
  :: StableHlo.unary main_v17 main_v18 (broadcastInDim S1250000x1 ![0] bcast_S1250000_S1250000x1_0 : (⟨S1250000, .i32⟩ : BufTy).Contents (Elt F) → (⟨S1250000x1, .i32⟩ : BufTy).Contents (Elt F))
  :: StableHlo.binary main_v12 main_v18 main_v19 ((fun x i => Host.gather gather_S100000_S1250000x1_S1250000_n_0_n_n_0_1_1 x i) : (⟨S100000, .f32⟩ : BufTy).Contents (Elt F) → (⟨S1250000x1, .i32⟩ : BufTy).Contents (Elt F) → (⟨S1250000, .f32⟩ : BufTy).Contents (Elt F))
  :: StableHlo.unary main_v19 main_v20 (Host.negf : (⟨S1250000, .f32⟩ : BufTy).Contents (Elt F) → (⟨S1250000, .f32⟩ : BufTy).Contents (Elt F))
  :: StableHlo.unary main_arg3 main_v21 ((extractStridedSlice S1x64x64 ![0, 0, 0] · slices_S5x64x64_S1x64x64_0_0_0) : (⟨S5x64x64, .f32⟩ : BufTy).Contents (Elt F) → (⟨S1x64x64, .f32⟩ : BufTy).Contents (Elt F))
  :: StableHlo.reshape main_v21 main_v22 rfl shapeCasts_S1x64x64_S64x64
  :: StableHlo.binary main_arg0 main_v22 main_v23 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F))
  :: StableHlo.unary main_v20 main_v24 (broadcastInDim S1250000x1 ![0] bcast_S1250000_S1250000x1_0 : (⟨S1250000, .f32⟩ : BufTy).Contents (Elt F) → (⟨S1250000x1, .f32⟩ : BufTy).Contents (Elt F))
  :: StableHlo.nullary main_c_5 (constantI S_ 32 0#32)
  :: StableHlo.unary main_c_5 main_v25 (broadcastInDim S1250000 ![] bcast_S_S1250000 : (⟨S_, .i32⟩ : BufTy).Contents (Elt F) → (⟨S1250000, .i32⟩ : BufTy).Contents (Elt F))
  :: StableHlo.binary main_v1 main_v25 main_v26 (cmpi .slt : (⟨S1250000, .i32⟩ : BufTy).Contents (Elt F) → (⟨S1250000, .i32⟩ : BufTy).Contents (Elt F) → (⟨S1250000, .i1⟩ : BufTy).Contents (Elt F))
  :: StableHlo.nullary main_c_6 (constantI S_ 32 100000#32)
  :: StableHlo.unary main_c_6 main_v27 (broadcastInDim S1250000 ![] bcast_S_S1250000 : (⟨S_, .i32⟩ : BufTy).Contents (Elt F) → (⟨S1250000, .i32⟩ : BufTy).Contents (Elt F))
  :: StableHlo.binary main_v1 main_v27 main_v28 (addi : (⟨S1250000, .i32⟩ : BufTy).Contents (Elt F) → (⟨S1250000, .i32⟩ : BufTy).Contents (Elt F) → (⟨S1250000, .i32⟩ : BufTy).Contents (Elt F))
  :: StableHlo.ternary main_v26 main_v28 main_v1 main_v29 (select : (⟨S1250000, .i1⟩ : BufTy).Contents (Elt F) → (⟨S1250000, .i32⟩ : BufTy).Contents (Elt F) → (⟨S1250000, .i32⟩ : BufTy).Contents (Elt F) → (⟨S1250000, .i32⟩ : BufTy).Contents (Elt F))
  :: StableHlo.unary main_v29 main_v30 (broadcastInDim S1250000x1 ![0] bcast_S1250000_S1250000x1_0 : (⟨S1250000, .i32⟩ : BufTy).Contents (Elt F) → (⟨S1250000x1, .i32⟩ : BufTy).Contents (Elt F))
  :: StableHlo.binary main_arg0 main_v30 main_v31 ((fun x i => Host.gather gather_S100000x64_S1250000x1_S1250000x64_1_0_n_n_0_1_164 x i) : (⟨S100000x64, .f32⟩ : BufTy).Contents (Elt F) → (⟨S1250000x1, .i32⟩ : BufTy).Contents (Elt F) → (⟨S1250000x64, .f32⟩ : BufTy).Contents (Elt F))
  :: StableHlo.unary main_v24 main_v32 (broadcastInDim S1250000x64 ![0, 1] bcast_S1250000x1_S1250000x64_0_1 : (⟨S1250000x1, .f32⟩ : BufTy).Contents (Elt F) → (⟨S1250000x64, .f32⟩ : BufTy).Contents (Elt F))
  :: StableHlo.binary main_v32 main_v31 main_v33 (mulf : (⟨S1250000x64, .f32⟩ : BufTy).Contents (Elt F) → (⟨S1250000x64, .f32⟩ : BufTy).Contents (Elt F) → (⟨S1250000x64, .f32⟩ : BufTy).Contents (Elt F))
  :: StableHlo.nullary main_cst_7 (constant S_ .f32 0x00000000#32)
  :: StableHlo.unary main_cst_7 main_v34 (broadcastInDim S100000x64 ![] bcast_S_S100000x64 : (⟨S_, .f32⟩ : BufTy).Contents (Elt F) → (⟨S100000x64, .f32⟩ : BufTy).Contents (Elt F))
  :: StableHlo.unary main_v3 main_v35 (broadcastInDim S1250000x1 ![0] bcast_S1250000_S1250000x1_0 : (⟨S1250000, .i32⟩ : BufTy).Contents (Elt F) → (⟨S1250000x1, .i32⟩ : BufTy).Contents (Elt F))
  :: StableHlo.ternary main_v34 main_v35 main_v33 main_v36 ((fun x i u => Host.scatterAdd scatter_S100000x64_S1250000x1_S1250000x64_1_0_0_1 x i u) : (⟨S100000x64, .f32⟩ : BufTy).Contents (Elt F) → (⟨S1250000x1, .i32⟩ : BufTy).Contents (Elt F) → (⟨S1250000x64, .f32⟩ : BufTy).Contents (Elt F) → (⟨S100000x64, .f32⟩ : BufTy).Contents (Elt F))
  :: StableHlo.unary main_arg3 main_v37 ((extractStridedSlice S1x64x64 ![1, 0, 0] · slices_S5x64x64_S1x64x64_1_0_0) : (⟨S5x64x64, .f32⟩ : BufTy).Contents (Elt F) → (⟨S1x64x64, .f32⟩ : BufTy).Contents (Elt F))
  :: StableHlo.reshape main_v37 main_v38 rfl shapeCasts_S1x64x64_S64x64
  :: StableHlo.binary main_v36 main_v38 main_v39 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F))
  :: StableHlo.binary main_v23 main_v39 main_v40 (addf : (⟨S100000x64, .f32⟩ : BufTy).Contents (Elt F) → (⟨S100000x64, .f32⟩ : BufTy).Contents (Elt F) → (⟨S100000x64, .f32⟩ : BufTy).Contents (Elt F))
  :: StableHlo.unary main_v20 main_v41 (broadcastInDim S1250000x1 ![0] bcast_S1250000_S1250000x1_0 : (⟨S1250000, .f32⟩ : BufTy).Contents (Elt F) → (⟨S1250000x1, .f32⟩ : BufTy).Contents (Elt F))
  :: StableHlo.nullary main_c_8 (constantI S_ 32 0#32)
  :: StableHlo.unary main_c_8 main_v42 (broadcastInDim S1250000 ![] bcast_S_S1250000 : (⟨S_, .i32⟩ : BufTy).Contents (Elt F) → (⟨S1250000, .i32⟩ : BufTy).Contents (Elt F))
  :: StableHlo.binary main_v1 main_v42 main_v43 (cmpi .slt : (⟨S1250000, .i32⟩ : BufTy).Contents (Elt F) → (⟨S1250000, .i32⟩ : BufTy).Contents (Elt F) → (⟨S1250000, .i1⟩ : BufTy).Contents (Elt F))
  :: StableHlo.nullary main_c_9 (constantI S_ 32 100000#32)
  :: StableHlo.unary main_c_9 main_v44 (broadcastInDim S1250000 ![] bcast_S_S1250000 : (⟨S_, .i32⟩ : BufTy).Contents (Elt F) → (⟨S1250000, .i32⟩ : BufTy).Contents (Elt F))
  :: StableHlo.binary main_v1 main_v44 main_v45 (addi : (⟨S1250000, .i32⟩ : BufTy).Contents (Elt F) → (⟨S1250000, .i32⟩ : BufTy).Contents (Elt F) → (⟨S1250000, .i32⟩ : BufTy).Contents (Elt F))
  :: StableHlo.ternary main_v43 main_v45 main_v1 main_v46 (select : (⟨S1250000, .i1⟩ : BufTy).Contents (Elt F) → (⟨S1250000, .i32⟩ : BufTy).Contents (Elt F) → (⟨S1250000, .i32⟩ : BufTy).Contents (Elt F) → (⟨S1250000, .i32⟩ : BufTy).Contents (Elt F))
  :: StableHlo.unary main_v46 main_v47 (broadcastInDim S1250000x1 ![0] bcast_S1250000_S1250000x1_0 : (⟨S1250000, .i32⟩ : BufTy).Contents (Elt F) → (⟨S1250000x1, .i32⟩ : BufTy).Contents (Elt F))
  :: [] )

set_option maxHeartbeats 40000000 in
/-- 60 operations. -/
abbrev p1 : List (HloOp τ sig (Elt F)) :=
  ( StableHlo.binary main_v36 main_v47 main_v48 ((fun x i => Host.gather gather_S100000x64_S1250000x1_S1250000x64_1_0_n_n_0_1_164 x i) : (⟨S100000x64, .f32⟩ : BufTy).Contents (Elt F) → (⟨S1250000x1, .i32⟩ : BufTy).Contents (Elt F) → (⟨S1250000x64, .f32⟩ : BufTy).Contents (Elt F))
  :: StableHlo.unary main_v41 main_v49 (broadcastInDim S1250000x64 ![0, 1] bcast_S1250000x1_S1250000x64_0_1 : (⟨S1250000x1, .f32⟩ : BufTy).Contents (Elt F) → (⟨S1250000x64, .f32⟩ : BufTy).Contents (Elt F))
  :: StableHlo.binary main_v49 main_v48 main_v50 (mulf : (⟨S1250000x64, .f32⟩ : BufTy).Contents (Elt F) → (⟨S1250000x64, .f32⟩ : BufTy).Contents (Elt F) → (⟨S1250000x64, .f32⟩ : BufTy).Contents (Elt F))
  :: StableHlo.nullary main_cst_10 (constant S_ .f32 0x00000000#32)
  :: StableHlo.unary main_cst_10 main_v51 (broadcastInDim S100000x64 ![] bcast_S_S100000x64 : (⟨S_, .f32⟩ : BufTy).Contents (Elt F) → (⟨S100000x64, .f32⟩ : BufTy).Contents (Elt F))
  :: StableHlo.unary main_v3 main_v52 (broadcastInDim S1250000x1 ![0] bcast_S1250000_S1250000x1_0 : (⟨S1250000, .i32⟩ : BufTy).Contents (Elt F) → (⟨S1250000x1, .i32⟩ : BufTy).Contents (Elt F))
  :: StableHlo.ternary main_v51 main_v52 main_v50 main_v53 ((fun x i u => Host.scatterAdd scatter_S100000x64_S1250000x1_S1250000x64_1_0_0_1 x i u) : (⟨S100000x64, .f32⟩ : BufTy).Contents (Elt F) → (⟨S1250000x1, .i32⟩ : BufTy).Contents (Elt F) → (⟨S1250000x64, .f32⟩ : BufTy).Contents (Elt F) → (⟨S100000x64, .f32⟩ : BufTy).Contents (Elt F))
  :: StableHlo.nullary main_cst_11 (constant S_ .f32 0x40000000#32)
  :: StableHlo.unary main_cst_11 main_v54 (broadcastInDim S100000x64 ![] bcast_S_S100000x64 : (⟨S_, .f32⟩ : BufTy).Contents (Elt F) → (⟨S100000x64, .f32⟩ : BufTy).Contents (Elt F))
  :: StableHlo.binary main_v54 main_v53 main_v55 (mulf : (⟨S100000x64, .f32⟩ : BufTy).Contents (Elt F) → (⟨S100000x64, .f32⟩ : BufTy).Contents (Elt F) → (⟨S100000x64, .f32⟩ : BufTy).Contents (Elt F))
  :: StableHlo.binary main_v55 main_arg0 main_v56 (subf : (⟨S100000x64, .f32⟩ : BufTy).Contents (Elt F) → (⟨S100000x64, .f32⟩ : BufTy).Contents (Elt F) → (⟨S100000x64, .f32⟩ : BufTy).Contents (Elt F))
  :: StableHlo.unary main_arg3 main_v57 ((extractStridedSlice S1x64x64 ![2, 0, 0] · slices_S5x64x64_S1x64x64_2_0_0) : (⟨S5x64x64, .f32⟩ : BufTy).Contents (Elt F) → (⟨S1x64x64, .f32⟩ : BufTy).Contents (Elt F))
  :: StableHlo.reshape main_v57 main_v58 rfl shapeCasts_S1x64x64_S64x64
  :: StableHlo.binary main_v56 main_v58 main_v59 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F))
  :: StableHlo.binary main_v40 main_v59 main_v60 (addf : (⟨S100000x64, .f32⟩ : BufTy).Contents (Elt F) → (⟨S100000x64, .f32⟩ : BufTy).Contents (Elt F) → (⟨S100000x64, .f32⟩ : BufTy).Contents (Elt F))
  :: StableHlo.unary main_v20 main_v61 (broadcastInDim S1250000x1 ![0] bcast_S1250000_S1250000x1_0 : (⟨S1250000, .f32⟩ : BufTy).Contents (Elt F) → (⟨S1250000x1, .f32⟩ : BufTy).Contents (Elt F))
  :: StableHlo.nullary main_c_12 (constantI S_ 32 0#32)
  :: StableHlo.unary main_c_12 main_v62 (broadcastInDim S1250000 ![] bcast_S_S1250000 : (⟨S_, .i32⟩ : BufTy).Contents (Elt F) → (⟨S1250000, .i32⟩ : BufTy).Contents (Elt F))
  :: StableHlo.binary main_v1 main_v62 main_v63 (cmpi .slt : (⟨S1250000, .i32⟩ : BufTy).Contents (Elt F) → (⟨S1250000, .i32⟩ : BufTy).Contents (Elt F) → (⟨S1250000, .i1⟩ : BufTy).Contents (Elt F))
  :: StableHlo.nullary main_c_13 (constantI S_ 32 100000#32)
  :: StableHlo.unary main_c_13 main_v64 (broadcastInDim S1250000 ![] bcast_S_S1250000 : (⟨S_, .i32⟩ : BufTy).Contents (Elt F) → (⟨S1250000, .i32⟩ : BufTy).Contents (Elt F))
  :: StableHlo.binary main_v1 main_v64 main_v65 (addi : (⟨S1250000, .i32⟩ : BufTy).Contents (Elt F) → (⟨S1250000, .i32⟩ : BufTy).Contents (Elt F) → (⟨S1250000, .i32⟩ : BufTy).Contents (Elt F))
  :: StableHlo.ternary main_v63 main_v65 main_v1 main_v66 (select : (⟨S1250000, .i1⟩ : BufTy).Contents (Elt F) → (⟨S1250000, .i32⟩ : BufTy).Contents (Elt F) → (⟨S1250000, .i32⟩ : BufTy).Contents (Elt F) → (⟨S1250000, .i32⟩ : BufTy).Contents (Elt F))
  :: StableHlo.unary main_v66 main_v67 (broadcastInDim S1250000x1 ![0] bcast_S1250000_S1250000x1_0 : (⟨S1250000, .i32⟩ : BufTy).Contents (Elt F) → (⟨S1250000x1, .i32⟩ : BufTy).Contents (Elt F))
  :: StableHlo.binary main_v56 main_v67 main_v68 ((fun x i => Host.gather gather_S100000x64_S1250000x1_S1250000x64_1_0_n_n_0_1_164 x i) : (⟨S100000x64, .f32⟩ : BufTy).Contents (Elt F) → (⟨S1250000x1, .i32⟩ : BufTy).Contents (Elt F) → (⟨S1250000x64, .f32⟩ : BufTy).Contents (Elt F))
  :: StableHlo.unary main_v61 main_v69 (broadcastInDim S1250000x64 ![0, 1] bcast_S1250000x1_S1250000x64_0_1 : (⟨S1250000x1, .f32⟩ : BufTy).Contents (Elt F) → (⟨S1250000x64, .f32⟩ : BufTy).Contents (Elt F))
  :: StableHlo.binary main_v69 main_v68 main_v70 (mulf : (⟨S1250000x64, .f32⟩ : BufTy).Contents (Elt F) → (⟨S1250000x64, .f32⟩ : BufTy).Contents (Elt F) → (⟨S1250000x64, .f32⟩ : BufTy).Contents (Elt F))
  :: StableHlo.nullary main_cst_14 (constant S_ .f32 0x00000000#32)
  :: StableHlo.unary main_cst_14 main_v71 (broadcastInDim S100000x64 ![] bcast_S_S100000x64 : (⟨S_, .f32⟩ : BufTy).Contents (Elt F) → (⟨S100000x64, .f32⟩ : BufTy).Contents (Elt F))
  :: StableHlo.unary main_v3 main_v72 (broadcastInDim S1250000x1 ![0] bcast_S1250000_S1250000x1_0 : (⟨S1250000, .i32⟩ : BufTy).Contents (Elt F) → (⟨S1250000x1, .i32⟩ : BufTy).Contents (Elt F))
  :: StableHlo.ternary main_v71 main_v72 main_v70 main_v73 ((fun x i u => Host.scatterAdd scatter_S100000x64_S1250000x1_S1250000x64_1_0_0_1 x i u) : (⟨S100000x64, .f32⟩ : BufTy).Contents (Elt F) → (⟨S1250000x1, .i32⟩ : BufTy).Contents (Elt F) → (⟨S1250000x64, .f32⟩ : BufTy).Contents (Elt F) → (⟨S100000x64, .f32⟩ : BufTy).Contents (Elt F))
  :: StableHlo.nullary main_cst_15 (constant S_ .f32 0x40000000#32)
  :: StableHlo.unary main_cst_15 main_v74 (broadcastInDim S100000x64 ![] bcast_S_S100000x64 : (⟨S_, .f32⟩ : BufTy).Contents (Elt F) → (⟨S100000x64, .f32⟩ : BufTy).Contents (Elt F))
  :: StableHlo.binary main_v74 main_v73 main_v75 (mulf : (⟨S100000x64, .f32⟩ : BufTy).Contents (Elt F) → (⟨S100000x64, .f32⟩ : BufTy).Contents (Elt F) → (⟨S100000x64, .f32⟩ : BufTy).Contents (Elt F))
  :: StableHlo.binary main_v75 main_v36 main_v76 (subf : (⟨S100000x64, .f32⟩ : BufTy).Contents (Elt F) → (⟨S100000x64, .f32⟩ : BufTy).Contents (Elt F) → (⟨S100000x64, .f32⟩ : BufTy).Contents (Elt F))
  :: StableHlo.unary main_arg3 main_v77 ((extractStridedSlice S1x64x64 ![3, 0, 0] · slices_S5x64x64_S1x64x64_3_0_0) : (⟨S5x64x64, .f32⟩ : BufTy).Contents (Elt F) → (⟨S1x64x64, .f32⟩ : BufTy).Contents (Elt F))
  :: StableHlo.reshape main_v77 main_v78 rfl shapeCasts_S1x64x64_S64x64
  :: StableHlo.binary main_v76 main_v78 main_v79 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F))
  :: StableHlo.binary main_v60 main_v79 main_v80 (addf : (⟨S100000x64, .f32⟩ : BufTy).Contents (Elt F) → (⟨S100000x64, .f32⟩ : BufTy).Contents (Elt F) → (⟨S100000x64, .f32⟩ : BufTy).Contents (Elt F))
  :: StableHlo.unary main_v20 main_v81 (broadcastInDim S1250000x1 ![0] bcast_S1250000_S1250000x1_0 : (⟨S1250000, .f32⟩ : BufTy).Contents (Elt F) → (⟨S1250000x1, .f32⟩ : BufTy).Contents (Elt F))
  :: StableHlo.nullary main_c_16 (constantI S_ 32 0#32)
  :: StableHlo.unary main_c_16 main_v82 (broadcastInDim S1250000 ![] bcast_S_S1250000 : (⟨S_, .i32⟩ : BufTy).Contents (Elt F) → (⟨S1250000, .i32⟩ : BufTy).Contents (Elt F))
  :: StableHlo.binary main_v1 main_v82 main_v83 (cmpi .slt : (⟨S1250000, .i32⟩ : BufTy).Contents (Elt F) → (⟨S1250000, .i32⟩ : BufTy).Contents (Elt F) → (⟨S1250000, .i1⟩ : BufTy).Contents (Elt F))
  :: StableHlo.nullary main_c_17 (constantI S_ 32 100000#32)
  :: StableHlo.unary main_c_17 main_v84 (broadcastInDim S1250000 ![] bcast_S_S1250000 : (⟨S_, .i32⟩ : BufTy).Contents (Elt F) → (⟨S1250000, .i32⟩ : BufTy).Contents (Elt F))
  :: StableHlo.binary main_v1 main_v84 main_v85 (addi : (⟨S1250000, .i32⟩ : BufTy).Contents (Elt F) → (⟨S1250000, .i32⟩ : BufTy).Contents (Elt F) → (⟨S1250000, .i32⟩ : BufTy).Contents (Elt F))
  :: StableHlo.ternary main_v83 main_v85 main_v1 main_v86 (select : (⟨S1250000, .i1⟩ : BufTy).Contents (Elt F) → (⟨S1250000, .i32⟩ : BufTy).Contents (Elt F) → (⟨S1250000, .i32⟩ : BufTy).Contents (Elt F) → (⟨S1250000, .i32⟩ : BufTy).Contents (Elt F))
  :: StableHlo.unary main_v86 main_v87 (broadcastInDim S1250000x1 ![0] bcast_S1250000_S1250000x1_0 : (⟨S1250000, .i32⟩ : BufTy).Contents (Elt F) → (⟨S1250000x1, .i32⟩ : BufTy).Contents (Elt F))
  :: StableHlo.binary main_v76 main_v87 main_v88 ((fun x i => Host.gather gather_S100000x64_S1250000x1_S1250000x64_1_0_n_n_0_1_164 x i) : (⟨S100000x64, .f32⟩ : BufTy).Contents (Elt F) → (⟨S1250000x1, .i32⟩ : BufTy).Contents (Elt F) → (⟨S1250000x64, .f32⟩ : BufTy).Contents (Elt F))
  :: StableHlo.unary main_v81 main_v89 (broadcastInDim S1250000x64 ![0, 1] bcast_S1250000x1_S1250000x64_0_1 : (⟨S1250000x1, .f32⟩ : BufTy).Contents (Elt F) → (⟨S1250000x64, .f32⟩ : BufTy).Contents (Elt F))
  :: StableHlo.binary main_v89 main_v88 main_v90 (mulf : (⟨S1250000x64, .f32⟩ : BufTy).Contents (Elt F) → (⟨S1250000x64, .f32⟩ : BufTy).Contents (Elt F) → (⟨S1250000x64, .f32⟩ : BufTy).Contents (Elt F))
  :: StableHlo.nullary main_cst_18 (constant S_ .f32 0x00000000#32)
  :: StableHlo.unary main_cst_18 main_v91 (broadcastInDim S100000x64 ![] bcast_S_S100000x64 : (⟨S_, .f32⟩ : BufTy).Contents (Elt F) → (⟨S100000x64, .f32⟩ : BufTy).Contents (Elt F))
  :: StableHlo.unary main_v3 main_v92 (broadcastInDim S1250000x1 ![0] bcast_S1250000_S1250000x1_0 : (⟨S1250000, .i32⟩ : BufTy).Contents (Elt F) → (⟨S1250000x1, .i32⟩ : BufTy).Contents (Elt F))
  :: StableHlo.ternary main_v91 main_v92 main_v90 main_v93 ((fun x i u => Host.scatterAdd scatter_S100000x64_S1250000x1_S1250000x64_1_0_0_1 x i u) : (⟨S100000x64, .f32⟩ : BufTy).Contents (Elt F) → (⟨S1250000x1, .i32⟩ : BufTy).Contents (Elt F) → (⟨S1250000x64, .f32⟩ : BufTy).Contents (Elt F) → (⟨S100000x64, .f32⟩ : BufTy).Contents (Elt F))
  :: StableHlo.nullary main_cst_19 (constant S_ .f32 0x40000000#32)
  :: StableHlo.unary main_cst_19 main_v94 (broadcastInDim S100000x64 ![] bcast_S_S100000x64 : (⟨S_, .f32⟩ : BufTy).Contents (Elt F) → (⟨S100000x64, .f32⟩ : BufTy).Contents (Elt F))
  :: StableHlo.binary main_v94 main_v93 main_v95 (mulf : (⟨S100000x64, .f32⟩ : BufTy).Contents (Elt F) → (⟨S100000x64, .f32⟩ : BufTy).Contents (Elt F) → (⟨S100000x64, .f32⟩ : BufTy).Contents (Elt F))
  :: StableHlo.binary main_v95 main_v56 main_v96 (subf : (⟨S100000x64, .f32⟩ : BufTy).Contents (Elt F) → (⟨S100000x64, .f32⟩ : BufTy).Contents (Elt F) → (⟨S100000x64, .f32⟩ : BufTy).Contents (Elt F))
  :: StableHlo.unary main_arg3 main_v97 ((extractStridedSlice S1x64x64 ![4, 0, 0] · slices_S5x64x64_S1x64x64_4_0_0) : (⟨S5x64x64, .f32⟩ : BufTy).Contents (Elt F) → (⟨S1x64x64, .f32⟩ : BufTy).Contents (Elt F))
  :: [] )

set_option maxHeartbeats 40000000 in
/-- 25 operations. -/
abbrev p2a : List (HloOp τ sig (Elt F)) :=
  ( StableHlo.reshape main_v97 main_v98 rfl shapeCasts_S1x64x64_S64x64
  :: StableHlo.binary main_v96 main_v98 main_v99 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F))
  :: StableHlo.binary main_v80 main_v99 main_v100 (addf : (⟨S100000x64, .f32⟩ : BufTy).Contents (Elt F) → (⟨S100000x64, .f32⟩ : BufTy).Contents (Elt F) → (⟨S100000x64, .f32⟩ : BufTy).Contents (Elt F))
  :: StableHlo.unary main_arg4 main_v101 (broadcastInDim S1x64 ![1] bcast_S64_S1x64_1 : (⟨S64, .f32⟩ : BufTy).Contents (Elt F) → (⟨S1x64, .f32⟩ : BufTy).Contents (Elt F))
  :: StableHlo.unary main_v101 main_v102 (broadcastInDim S100000x64 ![0, 1] bcast_S1x64_S100000x64_0_1 : (⟨S1x64, .f32⟩ : BufTy).Contents (Elt F) → (⟨S100000x64, .f32⟩ : BufTy).Contents (Elt F))
  :: StableHlo.binary main_v100 main_v102 main_v103 (addf : (⟨S100000x64, .f32⟩ : BufTy).Contents (Elt F) → (⟨S100000x64, .f32⟩ : BufTy).Contents (Elt F) → (⟨S100000x64, .f32⟩ : BufTy).Contents (Elt F))
  :: StableHlo.TRef.nullary main_call1.cst (constant S_ .f32 0x3FD62D7D#32)
  :: StableHlo.TRef.nullary main_call1.call0.cst (constant S_ .f32 0x00000000#32)
  :: StableHlo.TRef.unary main_call1.call0.cst main_call1.call0.v0 (broadcastInDim S100000x64 ![] bcast_S_S100000x64)
  :: StableHlo.TRef.binary (.of main_v103 : StableHlo.TRef sig ⟨S100000x64, .f32⟩) main_call1.call0.v0 main_call1.call0.v1 (cmpf .ogt)
  :: StableHlo.TRef.nullary main_call1.call0.cst_0 (constant S_ .f32 0x00000000#32)
  :: StableHlo.TRef.unary main_call1.call0.cst_0 main_call1.call0.v2 (broadcastInDim S100000x64 ![] bcast_S_S100000x64)
  :: StableHlo.TRef.binary (.of main_v103 : StableHlo.TRef sig ⟨S100000x64, .f32⟩) main_call1.call0.v2 main_call1.call0.v3 (cmpf .ogt)
  :: StableHlo.TRef.nullary main_call1.call0.cst_1 (constant S_ .f32 0x00000000#32)
  :: StableHlo.TRef.unary main_call1.call0.cst_1 main_call1.call0.call0.v0 id
  :: StableHlo.TRef.unary main_call1.call0.call0.v0 main_call1.call0.call0.v1 (broadcastInDim S100000x64 ![] bcast_S_S100000x64)
  :: StableHlo.TRef.ternary main_call1.call0.v3 main_call1.call0.call0.v1 (.of main_v103 : StableHlo.TRef sig ⟨S100000x64, .f32⟩) main_call1.call0.call0.v2 select
  :: StableHlo.TRef.unary main_call1.call0.call0.v2 main_call1.call0.v5 Host.expm1
  :: StableHlo.TRef.unary main_call1.cst main_call1.call0.v6 id
  :: StableHlo.TRef.unary main_call1.call0.v6 main_call1.call0.v7 (broadcastInDim S100000x64 ![] bcast_S_S100000x64)
  :: StableHlo.TRef.binary main_call1.call0.v7 main_call1.call0.v5 main_call1.call0.v8 mulf
  :: StableHlo.TRef.ternary main_call1.call0.v1 (.of main_v103 : StableHlo.TRef sig ⟨S100000x64, .f32⟩) main_call1.call0.v8 main_call1.call0.call1.v0 select
  :: StableHlo.TRef.nullary main_call1.cst_0 (constant S_ .f32 0x3F867D5F#32)
  :: StableHlo.TRef.unary main_call1.cst_0 main_call1.v1 (broadcastInDim S100000x64 ![] bcast_S_S100000x64)
  :: StableHlo.TRef.binary main_call1.v1 main_call1.call0.call1.v0 main_call1.v2 mulf
  :: [] )

set_option maxHeartbeats 40000000 in
/-- 55 operations. -/
abbrev p2b : List (HloOp τ sig (Elt F)) :=
  ( StableHlo.nullary main_cst_20 (constant S_ .f32 0x3F800000#32)
  :: StableHlo.unary main_cst_20 main_v105 (broadcastInDim S1250000 ![] bcast_S_S1250000 : (⟨S_, .f32⟩ : BufTy).Contents (Elt F) → (⟨S1250000, .f32⟩ : BufTy).Contents (Elt F))
  :: StableHlo.nullary main_cst_21 (constant S_ .f32 0x00000000#32)
  :: StableHlo.unary main_cst_21 main_v106 (broadcastInDim S100000 ![] bcast_S_S100000 : (⟨S_, .f32⟩ : BufTy).Contents (Elt F) → (⟨S100000, .f32⟩ : BufTy).Contents (Elt F))
  :: StableHlo.unary main_v1 main_v107 (broadcastInDim S1250000x1 ![0] bcast_S1250000_S1250000x1_0 : (⟨S1250000, .i32⟩ : BufTy).Contents (Elt F) → (⟨S1250000x1, .i32⟩ : BufTy).Contents (Elt F))
  :: StableHlo.ternary main_v106 main_v107 main_v105 main_v108 ((fun x i u => Host.scatterAdd scatter_S100000_S1250000x1_S1250000_n_0_0_1 x i u) : (⟨S100000, .f32⟩ : BufTy).Contents (Elt F) → (⟨S1250000x1, .i32⟩ : BufTy).Contents (Elt F) → (⟨S1250000, .f32⟩ : BufTy).Contents (Elt F) → (⟨S100000, .f32⟩ : BufTy).Contents (Elt F))
  :: StableHlo.nullary main_cst_22 (constant S_ .f32 0x00000000#32)
  :: StableHlo.unary main_cst_22 main_v109 (broadcastInDim S100000 ![] bcast_S_S100000 : (⟨S_, .f32⟩ : BufTy).Contents (Elt F) → (⟨S100000, .f32⟩ : BufTy).Contents (Elt F))
  :: StableHlo.binary main_v108 main_v109 main_v110 (cmpf .ogt : (⟨S100000, .f32⟩ : BufTy).Contents (Elt F) → (⟨S100000, .f32⟩ : BufTy).Contents (Elt F) → (⟨S100000, .i1⟩ : BufTy).Contents (Elt F))
  :: StableHlo.nullary main_cst_23 (constant S_ .f32 0x3F800000#32)
  :: StableHlo.unary main_cst_23 main_v111 (broadcastInDim S100000 ![] bcast_S_S100000 : (⟨S_, .f32⟩ : BufTy).Contents (Elt F) → (⟨S100000, .f32⟩ : BufTy).Contents (Elt F))
  :: StableHlo.binary main_v111 main_v108 main_v112 (Host.divf : (⟨S100000, .f32⟩ : BufTy).Contents (Elt F) → (⟨S100000, .f32⟩ : BufTy).Contents (Elt F) → (⟨S100000, .f32⟩ : BufTy).Contents (Elt F))
  :: StableHlo.nullary main_cst_24 (constant S_ .f32 0x00000000#32)
  :: StableHlo.TRef.unary (.of main_cst_24 : StableHlo.TRef sig ⟨S_, .f32⟩) main_call2.v0 id
  :: StableHlo.TRef.unary main_call2.v0 main_call2.v1 (broadcastInDim S100000 ![] bcast_S_S100000)
  :: StableHlo.TRef.ternary (.of main_v110 : StableHlo.TRef sig ⟨S100000, .i1⟩) (.of main_v112 : StableHlo.TRef sig ⟨S100000, .f32⟩) main_call2.v1 main_call2.v2 select
  :: StableHlo.nullary main_c_25 (constantI S_ 32 0#32)
  :: StableHlo.unary main_c_25 main_v114 (broadcastInDim S1250000 ![] bcast_S_S1250000 : (⟨S_, .i32⟩ : BufTy).Contents (Elt F) → (⟨S1250000, .i32⟩ : BufTy).Contents (Elt F))
  :: StableHlo.binary main_v1 main_v114 main_v115 (cmpi .slt : (⟨S1250000, .i32⟩ : BufTy).Contents (Elt F) → (⟨S1250000, .i32⟩ : BufTy).Contents (Elt F) → (⟨S1250000, .i1⟩ : BufTy).Contents (Elt F))
  :: StableHlo.nullary main_c_26 (constantI S_ 32 100000#32)
  :: StableHlo.unary main_c_26 main_v116 (broadcastInDim S1250000 ![] bcast_S_S1250000 : (⟨S_, .i32⟩ : BufTy).Contents (Elt F) → (⟨S1250000, .i32⟩ : BufTy).Contents (Elt F))
  :: StableHlo.binary main_v1 main_v116 main_v117 (addi : (⟨S1250000, .i32⟩ : BufTy).Contents (Elt F) → (⟨S1250000, .i32⟩ : BufTy).Contents (Elt F) → (⟨S1250000, .i32⟩ : BufTy).Contents (Elt F))
  :: StableHlo.ternary main_v115 main_v117 main_v1 main_v118 (select : (⟨S1250000, .i1⟩ : BufTy).Contents (Elt F) → (⟨S1250000, .i32⟩ : BufTy).Contents (Elt F) → (⟨S1250000, .i32⟩ : BufTy).Contents (Elt F) → (⟨S1250000, .i32⟩ : BufTy).Contents (Elt F))
  :: StableHlo.unary main_v118 main_v119 (broadcastInDim S1250000x1 ![0] bcast_S1250000_S1250000x1_0 : (⟨S1250000, .i32⟩ : BufTy).Contents (Elt F) → (⟨S1250000x1, .i32⟩ : BufTy).Contents (Elt F))
  :: StableHlo.binary main_v113 main_v119 main_v120 ((fun x i => Host.gather gather_S100000_S1250000x1_S1250000_n_0_n_n_0_1_1 x i) : (⟨S100000, .f32⟩ : BufTy).Contents (Elt F) → (⟨S1250000x1, .i32⟩ : BufTy).Contents (Elt F) → (⟨S1250000, .f32⟩ : BufTy).Contents (Elt F))
  :: StableHlo.unary main_v120 main_v121 (Host.negf : (⟨S1250000, .f32⟩ : BufTy).Contents (Elt F) → (⟨S1250000, .f32⟩ : BufTy).Contents (Elt F))
  :: StableHlo.unary main_arg5 main_v122 ((extractStridedSlice S1x64x64 ![0, 0, 0] · slices_S5x64x64_S1x64x64_0_0_0) : (⟨S5x64x64, .f32⟩ : BufTy).Contents (Elt F) → (⟨S1x64x64, .f32⟩ : BufTy).Contents (Elt F))
  :: StableHlo.reshape main_v122 main_v123 rfl shapeCasts_S1x64x64_S64x64
  :: StableHlo.binary main_v104 main_v123 main_v124 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F))
  :: StableHlo.unary main_v121 main_v125 (broadcastInDim S1250000x1 ![0] bcast_S1250000_S1250000x1_0 : (⟨S1250000, .f32⟩ : BufTy).Contents (Elt F) → (⟨S1250000x1, .f32⟩ : BufTy).Contents (Elt F))
  :: StableHlo.nullary main_c_27 (constantI S_ 32 0#32)
  :: StableHlo.unary main_c_27 main_v126 (broadcastInDim S1250000 ![] bcast_S_S1250000 : (⟨S_, .i32⟩ : BufTy).Contents (Elt F) → (⟨S1250000, .i32⟩ : BufTy).Contents (Elt F))
  :: StableHlo.binary main_v1 main_v126 main_v127 (cmpi .slt : (⟨S1250000, .i32⟩ : BufTy).Contents (Elt F) → (⟨S1250000, .i32⟩ : BufTy).Contents (Elt F) → (⟨S1250000, .i1⟩ : BufTy).Contents (Elt F))
  :: StableHlo.nullary main_c_28 (constantI S_ 32 100000#32)
  :: StableHlo.unary main_c_28 main_v128 (broadcastInDim S1250000 ![] bcast_S_S1250000 : (⟨S_, .i32⟩ : BufTy).Contents (Elt F) → (⟨S1250000, .i32⟩ : BufTy).Contents (Elt F))
  :: StableHlo.binary main_v1 main_v128 main_v129 (addi : (⟨S1250000, .i32⟩ : BufTy).Contents (Elt F) → (⟨S1250000, .i32⟩ : BufTy).Contents (Elt F) → (⟨S1250000, .i32⟩ : BufTy).Contents (Elt F))
  :: StableHlo.ternary main_v127 main_v129 main_v1 main_v130 (select : (⟨S1250000, .i1⟩ : BufTy).Contents (Elt F) → (⟨S1250000, .i32⟩ : BufTy).Contents (Elt F) → (⟨S1250000, .i32⟩ : BufTy).Contents (Elt F) → (⟨S1250000, .i32⟩ : BufTy).Contents (Elt F))
  :: StableHlo.unary main_v130 main_v131 (broadcastInDim S1250000x1 ![0] bcast_S1250000_S1250000x1_0 : (⟨S1250000, .i32⟩ : BufTy).Contents (Elt F) → (⟨S1250000x1, .i32⟩ : BufTy).Contents (Elt F))
  :: StableHlo.binary main_v104 main_v131 main_v132 ((fun x i => Host.gather gather_S100000x64_S1250000x1_S1250000x64_1_0_n_n_0_1_164 x i) : (⟨S100000x64, .f32⟩ : BufTy).Contents (Elt F) → (⟨S1250000x1, .i32⟩ : BufTy).Contents (Elt F) → (⟨S1250000x64, .f32⟩ : BufTy).Contents (Elt F))
  :: StableHlo.unary main_v125 main_v133 (broadcastInDim S1250000x64 ![0, 1] bcast_S1250000x1_S1250000x64_0_1 : (⟨S1250000x1, .f32⟩ : BufTy).Contents (Elt F) → (⟨S1250000x64, .f32⟩ : BufTy).Contents (Elt F))
  :: StableHlo.binary main_v133 main_v132 main_v134 (mulf : (⟨S1250000x64, .f32⟩ : BufTy).Contents (Elt F) → (⟨S1250000x64, .f32⟩ : BufTy).Contents (Elt F) → (⟨S1250000x64, .f32⟩ : BufTy).Contents (Elt F))
  :: StableHlo.nullary main_cst_29 (constant S_ .f32 0x00000000#32)
  :: StableHlo.unary main_cst_29 main_v135 (broadcastInDim S100000x64 ![] bcast_S_S100000x64 : (⟨S_, .f32⟩ : BufTy).Contents (Elt F) → (⟨S100000x64, .f32⟩ : BufTy).Contents (Elt F))
  :: StableHlo.unary main_v3 main_v136 (broadcastInDim S1250000x1 ![0] bcast_S1250000_S1250000x1_0 : (⟨S1250000, .i32⟩ : BufTy).Contents (Elt F) → (⟨S1250000x1, .i32⟩ : BufTy).Contents (Elt F))
  :: StableHlo.ternary main_v135 main_v136 main_v134 main_v137 ((fun x i u => Host.scatterAdd scatter_S100000x64_S1250000x1_S1250000x64_1_0_0_1 x i u) : (⟨S100000x64, .f32⟩ : BufTy).Contents (Elt F) → (⟨S1250000x1, .i32⟩ : BufTy).Contents (Elt F) → (⟨S1250000x64, .f32⟩ : BufTy).Contents (Elt F) → (⟨S100000x64, .f32⟩ : BufTy).Contents (Elt F))
  :: StableHlo.unary main_arg5 main_v138 ((extractStridedSlice S1x64x64 ![1, 0, 0] · slices_S5x64x64_S1x64x64_1_0_0) : (⟨S5x64x64, .f32⟩ : BufTy).Contents (Elt F) → (⟨S1x64x64, .f32⟩ : BufTy).Contents (Elt F))
  :: StableHlo.reshape main_v138 main_v139 rfl shapeCasts_S1x64x64_S64x64
  :: StableHlo.binary main_v137 main_v139 main_v140 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F))
  :: StableHlo.binary main_v124 main_v140 main_v141 (addf : (⟨S100000x64, .f32⟩ : BufTy).Contents (Elt F) → (⟨S100000x64, .f32⟩ : BufTy).Contents (Elt F) → (⟨S100000x64, .f32⟩ : BufTy).Contents (Elt F))
  :: StableHlo.unary main_v121 main_v142 (broadcastInDim S1250000x1 ![0] bcast_S1250000_S1250000x1_0 : (⟨S1250000, .f32⟩ : BufTy).Contents (Elt F) → (⟨S1250000x1, .f32⟩ : BufTy).Contents (Elt F))
  :: StableHlo.nullary main_c_30 (constantI S_ 32 0#32)
  :: StableHlo.unary main_c_30 main_v143 (broadcastInDim S1250000 ![] bcast_S_S1250000 : (⟨S_, .i32⟩ : BufTy).Contents (Elt F) → (⟨S1250000, .i32⟩ : BufTy).Contents (Elt F))
  :: StableHlo.binary main_v1 main_v143 main_v144 (cmpi .slt : (⟨S1250000, .i32⟩ : BufTy).Contents (Elt F) → (⟨S1250000, .i32⟩ : BufTy).Contents (Elt F) → (⟨S1250000, .i1⟩ : BufTy).Contents (Elt F))
  :: StableHlo.nullary main_c_31 (constantI S_ 32 100000#32)
  :: StableHlo.unary main_c_31 main_v145 (broadcastInDim S1250000 ![] bcast_S_S1250000 : (⟨S_, .i32⟩ : BufTy).Contents (Elt F) → (⟨S1250000, .i32⟩ : BufTy).Contents (Elt F))
  :: [] )

set_option maxHeartbeats 40000000 in
/-- 60 operations. -/
abbrev p3 : List (HloOp τ sig (Elt F)) :=
  ( StableHlo.binary main_v1 main_v145 main_v146 (addi : (⟨S1250000, .i32⟩ : BufTy).Contents (Elt F) → (⟨S1250000, .i32⟩ : BufTy).Contents (Elt F) → (⟨S1250000, .i32⟩ : BufTy).Contents (Elt F))
  :: StableHlo.ternary main_v144 main_v146 main_v1 main_v147 (select : (⟨S1250000, .i1⟩ : BufTy).Contents (Elt F) → (⟨S1250000, .i32⟩ : BufTy).Contents (Elt F) → (⟨S1250000, .i32⟩ : BufTy).Contents (Elt F) → (⟨S1250000, .i32⟩ : BufTy).Contents (Elt F))
  :: StableHlo.unary main_v147 main_v148 (broadcastInDim S1250000x1 ![0] bcast_S1250000_S1250000x1_0 : (⟨S1250000, .i32⟩ : BufTy).Contents (Elt F) → (⟨S1250000x1, .i32⟩ : BufTy).Contents (Elt F))
  :: StableHlo.binary main_v137 main_v148 main_v149 ((fun x i => Host.gather gather_S100000x64_S1250000x1_S1250000x64_1_0_n_n_0_1_164 x i) : (⟨S100000x64, .f32⟩ : BufTy).Contents (Elt F) → (⟨S1250000x1, .i32⟩ : BufTy).Contents (Elt F) → (⟨S1250000x64, .f32⟩ : BufTy).Contents (Elt F))
  :: StableHlo.unary main_v142 main_v150 (broadcastInDim S1250000x64 ![0, 1] bcast_S1250000x1_S1250000x64_0_1 : (⟨S1250000x1, .f32⟩ : BufTy).Contents (Elt F) → (⟨S1250000x64, .f32⟩ : BufTy).Contents (Elt F))
  :: StableHlo.binary main_v150 main_v149 main_v151 (mulf : (⟨S1250000x64, .f32⟩ : BufTy).Contents (Elt F) → (⟨S1250000x64, .f32⟩ : BufTy).Contents (Elt F) → (⟨S1250000x64, .f32⟩ : BufTy).Contents (Elt F))
  :: StableHlo.nullary main_cst_32 (constant S_ .f32 0x00000000#32)
  :: StableHlo.unary main_cst_32 main_v152 (broadcastInDim S100000x64 ![] bcast_S_S100000x64 : (⟨S_, .f32⟩ : BufTy).Contents (Elt F) → (⟨S100000x64, .f32⟩ : BufTy).Contents (Elt F))
  :: StableHlo.unary main_v3 main_v153 (broadcastInDim S1250000x1 ![0] bcast_S1250000_S1250000x1_0 : (⟨S1250000, .i32⟩ : BufTy).Contents (Elt F) → (⟨S1250000x1, .i32⟩ : BufTy).Contents (Elt F))
  :: StableHlo.ternary main_v152 main_v153 main_v151 main_v154 ((fun x i u => Host.scatterAdd scatter_S100000x64_S1250000x1_S1250000x64_1_0_0_1 x i u) : (⟨S100000x64, .f32⟩ : BufTy).Contents (Elt F) → (⟨S1250000x1, .i32⟩ : BufTy).Contents (Elt F) → (⟨S1250000x64, .f32⟩ : BufTy).Contents (Elt F) → (⟨S100000x64, .f32⟩ : BufTy).Contents (Elt F))
  :: StableHlo.nullary main_cst_33 (constant S_ .f32 0x40000000#32)
  :: StableHlo.unary main_cst_33 main_v155 (broadcastInDim S100000x64 ![] bcast_S_S100000x64 : (⟨S_, .f32⟩ : BufTy).Contents (Elt F) → (⟨S100000x64, .f32⟩ : BufTy).Contents (Elt F))
  :: StableHlo.binary main_v155 main_v154 main_v156 (mulf : (⟨S100000x64, .f32⟩ : BufTy).Contents (Elt F) → (⟨S100000x64, .f32⟩ : BufTy).Contents (Elt F) → (⟨S100000x64, .f32⟩ : BufTy).Contents (Elt F))
  :: StableHlo.binary main_v156 main_v104 main_v157 (subf : (⟨S100000x64, .f32⟩ : BufTy).Contents (Elt F) → (⟨S100000x64, .f32⟩ : BufTy).Contents (Elt F) → (⟨S100000x64, .f32⟩ : BufTy).Contents (Elt F))
  :: StableHlo.unary main_arg5 main_v158 ((extractStridedSlice S1x64x64 ![2, 0, 0] · slices_S5x64x64_S1x64x64_2_0_0) : (⟨S5x64x64, .f32⟩ : BufTy).Contents (Elt F) → (⟨S1x64x64, .f32⟩ : BufTy).Contents (Elt F))
  :: StableHlo.reshape main_v158 main_v159 rfl shapeCasts_S1x64x64_S64x64
  :: StableHlo.binary main_v157 main_v159 main_v160 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F))
  :: StableHlo.binary main_v141 main_v160 main_v161 (addf : (⟨S100000x64, .f32⟩ : BufTy).Contents (Elt F) → (⟨S100000x64, .f32⟩ : BufTy).Contents (Elt F) → (⟨S100000x64, .f32⟩ : BufTy).Contents (Elt F))
  :: StableHlo.unary main_v121 main_v162 (broadcastInDim S1250000x1 ![0] bcast_S1250000_S1250000x1_0 : (⟨S1250000, .f32⟩ : BufTy).Contents (Elt F) → (⟨S1250000x1, .f32⟩ : BufTy).Contents (Elt F))
  :: StableHlo.nullary main_c_34 (constantI S_ 32 0#32)
  :: StableHlo.unary main_c_34 main_v163 (broadcastInDim S1250000 ![] bcast_S_S1250000 : (⟨S_, .i32⟩ : BufTy).Contents (Elt F) → (⟨S1250000, .i32⟩ : BufTy).Contents (Elt F))
  :: StableHlo.binary main_v1 main_v163 main_v164 (cmpi .slt : (⟨S1250000, .i32⟩ : BufTy).Contents (Elt F) → (⟨S1250000, .i32⟩ : BufTy).Contents (Elt F) → (⟨S1250000, .i1⟩ : BufTy).Contents (Elt F))
  :: StableHlo.nullary main_c_35 (constantI S_ 32 100000#32)
  :: StableHlo.unary main_c_35 main_v165 (broadcastInDim S1250000 ![] bcast_S_S1250000 : (⟨S_, .i32⟩ : BufTy).Contents (Elt F) → (⟨S1250000, .i32⟩ : BufTy).Contents (Elt F))
  :: StableHlo.binary main_v1 main_v165 main_v166 (addi : (⟨S1250000, .i32⟩ : BufTy).Contents (Elt F) → (⟨S1250000, .i32⟩ : BufTy).Contents (Elt F) → (⟨S1250000, .i32⟩ : BufTy).Contents (Elt F))
  :: StableHlo.ternary main_v164 main_v166 main_v1 main_v167 (select : (⟨S1250000, .i1⟩ : BufTy).Contents (Elt F) → (⟨S1250000, .i32⟩ : BufTy).Contents (Elt F) → (⟨S1250000, .i32⟩ : BufTy).Contents (Elt F) → (⟨S1250000, .i32⟩ : BufTy).Contents (Elt F))
  :: StableHlo.unary main_v167 main_v168 (broadcastInDim S1250000x1 ![0] bcast_S1250000_S1250000x1_0 : (⟨S1250000, .i32⟩ : BufTy).Contents (Elt F) → (⟨S1250000x1, .i32⟩ : BufTy).Contents (Elt F))
  :: StableHlo.binary main_v157 main_v168 main_v169 ((fun x i => Host.gather gather_S100000x64_S1250000x1_S1250000x64_1_0_n_n_0_1_164 x i) : (⟨S100000x64, .f32⟩ : BufTy).Contents (Elt F) → (⟨S1250000x1, .i32⟩ : BufTy).Contents (Elt F) → (⟨S1250000x64, .f32⟩ : BufTy).Contents (Elt F))
  :: StableHlo.unary main_v162 main_v170 (broadcastInDim S1250000x64 ![0, 1] bcast_S1250000x1_S1250000x64_0_1 : (⟨S1250000x1, .f32⟩ : BufTy).Contents (Elt F) → (⟨S1250000x64, .f32⟩ : BufTy).Contents (Elt F))
  :: StableHlo.binary main_v170 main_v169 main_v171 (mulf : (⟨S1250000x64, .f32⟩ : BufTy).Contents (Elt F) → (⟨S1250000x64, .f32⟩ : BufTy).Contents (Elt F) → (⟨S1250000x64, .f32⟩ : BufTy).Contents (Elt F))
  :: StableHlo.nullary main_cst_36 (constant S_ .f32 0x00000000#32)
  :: StableHlo.unary main_cst_36 main_v172 (broadcastInDim S100000x64 ![] bcast_S_S100000x64 : (⟨S_, .f32⟩ : BufTy).Contents (Elt F) → (⟨S100000x64, .f32⟩ : BufTy).Contents (Elt F))
  :: StableHlo.unary main_v3 main_v173 (broadcastInDim S1250000x1 ![0] bcast_S1250000_S1250000x1_0 : (⟨S1250000, .i32⟩ : BufTy).Contents (Elt F) → (⟨S1250000x1, .i32⟩ : BufTy).Contents (Elt F))
  :: StableHlo.ternary main_v172 main_v173 main_v171 main_v174 ((fun x i u => Host.scatterAdd scatter_S100000x64_S1250000x1_S1250000x64_1_0_0_1 x i u) : (⟨S100000x64, .f32⟩ : BufTy).Contents (Elt F) → (⟨S1250000x1, .i32⟩ : BufTy).Contents (Elt F) → (⟨S1250000x64, .f32⟩ : BufTy).Contents (Elt F) → (⟨S100000x64, .f32⟩ : BufTy).Contents (Elt F))
  :: StableHlo.nullary main_cst_37 (constant S_ .f32 0x40000000#32)
  :: StableHlo.unary main_cst_37 main_v175 (broadcastInDim S100000x64 ![] bcast_S_S100000x64 : (⟨S_, .f32⟩ : BufTy).Contents (Elt F) → (⟨S100000x64, .f32⟩ : BufTy).Contents (Elt F))
  :: StableHlo.binary main_v175 main_v174 main_v176 (mulf : (⟨S100000x64, .f32⟩ : BufTy).Contents (Elt F) → (⟨S100000x64, .f32⟩ : BufTy).Contents (Elt F) → (⟨S100000x64, .f32⟩ : BufTy).Contents (Elt F))
  :: StableHlo.binary main_v176 main_v137 main_v177 (subf : (⟨S100000x64, .f32⟩ : BufTy).Contents (Elt F) → (⟨S100000x64, .f32⟩ : BufTy).Contents (Elt F) → (⟨S100000x64, .f32⟩ : BufTy).Contents (Elt F))
  :: StableHlo.unary main_arg5 main_v178 ((extractStridedSlice S1x64x64 ![3, 0, 0] · slices_S5x64x64_S1x64x64_3_0_0) : (⟨S5x64x64, .f32⟩ : BufTy).Contents (Elt F) → (⟨S1x64x64, .f32⟩ : BufTy).Contents (Elt F))
  :: StableHlo.reshape main_v178 main_v179 rfl shapeCasts_S1x64x64_S64x64
  :: StableHlo.binary main_v177 main_v179 main_v180 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F))
  :: StableHlo.binary main_v161 main_v180 main_v181 (addf : (⟨S100000x64, .f32⟩ : BufTy).Contents (Elt F) → (⟨S100000x64, .f32⟩ : BufTy).Contents (Elt F) → (⟨S100000x64, .f32⟩ : BufTy).Contents (Elt F))
  :: StableHlo.unary main_v121 main_v182 (broadcastInDim S1250000x1 ![0] bcast_S1250000_S1250000x1_0 : (⟨S1250000, .f32⟩ : BufTy).Contents (Elt F) → (⟨S1250000x1, .f32⟩ : BufTy).Contents (Elt F))
  :: StableHlo.nullary main_c_38 (constantI S_ 32 0#32)
  :: StableHlo.unary main_c_38 main_v183 (broadcastInDim S1250000 ![] bcast_S_S1250000 : (⟨S_, .i32⟩ : BufTy).Contents (Elt F) → (⟨S1250000, .i32⟩ : BufTy).Contents (Elt F))
  :: StableHlo.binary main_v1 main_v183 main_v184 (cmpi .slt : (⟨S1250000, .i32⟩ : BufTy).Contents (Elt F) → (⟨S1250000, .i32⟩ : BufTy).Contents (Elt F) → (⟨S1250000, .i1⟩ : BufTy).Contents (Elt F))
  :: StableHlo.nullary main_c_39 (constantI S_ 32 100000#32)
  :: StableHlo.unary main_c_39 main_v185 (broadcastInDim S1250000 ![] bcast_S_S1250000 : (⟨S_, .i32⟩ : BufTy).Contents (Elt F) → (⟨S1250000, .i32⟩ : BufTy).Contents (Elt F))
  :: StableHlo.binary main_v1 main_v185 main_v186 (addi : (⟨S1250000, .i32⟩ : BufTy).Contents (Elt F) → (⟨S1250000, .i32⟩ : BufTy).Contents (Elt F) → (⟨S1250000, .i32⟩ : BufTy).Contents (Elt F))
  :: StableHlo.ternary main_v184 main_v186 main_v1 main_v187 (select : (⟨S1250000, .i1⟩ : BufTy).Contents (Elt F) → (⟨S1250000, .i32⟩ : BufTy).Contents (Elt F) → (⟨S1250000, .i32⟩ : BufTy).Contents (Elt F) → (⟨S1250000, .i32⟩ : BufTy).Contents (Elt F))
  :: StableHlo.unary main_v187 main_v188 (broadcastInDim S1250000x1 ![0] bcast_S1250000_S1250000x1_0 : (⟨S1250000, .i32⟩ : BufTy).Contents (Elt F) → (⟨S1250000x1, .i32⟩ : BufTy).Contents (Elt F))
  :: StableHlo.binary main_v177 main_v188 main_v189 ((fun x i => Host.gather gather_S100000x64_S1250000x1_S1250000x64_1_0_n_n_0_1_164 x i) : (⟨S100000x64, .f32⟩ : BufTy).Contents (Elt F) → (⟨S1250000x1, .i32⟩ : BufTy).Contents (Elt F) → (⟨S1250000x64, .f32⟩ : BufTy).Contents (Elt F))
  :: StableHlo.unary main_v182 main_v190 (broadcastInDim S1250000x64 ![0, 1] bcast_S1250000x1_S1250000x64_0_1 : (⟨S1250000x1, .f32⟩ : BufTy).Contents (Elt F) → (⟨S1250000x64, .f32⟩ : BufTy).Contents (Elt F))
  :: StableHlo.binary main_v190 main_v189 main_v191 (mulf : (⟨S1250000x64, .f32⟩ : BufTy).Contents (Elt F) → (⟨S1250000x64, .f32⟩ : BufTy).Contents (Elt F) → (⟨S1250000x64, .f32⟩ : BufTy).Contents (Elt F))
  :: StableHlo.nullary main_cst_40 (constant S_ .f32 0x00000000#32)
  :: StableHlo.unary main_cst_40 main_v192 (broadcastInDim S100000x64 ![] bcast_S_S100000x64 : (⟨S_, .f32⟩ : BufTy).Contents (Elt F) → (⟨S100000x64, .f32⟩ : BufTy).Contents (Elt F))
  :: StableHlo.unary main_v3 main_v193 (broadcastInDim S1250000x1 ![0] bcast_S1250000_S1250000x1_0 : (⟨S1250000, .i32⟩ : BufTy).Contents (Elt F) → (⟨S1250000x1, .i32⟩ : BufTy).Contents (Elt F))
  :: StableHlo.ternary main_v192 main_v193 main_v191 main_v194 ((fun x i u => Host.scatterAdd scatter_S100000x64_S1250000x1_S1250000x64_1_0_0_1 x i u) : (⟨S100000x64, .f32⟩ : BufTy).Contents (Elt F) → (⟨S1250000x1, .i32⟩ : BufTy).Contents (Elt F) → (⟨S1250000x64, .f32⟩ : BufTy).Contents (Elt F) → (⟨S100000x64, .f32⟩ : BufTy).Contents (Elt F))
  :: StableHlo.nullary main_cst_41 (constant S_ .f32 0x40000000#32)
  :: StableHlo.unary main_cst_41 main_v195 (broadcastInDim S100000x64 ![] bcast_S_S100000x64 : (⟨S_, .f32⟩ : BufTy).Contents (Elt F) → (⟨S100000x64, .f32⟩ : BufTy).Contents (Elt F))
  :: [] )

set_option maxHeartbeats 40000000 in
/-- 28 operations. -/
abbrev p4a : List (HloOp τ sig (Elt F)) :=
  ( StableHlo.binary main_v195 main_v194 main_v196 (mulf : (⟨S100000x64, .f32⟩ : BufTy).Contents (Elt F) → (⟨S100000x64, .f32⟩ : BufTy).Contents (Elt F) → (⟨S100000x64, .f32⟩ : BufTy).Contents (Elt F))
  :: StableHlo.binary main_v196 main_v157 main_v197 (subf : (⟨S100000x64, .f32⟩ : BufTy).Contents (Elt F) → (⟨S100000x64, .f32⟩ : BufTy).Contents (Elt F) → (⟨S100000x64, .f32⟩ : BufTy).Contents (Elt F))
  :: StableHlo.unary main_arg5 main_v198 ((extractStridedSlice S1x64x64 ![4, 0, 0] · slices_S5x64x64_S1x64x64_4_0_0) : (⟨S5x64x64, .f32⟩ : BufTy).Contents (Elt F) → (⟨S1x64x64, .f32⟩ : BufTy).Contents (Elt F))
  :: StableHlo.reshape main_v198 main_v199 rfl shapeCasts_S1x64x64_S64x64
  :: StableHlo.binary main_v197 main_v199 main_v200 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F))
  :: StableHlo.binary main_v181 main_v200 main_v201 (addf : (⟨S100000x64, .f32⟩ : BufTy).Contents (Elt F) → (⟨S100000x64, .f32⟩ : BufTy).Contents (Elt F) → (⟨S100000x64, .f32⟩ : BufTy).Contents (Elt F))
  :: StableHlo.unary main_arg6 main_v202 (broadcastInDim S1x64 ![1] bcast_S64_S1x64_1 : (⟨S64, .f32⟩ : BufTy).Contents (Elt F) → (⟨S1x64, .f32⟩ : BufTy).Contents (Elt F))
  :: StableHlo.unary main_v202 main_v203 (broadcastInDim S100000x64 ![0, 1] bcast_S1x64_S100000x64_0_1 : (⟨S1x64, .f32⟩ : BufTy).Contents (Elt F) → (⟨S100000x64, .f32⟩ : BufTy).Contents (Elt F))
  :: StableHlo.binary main_v201 main_v203 main_v204 (addf : (⟨S100000x64, .f32⟩ : BufTy).Contents (Elt F) → (⟨S100000x64, .f32⟩ : BufTy).Contents (Elt F) → (⟨S100000x64, .f32⟩ : BufTy).Contents (Elt F))
  :: StableHlo.TRef.nullary main_call3.cst (constant S_ .f32 0x3FD62D7D#32)
  :: StableHlo.TRef.nullary main_call3.call0.cst (constant S_ .f32 0x00000000#32)
  :: StableHlo.TRef.unary main_call3.call0.cst main_call3.call0.v0 (broadcastInDim S100000x64 ![] bcast_S_S100000x64)
  :: StableHlo.TRef.binary (.of main_v204 : StableHlo.TRef sig ⟨S100000x64, .f32⟩) main_call3.call0.v0 main_call3.call0.v1 (cmpf .ogt)
  :: StableHlo.TRef.nullary main_call3.call0.cst_0 (constant S_ .f32 0x00000000#32)
  :: StableHlo.TRef.unary main_call3.call0.cst_0 main_call3.call0.v2 (broadcastInDim S100000x64 ![] bcast_S_S100000x64)
  :: StableHlo.TRef.binary (.of main_v204 : StableHlo.TRef sig ⟨S100000x64, .f32⟩) main_call3.call0.v2 main_call3.call0.v3 (cmpf .ogt)
  :: StableHlo.TRef.nullary main_call3.call0.cst_1 (constant S_ .f32 0x00000000#32)
  :: StableHlo.TRef.unary main_call3.call0.cst_1 main_call3.call0.call0.v0 id
  :: StableHlo.TRef.unary main_call3.call0.call0.v0 main_call3.call0.call0.v1 (broadcastInDim S100000x64 ![] bcast_S_S100000x64)
  :: StableHlo.TRef.ternary main_call3.call0.v3 main_call3.call0.call0.v1 (.of main_v204 : StableHlo.TRef sig ⟨S100000x64, .f32⟩) main_call3.call0.call0.v2 select
  :: StableHlo.TRef.unary main_call3.call0.call0.v2 main_call3.call0.v5 Host.expm1
  :: StableHlo.TRef.unary main_call3.cst main_call3.call0.v6 id
  :: StableHlo.TRef.unary main_call3.call0.v6 main_call3.call0.v7 (broadcastInDim S100000x64 ![] bcast_S_S100000x64)
  :: StableHlo.TRef.binary main_call3.call0.v7 main_call3.call0.v5 main_call3.call0.v8 mulf
  :: StableHlo.TRef.ternary main_call3.call0.v1 (.of main_v204 : StableHlo.TRef sig ⟨S100000x64, .f32⟩) main_call3.call0.v8 main_call3.call0.call1.v0 select
  :: StableHlo.TRef.nullary main_call3.cst_0 (constant S_ .f32 0x3F867D5F#32)
  :: StableHlo.TRef.unary main_call3.cst_0 main_call3.v1 (broadcastInDim S100000x64 ![] bcast_S_S100000x64)
  :: StableHlo.TRef.binary main_call3.v1 main_call3.call0.call1.v0 main_call3.v2 mulf
  :: [] )

set_option maxHeartbeats 40000000 in
/-- 8 operations. -/
abbrev p4b : List (HloOp τ sig (Elt F)) :=
  ( StableHlo.nullary main_cst_42 (constant S_ .f32 0x00000000#32)
  :: StableHlo.unary main_cst_42 main_v206 (broadcastInDim S64x64 ![] bcast_S_S64x64 : (⟨S_, .f32⟩ : BufTy).Contents (Elt F) → (⟨S64x64, .f32⟩ : BufTy).Contents (Elt F))
  :: StableHlo.unary main_arg2 main_v207 (broadcastInDim S100000x1 ![0] bcast_S100000_S100000x1_0 : (⟨S100000, .i32⟩ : BufTy).Contents (Elt F) → (⟨S100000x1, .i32⟩ : BufTy).Contents (Elt F))
  :: StableHlo.ternary main_v206 main_v207 main_v205 main_v208 ((fun x i u => Host.scatterAdd scatter_S64x64_S100000x1_S100000x64_1_0_0_1 x i u) : (⟨S64x64, .f32⟩ : BufTy).Contents (Elt F) → (⟨S100000x1, .i32⟩ : BufTy).Contents (Elt F) → (⟨S100000x64, .f32⟩ : BufTy).Contents (Elt F) → (⟨S64x64, .f32⟩ : BufTy).Contents (Elt F))
  :: StableHlo.binary main_v208 main_arg7 main_v209 ((fun l r => Host.dotGeneral dot_S64x64_S64x10_S64x10_1_0_0_1_n_n none l r) : (⟨S64x64, .f32⟩ : BufTy).Contents (Elt F) → (⟨S64x10, .f32⟩ : BufTy).Contents (Elt F) → (⟨S64x10, .f32⟩ : BufTy).Contents (Elt F))
  :: StableHlo.unary main_arg8 main_v210 (broadcastInDim S1x10 ![1] bcast_S10_S1x10_1 : (⟨S10, .f32⟩ : BufTy).Contents (Elt F) → (⟨S1x10, .f32⟩ : BufTy).Contents (Elt F))
  :: StableHlo.unary main_v210 main_v211 (broadcastInDim S64x10 ![0, 1] bcast_S1x10_S64x10_0_1 : (⟨S1x10, .f32⟩ : BufTy).Contents (Elt F) → (⟨S64x10, .f32⟩ : BufTy).Contents (Elt F))
  :: StableHlo.binary main_v209 main_v211 main_v212 (addf : (⟨S64x10, .f32⟩ : BufTy).Contents (Elt F) → (⟨S64x10, .f32⟩ : BufTy).Contents (Elt F) → (⟨S64x10, .f32⟩ : BufTy).Contents (Elt F))
  :: [] )

/-- The first layer: everything up to the first SELU's result. -/
abbrev opsA : List (HloOp τ sig (Elt F)) := p0 ++ (p1 ++ p2a)
/-- The second layer: up to the second SELU's result. -/
abbrev opsB : List (HloOp τ sig (Elt F)) := p2b ++ (p3 ++ p4a)
/-- The pooling and the final projection. -/
abbrev opsC : List (HloOp τ sig (Elt F)) := p4b

end Cert.ReferenceIdeal.RefRun

end
-- ==== Proof.RefRun.lean ====
/-
  The reference program's run. Its five printed windows, with the called functions' bodies unfolded at their calls,
  are the straight line of the listed operations; so every fair execution of the program terminates, and each
  buffer ends at the fold of the operations' results over what the launch put there — the third layer's fold over
  the second's over the first's.
-/
import proofs.«178477_j50946902065605_1_alg».proof.Proof.RefOps
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The fold of a concatenation -/

/-- Running two lines one after the other folds the second over what the first leaves. -/
theorem after_append {τ : Topo} {sig : RefSig} {Val : EltTy → Type} (l₁ l₂ : List (HloOp τ sig Val))
    (V : Valuation τ sig Val) : after (l₁ ++ l₂) V = after l₂ (after l₁ V) := by
  induction l₁ generalizing V with
  | nil => rfl
  | cons op l ih => exact ih (op.result V)

/-! ## Each printed window is the straight line of its operations

A window's `do` block, with each called function's body unfolded at its call, is the same chain of steps as
`seq` of the listed operations: both sides reduce to one right-nested sequence. -/

set_option maxRecDepth 8192 in
theorem main_part0_eq (c : Dev nD) : main_part0 (F := F) c = seq p0 := rfl
set_option maxRecDepth 8192 in
theorem main_part1_eq (c : Dev nD) : main_part1 (F := F) c = seq p1 := rfl
set_option maxRecDepth 8192 in
theorem main_part2_eq (c : Dev nD) : main_part2 (F := F) c = seq (p2a ++ p2b) := rfl
set_option maxRecDepth 8192 in
theorem main_part3_eq (c : Dev nD) : main_part3 (F := F) c = seq p3 := rfl
set_option maxRecDepth 8192 in
theorem main_part4_eq (c : Dev nD) : main_part4 (F := F) c = seq (p4a ++ p4b) := rfl

/-- Seven lists grouped by layer are the same list grouped by window. -/
theorem regroup {α : Type} (a b c d e f g : List α) :
    (a ++ (b ++ c)) ++ ((d ++ (e ++ f)) ++ g) = a ++ (b ++ ((c ++ d) ++ (e ++ (f ++ g)))) := by
  simp only [List.append_assoc]

/-- The program is the straight line of the five windows' operations. -/
theorem main_eq_windows (c : Dev nD) :
    main (F := F) c = seq (p0 ++ (p1 ++ ((p2a ++ p2b) ++ (p3 ++ (p4a ++ p4b))))) := by
  rewrite [seq_append (p0 (F := F)), seq_append (p1 (F := F)), seq_append (p2a (F := F) ++ p2b), seq_append (p3 (F := F)),
    ← main_part0_eq c, ← main_part1_eq c, ← main_part2_eq c, ← main_part3_eq c, ← main_part4_eq c]
  rfl

/-- The program is the straight line of the three layers' operations. -/
theorem main_eq (c : Dev nD) : main (F := F) c = seq (opsA ++ (opsB ++ opsC)) :=
  (main_eq_windows c).trans (congrArg seq (regroup p0 p1 p2a p2b p3 p4a p4b).symm)

/-! ## The side conditions of the run -/

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
/-- Each of the 62 operations touches TensorCore references only. -/
theorem p0_sub : (p0 : List (HloOp τ sig (Elt F))).Forall fun op => op.bufs ⊆ tcRefs τ sig :=
  ⟨unary_bufs_sub .., reshape_bufs_sub .., unary_bufs_sub .., reshape_bufs_sub .., nullary_bufs_sub ..,
    unary_bufs_sub .., nullary_bufs_sub .., unary_bufs_sub .., unary_bufs_sub .., ternary_bufs_sub .., nullary_bufs_sub ..,
    unary_bufs_sub .., binary_bufs_sub .., nullary_bufs_sub .., unary_bufs_sub .., binary_bufs_sub .., nullary_bufs_sub ..,
    unary_bufs_sub .., unary_bufs_sub .., ternary_bufs_sub .., nullary_bufs_sub .., unary_bufs_sub .., binary_bufs_sub ..,
    nullary_bufs_sub .., unary_bufs_sub .., binary_bufs_sub .., ternary_bufs_sub .., unary_bufs_sub .., binary_bufs_sub ..,
    unary_bufs_sub .., unary_bufs_sub .., reshape_bufs_sub .., binary_bufs_sub .., unary_bufs_sub .., nullary_bufs_sub ..,
    unary_bufs_sub .., binary_bufs_sub .., nullary_bufs_sub .., unary_bufs_sub .., binary_bufs_sub .., ternary_bufs_sub ..,
    unary_bufs_sub .., binary_bufs_sub .., unary_bufs_sub .., binary_bufs_sub .., nullary_bufs_sub .., unary_bufs_sub ..,
    unary_bufs_sub .., ternary_bufs_sub .., unary_bufs_sub .., reshape_bufs_sub .., binary_bufs_sub .., binary_bufs_sub ..,
    unary_bufs_sub .., nullary_bufs_sub .., unary_bufs_sub .., binary_bufs_sub .., nullary_bufs_sub .., unary_bufs_sub ..,
    binary_bufs_sub .., ternary_bufs_sub .., unary_bufs_sub ..⟩
set_option maxRecDepth 8192 in
/-- None of the 62 operations allocates a buffer. -/
theorem p0_fresh : (p0 : List (HloOp τ sig (Elt F))).Forall fun op => op.fresh = ∅ := by
  simp only [List.Forall]; repeat' constructor

set_option maxRecDepth 8192 in
/-- Each of the 60 operations touches TensorCore references only. -/
theorem p1_sub : (p1 : List (HloOp τ sig (Elt F))).Forall fun op => op.bufs ⊆ tcRefs τ sig :=
  ⟨binary_bufs_sub .., unary_bufs_sub .., binary_bufs_sub .., nullary_bufs_sub .., unary_bufs_sub .., unary_bufs_sub ..,
    ternary_bufs_sub .., nullary_bufs_sub .., unary_bufs_sub .., binary_bufs_sub .., binary_bufs_sub .., unary_bufs_sub ..,
    reshape_bufs_sub .., binary_bufs_sub .., binary_bufs_sub .., unary_bufs_sub .., nullary_bufs_sub .., unary_bufs_sub ..,
    binary_bufs_sub .., nullary_bufs_sub .., unary_bufs_sub .., binary_bufs_sub .., ternary_bufs_sub .., unary_bufs_sub ..,
    binary_bufs_sub .., unary_bufs_sub .., binary_bufs_sub .., nullary_bufs_sub .., unary_bufs_sub .., unary_bufs_sub ..,
    ternary_bufs_sub .., nullary_bufs_sub .., unary_bufs_sub .., binary_bufs_sub .., binary_bufs_sub .., unary_bufs_sub ..,
    reshape_bufs_sub .., binary_bufs_sub .., binary_bufs_sub .., unary_bufs_sub .., nullary_bufs_sub .., unary_bufs_sub ..,
    binary_bufs_sub .., nullary_bufs_sub .., unary_bufs_sub .., binary_bufs_sub .., ternary_bufs_sub .., unary_bufs_sub ..,
    binary_bufs_sub .., unary_bufs_sub .., binary_bufs_sub .., nullary_bufs_sub .., unary_bufs_sub .., unary_bufs_sub ..,
    ternary_bufs_sub .., nullary_bufs_sub .., unary_bufs_sub .., binary_bufs_sub .., binary_bufs_sub ..,
    unary_bufs_sub ..⟩
set_option maxRecDepth 8192 in
/-- None of the 60 operations allocates a buffer. -/
theorem p1_fresh : (p1 : List (HloOp τ sig (Elt F))).Forall fun op => op.fresh = ∅ := by
  simp only [List.Forall]; repeat' constructor

set_option maxRecDepth 8192 in
/-- Each of the 25 operations touches TensorCore references only. -/
theorem p2a_sub : (p2a : List (HloOp τ sig (Elt F))).Forall fun op => op.bufs ⊆ tcRefs τ sig :=
  ⟨reshape_bufs_sub .., binary_bufs_sub .., binary_bufs_sub .., unary_bufs_sub .., unary_bufs_sub .., binary_bufs_sub ..,
    nullary_bufs_sub .., nullary_bufs_sub .., unary_bufs_sub .., binary_bufs_sub .., nullary_bufs_sub ..,
    unary_bufs_sub .., binary_bufs_sub .., nullary_bufs_sub .., unary_bufs_sub .., unary_bufs_sub .., ternary_bufs_sub ..,
    unary_bufs_sub .., unary_bufs_sub .., unary_bufs_sub .., binary_bufs_sub .., ternary_bufs_sub .., nullary_bufs_sub ..,
    unary_bufs_sub .., binary_bufs_sub ..⟩
set_option maxRecDepth 8192 in
/-- None of the 25 operations allocates a buffer. -/
theorem p2a_fresh : (p2a : List (HloOp τ sig (Elt F))).Forall fun op => op.fresh = ∅ := by
  simp only [List.Forall]; repeat' constructor

set_option maxRecDepth 8192 in
/-- Each of the 55 operations touches TensorCore references only. -/
theorem p2b_sub : (p2b : List (HloOp τ sig (Elt F))).Forall fun op => op.bufs ⊆ tcRefs τ sig :=
  ⟨nullary_bufs_sub .., unary_bufs_sub .., nullary_bufs_sub .., unary_bufs_sub .., unary_bufs_sub ..,
    ternary_bufs_sub .., nullary_bufs_sub .., unary_bufs_sub .., binary_bufs_sub .., nullary_bufs_sub ..,
    unary_bufs_sub .., binary_bufs_sub .., nullary_bufs_sub .., unary_bufs_sub .., unary_bufs_sub .., ternary_bufs_sub ..,
    nullary_bufs_sub .., unary_bufs_sub .., binary_bufs_sub .., nullary_bufs_sub .., unary_bufs_sub .., binary_bufs_sub ..,
    ternary_bufs_sub .., unary_bufs_sub .., binary_bufs_sub .., unary_bufs_sub .., unary_bufs_sub .., reshape_bufs_sub ..,
    binary_bufs_sub .., unary_bufs_sub .., nullary_bufs_sub .., unary_bufs_sub .., binary_bufs_sub .., nullary_bufs_sub ..,
    unary_bufs_sub .., binary_bufs_sub .., ternary_bufs_sub .., unary_bufs_sub .., binary_bufs_sub .., unary_bufs_sub ..,
    binary_bufs_sub .., nullary_bufs_sub .., unary_bufs_sub .., unary_bufs_sub .., ternary_bufs_sub .., unary_bufs_sub ..,
    reshape_bufs_sub .., binary_bufs_sub .., binary_bufs_sub .., unary_bufs_sub .., nullary_bufs_sub .., unary_bufs_sub ..,
    binary_bufs_sub .., nullary_bufs_sub .., unary_bufs_sub ..⟩
set_option maxRecDepth 8192 in
/-- None of the 55 operations allocates a buffer. -/
theorem p2b_fresh : (p2b : List (HloOp τ sig (Elt F))).Forall fun op => op.fresh = ∅ := by
  simp only [List.Forall]; repeat' constructor

set_option maxRecDepth 8192 in
/-- Each of the 60 operations touches TensorCore references only. -/
theorem p3_sub : (p3 : List (HloOp τ sig (Elt F))).Forall fun op => op.bufs ⊆ tcRefs τ sig :=
  ⟨binary_bufs_sub .., ternary_bufs_sub .., unary_bufs_sub .., binary_bufs_sub .., unary_bufs_sub .., binary_bufs_sub ..,
    nullary_bufs_sub .., unary_bufs_sub .., unary_bufs_sub .., ternary_bufs_sub .., nullary_bufs_sub .., unary_bufs_sub ..,
    binary_bufs_sub .., binary_bufs_sub .., unary_bufs_sub .., reshape_bufs_sub .., binary_bufs_sub .., binary_bufs_sub ..,
    unary_bufs_sub .., nullary_bufs_sub .., unary_bufs_sub .., binary_bufs_sub .., nullary_bufs_sub .., unary_bufs_sub ..,
    binary_bufs_sub .., ternary_bufs_sub .., unary_bufs_sub .., binary_bufs_sub .., unary_bufs_sub .., binary_bufs_sub ..,
    nullary_bufs_sub .., unary_bufs_sub .., unary_bufs_sub .., ternary_bufs_sub .., nullary_bufs_sub .., unary_bufs_sub ..,
    binary_bufs_sub .., binary_bufs_sub .., unary_bufs_sub .., reshape_bufs_sub .., binary_bufs_sub .., binary_bufs_sub ..,
    unary_bufs_sub .., nullary_bufs_sub .., unary_bufs_sub .., binary_bufs_sub .., nullary_bufs_sub .., unary_bufs_sub ..,
    binary_bufs_sub .., ternary_bufs_sub .., unary_bufs_sub .., binary_bufs_sub .., unary_bufs_sub .., binary_bufs_sub ..,
    nullary_bufs_sub .., unary_bufs_sub .., unary_bufs_sub .., ternary_bufs_sub .., nullary_bufs_sub ..,
    unary_bufs_sub ..⟩
set_option maxRecDepth 8192 in
/-- None of the 60 operations allocates a buffer. -/
theorem p3_fresh : (p3 : List (HloOp τ sig (Elt F))).Forall fun op => op.fresh = ∅ := by
  simp only [List.Forall]; repeat' constructor

set_option maxRecDepth 8192 in
/-- Each of the 28 operations touches TensorCore references only. -/
theorem p4a_sub : (p4a : List (HloOp τ sig (Elt F))).Forall fun op => op.bufs ⊆ tcRefs τ sig :=
  ⟨binary_bufs_sub .., binary_bufs_sub .., unary_bufs_sub .., reshape_bufs_sub .., binary_bufs_sub ..,
    binary_bufs_sub .., unary_bufs_sub .., unary_bufs_sub .., binary_bufs_sub .., nullary_bufs_sub .., nullary_bufs_sub ..,
    unary_bufs_sub .., binary_bufs_sub .., nullary_bufs_sub .., unary_bufs_sub .., binary_bufs_sub .., nullary_bufs_sub ..,
    unary_bufs_sub .., unary_bufs_sub .., ternary_bufs_sub .., unary_bufs_sub .., unary_bufs_sub .., unary_bufs_sub ..,
    binary_bufs_sub .., ternary_bufs_sub .., nullary_bufs_sub .., unary_bufs_sub .., binary_bufs_sub ..⟩
set_option maxRecDepth 8192 in
/-- None of the 28 operations allocates a buffer. -/
theorem p4a_fresh : (p4a : List (HloOp τ sig (Elt F))).Forall fun op => op.fresh = ∅ := by
  simp only [List.Forall]; repeat' constructor

set_option maxRecDepth 8192 in
/-- Each of the 8 operations touches TensorCore references only. -/
theorem p4b_sub : (p4b : List (HloOp τ sig (Elt F))).Forall fun op => op.bufs ⊆ tcRefs τ sig :=
  ⟨nullary_bufs_sub .., unary_bufs_sub .., unary_bufs_sub .., ternary_bufs_sub .., binary_bufs_sub .., unary_bufs_sub ..,
    unary_bufs_sub .., binary_bufs_sub ..⟩
set_option maxRecDepth 8192 in
/-- None of the 8 operations allocates a buffer. -/
theorem p4b_fresh : (p4b : List (HloOp τ sig (Elt F))).Forall fun op => op.fresh = ∅ := by
  simp only [List.Forall]; repeat' constructor

theorem opsA_sub : (opsA : List (HloOp τ sig (Elt F))).Forall fun op => op.bufs ⊆ tcRefs τ sig :=
  List.forall_append.mpr ⟨p0_sub, List.forall_append.mpr ⟨p1_sub, p2a_sub⟩⟩
theorem opsB_sub : (opsB : List (HloOp τ sig (Elt F))).Forall fun op => op.bufs ⊆ tcRefs τ sig :=
  List.forall_append.mpr ⟨p2b_sub, List.forall_append.mpr ⟨p3_sub, p4a_sub⟩⟩
theorem opsC_sub : (opsC : List (HloOp τ sig (Elt F))).Forall fun op => op.bufs ⊆ tcRefs τ sig := p4b_sub
theorem ops_sub : (opsA ++ (opsB ++ opsC) : List (HloOp τ sig (Elt F))).Forall fun op => op.bufs ⊆ tcRefs τ sig :=
  List.forall_append.mpr ⟨opsA_sub, List.forall_append.mpr ⟨opsB_sub, opsC_sub⟩⟩

theorem opsA_fresh : (opsA : List (HloOp τ sig (Elt F))).Forall fun op => op.fresh = ∅ :=
  List.forall_append.mpr ⟨p0_fresh, List.forall_append.mpr ⟨p1_fresh, p2a_fresh⟩⟩
theorem opsB_fresh : (opsB : List (HloOp τ sig (Elt F))).Forall fun op => op.fresh = ∅ :=
  List.forall_append.mpr ⟨p2b_fresh, List.forall_append.mpr ⟨p3_fresh, p4a_fresh⟩⟩
theorem opsC_fresh : (opsC : List (HloOp τ sig (Elt F))).Forall fun op => op.fresh = ∅ := p4b_fresh
theorem ops_fresh : (opsA ++ (opsB ++ opsC) : List (HloOp τ sig (Elt F))).Forall fun op => op.fresh = ∅ :=
  List.forall_append.mpr ⟨opsA_fresh, List.forall_append.mpr ⟨opsB_fresh, opsC_fresh⟩⟩

/-! ## The run -/

/-- On every device, for any float values, from any memory with zero counters: every weakly fair execution of the
    program terminates, and every TensorCore buffer ends at the fold of the third layer's operations over the fold
    of the second's over the fold of the first's over what the launch put there. -/
theorem run (m : (ℓ : Loc nD τ sig) → Buf (Elt F) ℓ) (ρ : Dev nD → PrngReg) :
    θ_run defs (onTc (τ := τ) (main (F := F))) ⟨m, fun _ => 0, ρ⟩ fun r => ∀ (d : Dev nD) (b : Ref sig .tc),
      r.2.mem ((d.tc : Thread nD τ).loc b) = after opsC (after opsB (after opsA (launchContents m d))) (Proc.devRef .tc b) :=
  (θ_run defs _ _).mono (fun _ h d b => (h d b).trans (by rw [after_append, after_append]))
    (run_seq scopedRefs_eq scopedSems_eq defs main (fun _ => opsA ++ (opsB ++ opsC)) main_eq (fun _ => ops_sub) m ρ
      (fun _ => List.forall_iff_forall_mem.mp ops_fresh))

end Cert.ReferenceIdeal.RefRun

end
-- ==== Proof.Spec.lean ====
/-
  What one Chebyshev layer and the final projection compute, index by index, on extended reals.

  A layer takes the five Chebyshev terms T₀ … T₄ (each a table of 100000 rows of 64 features), the five 64×64
  weight matrices stacked as one 5×64×64 array, and a bias of 64 entries. At row r and output feature c it adds the
  five row-by-column products ∑ₖ Tⱼ(r,k)·W(j,k,c) from the left (T₀'s first), then the bias, and applies SELU:
  scale·x for x > 0 and scale·alpha·(eˣ − 1) otherwise. The projection is one 64×64 by 64×10 product plus a bias.
  Both constants of SELU are kept as their 32-bit words: the same words occur on both sides of every equation
  below and are never evaluated.
-/
import Idealize.ShloMosaic.Lib.ValueIdx
import Idealize.ShloMosaic.PureOps.Ideal
import Idealize.ShloMosaic.PureOps.Ideal.Laws

noncomputable section

namespace Cert.Spec

open Idealize.ShloMosaic Idealize.ShloMosaic.ValueIdx
open scoped BigOperators

/-- SELU's alpha, as the word both programs hold. -/
def alpha : EReal := Ideal.ofBits .f32 0x3FD62D7D#32
/-- SELU's scale, as the word both programs hold. -/
def scale : EReal := Ideal.ofBits .f32 0x3F867D5F#32

/-- SELU at one extended real: scale·x where x > 0, scale·alpha·(eˣ − 1) elsewhere. -/
def selu (x : EReal) : EReal :=
  scale * Scalar.select (Ideal.cmp .ogt x 0) x (alpha * (Ideal.exp x - 1))

/-- Row r of a table times column c of the j-th weight matrix. -/
def rowDot (t : (⟨2, ![100000, 64]⟩ : Shape).Idx → EReal) (W : (⟨3, ![5, 64, 64]⟩ : Shape).Idx → EReal)
    (j : Fin 5) (r : Fin 100000) (c : Fin 64) : EReal :=
  ∑ k : Fin 64, t (ix2 r k) * W (ix3 j k c)

/-- One layer at row r, feature c: the five products added from the left, the bias, SELU. -/
def denseAt (t0 t1 t2 t3 t4 : (⟨2, ![100000, 64]⟩ : Shape).Idx → EReal) (W : (⟨3, ![5, 64, 64]⟩ : Shape).Idx → EReal)
    (b : (⟨1, ![64]⟩ : Shape).Idx → EReal) (r : Fin 100000) (c : Fin 64) : EReal :=
  selu (((((rowDot t0 W 0 r c + rowDot t1 W 1 r c) + rowDot t2 W 2 r c) + rowDot t3 W 3 r c) + rowDot t4 W 4 r c)
    + b (ix1 c))

/-- One layer as a whole table. -/
def dense (t0 t1 t2 t3 t4 : (⟨2, ![100000, 64]⟩ : Shape).Idx → EReal) (W : (⟨3, ![5, 64, 64]⟩ : Shape).Idx → EReal)
    (b : (⟨1, ![64]⟩ : Shape).Idx → EReal) : (⟨2, ![100000, 64]⟩ : Shape).Idx → EReal :=
  fun i => denseAt t0 t1 t2 t3 t4 W b (i 0) (i 1)

theorem dense_ix2 (t0 t1 t2 t3 t4 : (⟨2, ![100000, 64]⟩ : Shape).Idx → EReal) (W : (⟨3, ![5, 64, 64]⟩ : Shape).Idx → EReal)
    (b : (⟨1, ![64]⟩ : Shape).Idx → EReal) (r : Fin 100000) (c : Fin 64) :
    dense t0 t1 t2 t3 t4 W b (ix2 r c) = denseAt t0 t1 t2 t3 t4 W b r c := rfl

/-- A table that is the layer at every (r, c) is the layer. -/
theorem eq_dense {t0 t1 t2 t3 t4 : (⟨2, ![100000, 64]⟩ : Shape).Idx → EReal} {W : (⟨3, ![5, 64, 64]⟩ : Shape).Idx → EReal}
    {b : (⟨1, ![64]⟩ : Shape).Idx → EReal} {f : (⟨2, ![100000, 64]⟩ : Shape).Idx → EReal}
    (h : ∀ (r : Fin 100000) (c : Fin 64), f (ix2 r c) = denseAt t0 t1 t2 t3 t4 W b r c) : f = dense t0 t1 t2 t3 t4 W b := by
  funext i
  rw [eq_ix2 i]
  exact h (i 0) (i 1)

/-- The projection at graph r, class c: the pooled row times the weight column, plus the bias. -/
def fcAt (g : (⟨2, ![64, 64]⟩ : Shape).Idx → EReal) (W : (⟨2, ![64, 10]⟩ : Shape).Idx → EReal)
    (b : (⟨1, ![10]⟩ : Shape).Idx → EReal) (r : Fin 64) (c : Fin 10) : EReal :=
  (∑ k : Fin 64, g (ix2 r k) * W (ix2 k c)) + b (ix1 c)

/-- The projection as a whole table. -/
def fc (g : (⟨2, ![64, 64]⟩ : Shape).Idx → EReal) (W : (⟨2, ![64, 10]⟩ : Shape).Idx → EReal)
    (b : (⟨1, ![10]⟩ : Shape).Idx → EReal) : (⟨2, ![64, 10]⟩ : Shape).Idx → EReal :=
  fun i => fcAt g W b (i 0) (i 1)

/-- A table that is the projection at every (r, c) is the projection. -/
theorem eq_fc {g : (⟨2, ![64, 64]⟩ : Shape).Idx → EReal} {W : (⟨2, ![64, 10]⟩ : Shape).Idx → EReal}
    {b : (⟨1, ![10]⟩ : Shape).Idx → EReal} {f : (⟨2, ![64, 10]⟩ : Shape).Idx → EReal}
    (h : ∀ (r : Fin 64) (c : Fin 10), f (ix2 r c) = fcAt g W b r c) : f = fc g W b := by
  funext i
  rw [eq_ix2 i]
  exact h (i 0) (i 1)

/-- The word of 1.0 denotes one. -/
theorem one_word : Ideal.ofBits .f32 0x3F800000#32 = 1 := by
  simp [Ideal.ofBits, Ideal.ieee]
  rw [← EReal.coe_mul]
  norm_num

end Cert.Spec

end
-- ==== Proof.LibDenseRows.lean ====
/-
  Row-wise dense algebra read at an index given by coordinates, at the ideal values: a plain two-dimensional
  contraction `[M, K] · [K, N]` (the kernel's matrix product into a zero accumulator and the host's `dot_general`) as a sum
  over `k : Fin K` of the left operand's row times the right operand's column; a bias vector `[N]` laid along every row of
  `[M, N]` (both spellings: cast to one row then broadcast, and two `broadcast_in_dim`s); a concatenation of two blocks side
  by side along the columns; and a sum along the columns of `[M, N]` (the lane reduction and the host's `reduce`), plain
  and laid back out as a column `[M, 1]` that is broadcast over the columns.
-/
import Idealize.ShloMosaic.Lib.ValueIdx
import Idealize.ShloMosaic.Lib.ValueLayout
import Idealize.ShloMosaic.Lib.Pipeline.Value
import Idealize.ShloMosaic.Lib.KernelVsHost
import Idealize.ShloMosaic.Lib.IdealHost
import Idealize.ShloMosaic.PureOps.Ideal.Laws

noncomputable section

namespace Cert.DenseRows

open Idealize.ShloMosaic Idealize.ShloMosaic.ValueIdx
open scoped BigOperators

/-! ## A plain contraction `[M, K] · [K, N]` -/

/-- For dimension numbers that contract the left operand's columns with the right operand's rows and keep the left rows and
    the right columns in place, the sum over the contraction index at `(r, c)` is the sum over `k : Fin K` of the left
    operand at `(r, k)` times the right operand at `(k, c)`. -/
theorem sum_contr_plain {M K N : ℕ} (D : DotDims ⟨2, ![M, K]⟩ ⟨2, ![K, N]⟩ ⟨2, ![M, N]⟩)
    (hl : D.lhsContracting = [(1 : Fin 2)]) (hr : D.rhsContracting = [(0 : Fin 2)])
    (hrank : D.contr.rank = 1) (hsize : D.contr.size ⟨0, by omega⟩ = K)
    (hl0 : ∀ j k, (D.lhsIdx j k (0 : Fin 2)).val = (j (0 : Fin 2)).val)
    (hr1 : ∀ j k, (D.rhsIdx j k (1 : Fin 2)).val = (j (1 : Fin 2)).val)
    (A : (⟨2, ![M, K]⟩ : Shape).Idx → EReal) (W : (⟨2, ![K, N]⟩ : Shape).Idx → EReal) (r : Fin M) (c : Fin N) :
    ∑ k : D.contr.Idx, A (D.lhsIdx (ix2 r c) k) * W (D.rhsIdx (ix2 r c) k) = ∑ k : Fin K, A (ix2 r k) * W (ix2 k c) := by
  rw [← Equiv.sum_comp (contrEquiv1 D K hrank hsize).symm]
  refine Finset.sum_congr rfl fun k _ => ?_
  have e1 : D.lhsIdx (ix2 r c) ((contrEquiv1 D K hrank hsize).symm k) = ix2 r k := by
    funext a; apply Fin.ext
    match a with
    | ⟨0, _⟩ => exact hl0 _ _
    | ⟨1, _⟩ => exact (D.lhsIdx_val_of_single hl _ _).trans (contrEquiv1_symm_val D K hrank hsize k)
  have e2 : D.rhsIdx (ix2 r c) ((contrEquiv1 D K hrank hsize).symm k) = ix2 k c := by
    funext a; apply Fin.ext
    match a with
    | ⟨0, _⟩ => exact (D.rhsIdx_val_of_single hr _ _).trans (contrEquiv1_symm_val D K hrank hsize k)
    | ⟨1, _⟩ => exact hr1 _ _
  rw [e1, e2]

/-- The kernel's matrix product into the zero accumulator, at `(r, c)`. -/
theorem matmul_zero_plain_apply {M K N : ℕ} {φ₁ φ₂ : FTy} (D : DotDims ⟨2, ![M, K]⟩ ⟨2, ![K, N]⟩ ⟨2, ![M, N]⟩)
    (hl : D.lhsContracting = [(1 : Fin 2)]) (hr : D.rhsContracting = [(0 : Fin 2)])
    (hrank : D.contr.rank = 1) (hsize : D.contr.size ⟨0, by omega⟩ = K)
    (hl0 : ∀ j k, (D.lhsIdx j k (0 : Fin 2)).val = (j (0 : Fin 2)).val)
    (hr1 : ∀ j k, (D.rhsIdx j k (1 : Fin 2)).val = (j (1 : Fin 2)).val)
    (A : FVec Ideal ⟨2, ![M, K]⟩ φ₁) (W : FVec Ideal ⟨2, ![K, N]⟩ φ₂) (r : Fin M) (c : Fin N) :
    matmul D none A W (constant (F := Ideal) ⟨2, ![M, N]⟩ .f32 0x00000000#32) (ix2 r c) = ∑ k : Fin K, A (ix2 r k) * W (ix2 k c) :=
  (Ideal.matmul_constant_zero_apply D none A W (ix2 r c)).trans (sum_contr_plain D hl hr hrank hsize hl0 hr1 A W r c)

/-- The host's `dot_general` with the same dimension numbers, at `(r, c)`. -/
theorem dotGeneral_plain_apply {M K N : ℕ} {φ₁ φ₂ : FTy} (D : DotDims ⟨2, ![M, K]⟩ ⟨2, ![K, N]⟩ ⟨2, ![M, N]⟩)
    (hl : D.lhsContracting = [(1 : Fin 2)]) (hr : D.rhsContracting = [(0 : Fin 2)])
    (hrank : D.contr.rank = 1) (hsize : D.contr.size ⟨0, by omega⟩ = K)
    (hl0 : ∀ j k, (D.lhsIdx j k (0 : Fin 2)).val = (j (0 : Fin 2)).val)
    (hr1 : ∀ j k, (D.rhsIdx j k (1 : Fin 2)).val = (j (1 : Fin 2)).val)
    (A : FVec Ideal ⟨2, ![M, K]⟩ φ₁) (W : FVec Ideal ⟨2, ![K, N]⟩ φ₂) (r : Fin M) (c : Fin N) :
    Host.dotGeneral D none A W (ix2 r c) = ∑ k : Fin K, A (ix2 r k) * W (ix2 k c) :=
  (Ideal.dotGeneral_apply D none .single A W (ix2 r c)).trans (sum_contr_plain D hl hr hrank hsize hl0 hr1 A W r c)

/-! ## A bias vector along every row -/

variable {α : Type}

/-- A vector `[N]` cast to one row `[1, N]` and broadcast down `M` rows reads, at `(r, c)`, the vector at `c`. -/
theorem rowBias_cast_apply {M N : ℕ} (b : (⟨1, ![N]⟩ : Shape).Idx → α) (h1 : (⟨1, ![N]⟩ : Shape).ShapeCasts ⟨2, ![1, N]⟩)
    (h2 : (⟨2, ![1, N]⟩ : Shape).Broadcasts ⟨2, ![M, N]⟩) (r : Fin M) (c : Fin N) :
    broadcastTo ⟨2, ![M, N]⟩ (shapeCast ⟨2, ![1, N]⟩ b h1) h2 (ix2 r c) = b (ix1 c) :=
  (broadcastTo_1b_ab_apply _ h2 r c).trans (shapeCast_a_1a_apply b h1 0 c)

/-- A vector `[N]` placed on axis 1 of `[1, N]` reads, at `(u, c)`, the vector at `c`. -/
theorem broadcastInDim_a_1a_apply {N : ℕ} (b : (⟨1, ![N]⟩ : Shape).Idx → α)
    (h : (⟨1, ![N]⟩ : Shape).BroadcastsInDim ⟨2, ![1, N]⟩ ![1]) (u : Fin 1) (c : Fin N) :
    broadcastInDim ⟨2, ![1, N]⟩ ![1] h b (ix2 u c) = b (ix1 c) := by
  refine broadcastInDim_apply ![1] h b (ix2 u c) (ix1 c) fun a => ?_
  match a with
  | ⟨0, _⟩ =>
    show c.val = if N = 1 then 0 else c.val
    split
    · have := c.isLt; omega
    · rfl

/-- The host's spelling of the same: two `broadcast_in_dim`s, `[N]` to `[1, N]` to `[M, N]`. -/
theorem rowBias_inDim_apply {M N : ℕ} (b : (⟨1, ![N]⟩ : Shape).Idx → α)
    (h1 : (⟨1, ![N]⟩ : Shape).BroadcastsInDim ⟨2, ![1, N]⟩ ![1])
    (h2 : (⟨2, ![1, N]⟩ : Shape).BroadcastsInDim ⟨2, ![M, N]⟩ ![0, 1]) (r : Fin M) (c : Fin N) :
    broadcastInDim ⟨2, ![M, N]⟩ ![0, 1] h2 (broadcastInDim ⟨2, ![1, N]⟩ ![1] h1 b) (ix2 r c) = b (ix1 c) :=
  (broadcastInDim_oneRow_apply h2 _ r c).trans (broadcastInDim_a_1a_apply b h1 0 c)

/-! ## Two blocks side by side -/

/-- Two blocks `[M, A]` and `[M, B]` concatenated along the columns: a column left of `A` reads the first block. -/
theorem concat_cols_left {M A B C : ℕ} (x : (⟨2, ![M, A]⟩ : Shape).Idx → α) (y : (⟨2, ![M, B]⟩ : Shape).Idx → α)
    (h : Shape.Concatenates [⟨2, ![M, A]⟩, ⟨2, ![M, B]⟩] ⟨2, ![M, C]⟩ (1 : Fin 2)) (r : Fin M) (k : Fin C) (hk : k.val < A) :
    concatenate ⟨2, ![M, C]⟩ (1 : Fin 2) [⟨⟨2, ![M, A]⟩, x⟩, ⟨⟨2, ![M, B]⟩, y⟩] h (ix2 r k) = x (ix2 r ⟨k.val, hk⟩) :=
  concatenate_pair_apply_left (1 : Fin 2) x y h (ix2 r k) rfl (ix2 r ⟨k.val, hk⟩) fun b => by
    match b with
    | ⟨0, _⟩ => rfl
    | ⟨1, _⟩ => rfl

/-- … and a column from `A` on reads the second block, `A` columns to the left. -/
theorem concat_cols_right {M A B C : ℕ} (x : (⟨2, ![M, A]⟩ : Shape).Idx → α) (y : (⟨2, ![M, B]⟩ : Shape).Idx → α)
    (h : Shape.Concatenates [⟨2, ![M, A]⟩, ⟨2, ![M, B]⟩] ⟨2, ![M, C]⟩ (1 : Fin 2)) (r : Fin M) (k : Fin C) (hk : A ≤ k.val)
    (hk' : k.val - A < B) :
    concatenate ⟨2, ![M, C]⟩ (1 : Fin 2) [⟨⟨2, ![M, A]⟩, x⟩, ⟨⟨2, ![M, B]⟩, y⟩] h (ix2 r k) = y (ix2 r ⟨k.val - A, hk'⟩) :=
  concatenate_pair_apply_right (1 : Fin 2) x y h (ix2 r k) rfl rfl (ix2 r ⟨k.val - A, hk'⟩)
    (fun b hb => by
      match b with
      | ⟨0, _⟩ => rfl
      | ⟨1, _⟩ => exact absurd rfl hb)
    (by show k.val - A + A = k.val; omega)

/-! ## A sum along the columns -/

/-- The lane reduction of `[M, N]` along its columns from the zero word, at row `r`. -/
theorem laneSum_apply {M N : ℕ} (src : FVec Ideal ⟨2, ![M, N]⟩ .f32) (h : (⟨2, ![M, N]⟩ : Shape).Reduces [(1 : Fin 2)] ⟨1, ![M]⟩)
    (hφ : FKind.Formats .f32) (hacc : (0x00000000#32 : BitVec 32) = FKind.add.neutral .f32 hφ)
    (hlift : ∀ (r : Fin M) (k : Fin N), h.lift (ix1 r) k = ix2 r k) (r : Fin M) :
    multiReduction .add [(1 : Fin 2)] ⟨1, ![M]⟩ src 0x00000000#32 h hφ hacc (ix1 r) = ∑ k : Fin N, src (ix2 r k) :=
  (Ideal.multiReduction_add_single src 0x00000000#32 h hφ hacc (ix1 r)).trans
    (Finset.sum_congr rfl fun k _ => congrArg src (hlift r k))

/-- The host's `reduce` with `add` along the columns from an initial scalar, at row `r`. -/
theorem hostRowSum_apply {M N : ℕ} (x : FVec Ideal ⟨2, ![M, N]⟩ .f32) (init : (⟨0, ![]⟩ : Shape).Idx → Ideal .f32)
    (h' : (⟨2, ![M, N]⟩ : Shape).ReducesTo [(1 : Fin 2)] ⟨1, ![M]⟩) (hu : 0 < (⟨0, ![]⟩ : Shape).numel)
    (h : (⟨2, ![M, N]⟩ : Shape).Reduces [(1 : Fin 2)] ⟨1, ![M]⟩)
    (hlift : ∀ (r : Fin M) (k : Fin N), h.lift (ix1 r) k = ix2 r k) (r : Fin M) :
    Host.reduceAdd x init h' hu (ix1 r) = init (Shape.Idx.first hu) + ∑ k : Fin N, x (ix2 r k) :=
  (hostReduceAdd_apply x init h' hu (ix1 r)).trans
    ((Ideal.hostReduceAdd_single h' h x _ (ix1 r)).trans
      (congrArg (init (Shape.Idx.first hu) + ·) (Finset.sum_congr rfl fun k _ => congrArg x (hlift r k))))

/-- A vector `[M]` placed on axis 0 of `[M, 1]` reads, at `(r, u)`, the vector at `r`. -/
theorem broadcastInDim_a_a1_apply {M : ℕ} (v : (⟨1, ![M]⟩ : Shape).Idx → α)
    (h : (⟨1, ![M]⟩ : Shape).BroadcastsInDim ⟨2, ![M, 1]⟩ ![0]) (r : Fin M) (u : Fin 1) :
    broadcastInDim ⟨2, ![M, 1]⟩ ![0] h v (ix2 r u) = v (ix1 r) := by
  refine broadcastInDim_apply ![0] h v (ix2 r u) (ix1 r) fun a => ?_
  match a with
  | ⟨0, _⟩ =>
    show r.val = if M = 1 then 0 else r.val
    split
    · have := r.isLt; omega
    · rfl

/-- A column `[M, 1]` laid over the columns of `[M, N]` by `broadcast_in_dim` reads, at `(r, c)`, the column at row `r`. -/
theorem broadcastInDim_a1_ab_apply {M N : ℕ} (v : (⟨2, ![M, 1]⟩ : Shape).Idx → α)
    (h : (⟨2, ![M, 1]⟩ : Shape).BroadcastsInDim ⟨2, ![M, N]⟩ ![0, 1]) (r : Fin M) (c : Fin N) :
    broadcastInDim ⟨2, ![M, N]⟩ ![0, 1] h v (ix2 r c) = v (ix2 r (0 : Fin 1)) := by
  refine broadcastInDim_apply ![0, 1] h v (ix2 r c) (ix2 r (0 : Fin 1)) fun a => ?_
  match a with
  | ⟨0, _⟩ =>
    show r.val = if M = 1 then 0 else r.val
    split
    · have := r.isLt; omega
    · rfl
  | ⟨1, _⟩ => rfl

end Cert.DenseRows

end
-- ==== Proof.RefDense.lean ====
import proofs.«178477_j50946902065605_1_alg».proof.Proof.RefOps
import proofs.«178477_j50946902065605_1_alg».proof.Proof.Spec
import proofs.«178477_j50946902065605_1_alg».proof.Proof.LibDenseRows
import Idealize.ShloMosaic.Lib.StableHlo.Run

noncomputable section

namespace Cert.ReferenceIdeal.RefDense

open Cert.ReferenceIdeal Cert.ReferenceIdeal.Gen Cert.ReferenceIdeal.RefRun Idealize.ShloMosaic Idealize.ShloMosaic.StableHlo
open Idealize.ShloMosaic.ValueIdx

/-! ## Running a concatenation -/

/-- Two lines run one after the other: the second starts from what the first leaves. -/
theorem after_append' (l₁ l₂ : List (HloOp τ sig (Elt Ideal))) (V : Valuation τ sig (Elt Ideal)) :
    after (l₁ ++ l₂) V = after l₂ (after l₁ V) := by
  induction l₁ generalizing V with
  | nil => rfl
  | cons op l ih => exact ih (op.result V)

/-! ## The projection, as the operations spell it -/

/-- A `dot_general` of the pooled table with the weights plus the bias laid along the rows is the projection. -/
theorem fc_pure (g : FVec Ideal S64x64 .f32) (w : FVec Ideal S64x10 .f32) (b : FVec Ideal S10 .f32) :
    addf (Host.dotGeneral dot_S64x64_S64x10_S64x10_1_0_0_1_n_n none g w)
      (broadcastInDim S64x10 ![0, 1] bcast_S1x10_S64x10_0_1 (broadcastInDim S1x10 ![1] bcast_S10_S1x10_1 b))
    = Cert.Spec.fc g w b :=
  Cert.Spec.eq_fc fun r c => by
    refine (addf_apply _ _ _).trans ?_
    unfold Cert.Spec.fcAt
    refine congrArg₂ (· + ·) ?_ ?_
    · exact Cert.DenseRows.dotGeneral_plain_apply dot_S64x64_S64x10_S64x10_1_0_0_1_n_n rfl rfl rfl rfl (fun _ _ => rfl) (fun _ _ => rfl) g w r c
    · exact Cert.DenseRows.rowBias_inDim_apply b bcast_S10_S1x10_1 bcast_S1x10_S64x10_0_1 r c

/-! ## SELU, as the outlined functions spell it -/

/-- The operations of the outlined SELU over a table `x`: the scale times the two-way select between `x` and alpha times
    `expm1` of the select between zero and `x`, both selects on `x > 0`. -/
def seluVec (x : FVec Ideal S100000x64 .f32) : FVec Ideal S100000x64 .f32 :=
  mulf (broadcastInDim S100000x64 ![] bcast_S_S100000x64 (constant S_ .f32 0x3F867D5F#32))
    (select (cmpf .ogt x (broadcastInDim S100000x64 ![] bcast_S_S100000x64 (constant S_ .f32 0x00000000#32))) x
      (mulf (broadcastInDim S100000x64 ![] bcast_S_S100000x64 (id (constant S_ .f32 0x3FD62D7D#32)))
        (Host.expm1 (select (cmpf .ogt x (broadcastInDim S100000x64 ![] bcast_S_S100000x64 (constant S_ .f32 0x00000000#32)))
          (broadcastInDim S100000x64 ![] bcast_S_S100000x64 (id (constant S_ .f32 0x00000000#32))) x))))

/-- At an index it is SELU of the entry: on the branch `x > 0` both selects take `x`'s side, elsewhere the inner one takes
    `x` again and `expm1` is the exponential minus one. -/
theorem seluVec_apply (x : FVec Ideal S100000x64 .f32) (i : S100000x64.Idx) : seluVec x i = Cert.Spec.selu (x i) := by
  have hb : ∀ (w : BitVec 32), broadcastInDim S100000x64 ![] bcast_S_S100000x64 (constant (F := Ideal) S_ .f32 w) i = Ideal.ofBits .f32 w :=
    fun w => broadcastInDim_scalar_apply bcast_S_S100000x64 _ i
  unfold seluVec Cert.Spec.selu Cert.Spec.scale Cert.Spec.alpha
  simp only [mulf_apply, select_apply, cmpf_apply, Host.expm1, id, Ideal.hostUnary_expm1_def, Ideal.cmpf_def, hb,
    Ideal.ofBits_zero_f32]
  rcases BitVec.eq_zero_or_eq_one (Ideal.cmp .ogt (x i) 0) with h | h
  · rw [h]; simp only [select_zero]
  · rw [h]; simp only [select_one]

/-! ## One layer, as the operations spell it -/

/-- Row `r` of a table times column `c` of the `j`-th weight matrix, the matrix cut out of the stack by a slice and a
    reshape. -/
theorem dotW_apply (t : FVec Ideal S100000x64 .f32) (W : FVec Ideal S5x64x64 .f32) (o : Nat) (j : Fin 5) (hj : j.val = o)
    (h : S5x64x64.Slices ![o, 0, 0] S1x64x64) (r : Fin 100000) (c : Fin 64) :
    Host.dotGeneral dot_S100000x64_S64x64_S100000x64_1_0_0_1_n_n none t
      (fun i => shapeCast S64x64 (extractStridedSlice S1x64x64 ![o, 0, 0] W h) shapeCasts_S1x64x64_S64x64 i) (ix2 r c)
    = Cert.Spec.rowDot t W j r c := by
  refine (Cert.DenseRows.dotGeneral_plain_apply dot_S100000x64_S64x64_S100000x64_1_0_0_1_n_n rfl rfl rfl rfl (fun _ _ => rfl) (fun _ _ => rfl) t _ r c).trans ?_
  unfold Cert.Spec.rowDot
  refine Finset.sum_congr rfl fun k _ => congrArg (t (ix2 r k) * ·) ?_
  refine (shapeCast_1ab_ab_apply _ shapeCasts_S1x64x64_S64x64 k c).trans ?_
  refine extractStridedSlice_apply _ W h _ (ix3 j k c) fun a => ?_
  match a with
  | ⟨0, _⟩ => show j.val = o + 0; omega
  | ⟨1, _⟩ => show k.val = 0 + k.val; omega
  | ⟨2, _⟩ => show c.val = 0 + c.val; omega

/-- The five products added from the left, the bias along the rows, SELU: one layer. -/
theorem dense_pure (t0 t1 t2 t3 t4 : FVec Ideal S100000x64 .f32) (W : FVec Ideal S5x64x64 .f32) (b : FVec Ideal S64 .f32) :
    seluVec (addf (addf (addf (addf (addf (Host.dotGeneral dot_S100000x64_S64x64_S100000x64_1_0_0_1_n_n none t0 (fun i => shapeCast S64x64 (extractStridedSlice S1x64x64 ![0, 0, 0] W slices_S5x64x64_S1x64x64_0_0_0) shapeCasts_S1x64x64_S64x64 i)) (Host.dotGeneral dot_S100000x64_S64x64_S100000x64_1_0_0_1_n_n none t1 (fun i => shapeCast S64x64 (extractStridedSlice S1x64x64 ![1, 0, 0] W slices_S5x64x64_S1x64x64_1_0_0) shapeCasts_S1x64x64_S64x64 i))) (Host.dotGeneral dot_S100000x64_S64x64_S100000x64_1_0_0_1_n_n none t2 (fun i => shapeCast S64x64 (extractStridedSlice S1x64x64 ![2, 0, 0] W slices_S5x64x64_S1x64x64_2_0_0) shapeCasts_S1x64x64_S64x64 i))) (Host.dotGeneral dot_S100000x64_S64x64_S100000x64_1_0_0_1_n_n none t3 (fun i => shapeCast S64x64 (extractStridedSlice S1x64x64 ![3, 0, 0] W slices_S5x64x64_S1x64x64_3_0_0) shapeCasts_S1x64x64_S64x64 i))) (Host.dotGeneral dot_S100000x64_S64x64_S100000x64_1_0_0_1_n_n none t4 (fun i => shapeCast S64x64 (extractStridedSlice S1x64x64 ![4, 0, 0] W slices_S5x64x64_S1x64x64_4_0_0) shapeCasts_S1x64x64_S64x64 i))) (broadcastInDim S100000x64 ![0, 1] bcast_S1x64_S100000x64_0_1 (broadcastInDim S1x64 ![1] bcast_S64_S1x64_1 b)))
    = Cert.Spec.dense t0 t1 t2 t3 t4 W b :=
  Cert.Spec.eq_dense fun r c => by
    refine (seluVec_apply _ _).trans ?_
    unfold Cert.Spec.denseAt
    refine congrArg Cert.Spec.selu ?_
    refine (addf_apply _ _ _).trans ?_
    refine congrArg₂ (· + ·) ?_ (Cert.DenseRows.rowBias_inDim_apply b bcast_S64_S1x64_1 bcast_S1x64_S100000x64_0_1 r c)
    refine (addf_apply _ _ _).trans (congrArg₂ (· + ·) ?_ (dotW_apply t4 W 4 4 rfl _ r c))
    refine (addf_apply _ _ _).trans (congrArg₂ (· + ·) ?_ (dotW_apply t3 W 3 3 rfl _ r c))
    refine (addf_apply _ _ _).trans (congrArg₂ (· + ·) ?_ (dotW_apply t2 W 2 2 rfl _ r c))
    exact (addf_apply _ _ _).trans (congrArg₂ (· + ·) (dotW_apply t0 W 0 0 rfl _ r c) (dotW_apply t1 W 1 1 rfl _ r c))

/-! ## The projection read off its operation list -/

theorem fcC (V : Valuation τ sig (Elt Ideal)) : after (opsC (F := Ideal)) V (Proc.devRef .tc main_v212)
    = Cert.Spec.fc (after opsC V (Proc.devRef .tc main_v208)) (V (Proc.devRef .tc main_arg7)) (V (Proc.devRef .tc main_arg8)) := by
  simp (disch := decide) only [after_cons, after_nil, nullary_result', unary_result', binary_result', ternary_result', reshape_result', nullary_result_ne', unary_result_ne', binary_result_ne', ternary_result_ne', reshape_result_ne']
  exact fc_pure _ _ _

/-! ## The operations' terms with their types written out

The same terms as in `dense_pure`, as functions of typed arguments, so that a statement can apply them to a buffer's contents. -/

/-- The `o`-th matrix of the stack: a slice and a reshape. -/
abbrev wmat (W : FVec Ideal S5x64x64 .f32) (o : Nat) (h : S5x64x64.Slices ![o, 0, 0] S1x64x64) : FVec Ideal S64x64 .f32 :=
  fun i => shapeCast S64x64 (extractStridedSlice S1x64x64 ![o, 0, 0] W h) shapeCasts_S1x64x64_S64x64 i
/-- A sliced matrix reshaped. -/
abbrev rmat (w : FVec Ideal S1x64x64 .f32) : FVec Ideal S64x64 .f32 :=
  fun i => shapeCast S64x64 w shapeCasts_S1x64x64_S64x64 i
/-- A table times a matrix. -/
abbrev dotw (t : FVec Ideal S100000x64 .f32) (w : FVec Ideal S64x64 .f32) : FVec Ideal S100000x64 .f32 :=
  Host.dotGeneral dot_S100000x64_S64x64_S100000x64_1_0_0_1_n_n none t w
/-- Two tables added. -/
abbrev addT (a b : FVec Ideal S100000x64 .f32) : FVec Ideal S100000x64 .f32 := addf a b
/-- The bias laid along the rows. -/
abbrev biasRows (b : FVec Ideal S64 .f32) : FVec Ideal S100000x64 .f32 :=
  broadcastInDim S100000x64 ![0, 1] bcast_S1x64_S100000x64_0_1 (broadcastInDim S1x64 ![1] bcast_S64_S1x64_1 b)

/-! ## The first layer read off its operation lists

Each piece of the line is read from ARBITRARY contents `X`: the buffer a piece writes as the operations' term of what the
piece finds and of the Chebyshev terms it computes itself (left as what the piece leaves in their buffers), and the
buffers it does not write as it finds them. -/

/-- The last piece: the fifth product onto the running sum, the bias, SELU. -/
theorem hA2 (X : Valuation τ sig (Elt Ideal)) : after (p2a (F := Ideal)) X (Proc.devRef .tc main_v104)
    = seluVec (addT (addT (X (Proc.devRef .tc main_v80)) (dotw (X (Proc.devRef .tc main_v96)) (rmat (X (Proc.devRef .tc main_v97))))) (biasRows (X (Proc.devRef .tc main_arg4)))) := by
  simp (disch := decide) only [after_cons, after_nil, nullary_result', unary_result', binary_result', ternary_result', reshape_result', nullary_result_ne', unary_result_ne', binary_result_ne', ternary_result_ne', reshape_result_ne']
  simp only [cast_eq]
  first | done | rfl

theorem kA2_36 (X : Valuation τ sig (Elt Ideal)) : after (p2a (F := Ideal)) X (Proc.devRef .tc main_v36) = X (Proc.devRef .tc main_v36) := by
  simp (disch := decide) only [after_cons, after_nil, nullary_result', unary_result', binary_result', ternary_result', reshape_result', nullary_result_ne', unary_result_ne', binary_result_ne', ternary_result_ne', reshape_result_ne']

theorem kA2_56 (X : Valuation τ sig (Elt Ideal)) : after (p2a (F := Ideal)) X (Proc.devRef .tc main_v56) = X (Proc.devRef .tc main_v56) := by
  simp (disch := decide) only [after_cons, after_nil, nullary_result', unary_result', binary_result', ternary_result', reshape_result', nullary_result_ne', unary_result_ne', binary_result_ne', ternary_result_ne', reshape_result_ne']

theorem kA2_76 (X : Valuation τ sig (Elt Ideal)) : after (p2a (F := Ideal)) X (Proc.devRef .tc main_v76) = X (Proc.devRef .tc main_v76) := by
  simp (disch := decide) only [after_cons, after_nil, nullary_result', unary_result', binary_result', ternary_result', reshape_result', nullary_result_ne', unary_result_ne', binary_result_ne', ternary_result_ne', reshape_result_ne']

theorem kA2_96 (X : Valuation τ sig (Elt Ideal)) : after (p2a (F := Ideal)) X (Proc.devRef .tc main_v96) = X (Proc.devRef .tc main_v96) := by
  simp (disch := decide) only [after_cons, after_nil, nullary_result', unary_result', binary_result', ternary_result', reshape_result', nullary_result_ne', unary_result_ne', binary_result_ne', ternary_result_ne', reshape_result_ne']

/-- The middle piece: the third and fourth products onto the running sum. -/
theorem hA1_80 (X : Valuation τ sig (Elt Ideal)) : after (p1 (F := Ideal)) X (Proc.devRef .tc main_v80)
    = addT (addT (X (Proc.devRef .tc main_v40)) (dotw (after (p1 (F := Ideal)) X (Proc.devRef .tc main_v56)) (wmat (X (Proc.devRef .tc main_arg3)) 2 slices_S5x64x64_S1x64x64_2_0_0))) (dotw (after (p1 (F := Ideal)) X (Proc.devRef .tc main_v76)) (wmat (X (Proc.devRef .tc main_arg3)) 3 slices_S5x64x64_S1x64x64_3_0_0)) := by
  simp (disch := decide) only [after_cons, after_nil, nullary_result', unary_result', binary_result', ternary_result', reshape_result', nullary_result_ne', unary_result_ne', binary_result_ne', ternary_result_ne', reshape_result_ne']
  first | done | rfl

theorem hA1_97 (X : Valuation τ sig (Elt Ideal)) : rmat (after (p1 (F := Ideal)) X (Proc.devRef .tc main_v97)) = wmat (X (Proc.devRef .tc main_arg3)) 4 slices_S5x64x64_S1x64x64_4_0_0 := by
  simp (disch := decide) only [after_cons, after_nil, nullary_result', unary_result', binary_result', ternary_result', reshape_result', nullary_result_ne', unary_result_ne', binary_result_ne', ternary_result_ne', reshape_result_ne']
  first | done | rfl
theorem kA1_36 (X : Valuation τ sig (Elt Ideal)) : after (p1 (F := Ideal)) X (Proc.devRef .tc main_v36) = X (Proc.devRef .tc main_v36) := by
  simp (disch := decide) only [after_cons, after_nil, nullary_result', unary_result', binary_result', ternary_result', reshape_result', nullary_result_ne', unary_result_ne', binary_result_ne', ternary_result_ne', reshape_result_ne']

theorem kA1_arg4 (X : Valuation τ sig (Elt Ideal)) : after (p1 (F := Ideal)) X (Proc.devRef .tc main_arg4) = X (Proc.devRef .tc main_arg4) := by
  simp (disch := decide) only [after_cons, after_nil, nullary_result', unary_result', binary_result', ternary_result', reshape_result', nullary_result_ne', unary_result_ne', binary_result_ne', ternary_result_ne', reshape_result_ne']

/-- The first piece: the first two products. -/
theorem hA0_40 (X : Valuation τ sig (Elt Ideal)) : after (p0 (F := Ideal)) X (Proc.devRef .tc main_v40)
    = addT (dotw (X (Proc.devRef .tc main_arg0)) (wmat (X (Proc.devRef .tc main_arg3)) 0 slices_S5x64x64_S1x64x64_0_0_0)) (dotw (after (p0 (F := Ideal)) X (Proc.devRef .tc main_v36)) (wmat (X (Proc.devRef .tc main_arg3)) 1 slices_S5x64x64_S1x64x64_1_0_0)) := by
  simp (disch := decide) only [after_cons, after_nil, nullary_result', unary_result', binary_result', ternary_result', reshape_result', nullary_result_ne', unary_result_ne', binary_result_ne', ternary_result_ne', reshape_result_ne']
  first | done | rfl

theorem kA0_arg3 (X : Valuation τ sig (Elt Ideal)) : after (p0 (F := Ideal)) X (Proc.devRef .tc main_arg3) = X (Proc.devRef .tc main_arg3) := by
  simp (disch := decide) only [after_cons, after_nil, nullary_result', unary_result', binary_result', ternary_result', reshape_result', nullary_result_ne', unary_result_ne', binary_result_ne', ternary_result_ne', reshape_result_ne']

theorem kA0_arg4 (X : Valuation τ sig (Elt Ideal)) : after (p0 (F := Ideal)) X (Proc.devRef .tc main_arg4) = X (Proc.devRef .tc main_arg4) := by
  simp (disch := decide) only [after_cons, after_nil, nullary_result', unary_result', binary_result', ternary_result', reshape_result', nullary_result_ne', unary_result_ne', binary_result_ne', ternary_result_ne', reshape_result_ne']

theorem layerA (V : Valuation τ sig (Elt Ideal)) : after (opsA (F := Ideal)) V (Proc.devRef .tc main_v104)
    = Cert.Spec.dense (V (Proc.devRef .tc main_arg0)) (after opsA V (Proc.devRef .tc main_v36)) (after opsA V (Proc.devRef .tc main_v56)) (after opsA V (Proc.devRef .tc main_v76)) (after opsA V (Proc.devRef .tc main_v96)) (V (Proc.devRef .tc main_arg3)) (V (Proc.devRef .tc main_arg4)) := by
  simp only [after_append']
  rw [hA2, kA2_36, kA2_56, kA2_76, kA2_96, hA1_80, hA1_97, kA1_36, kA1_arg4, hA0_40, kA0_arg3, kA0_arg4]
  exact dense_pure _ _ _ _ _ _ _

/-! ## The second layer read off its operation lists

The same three readings over the second layer's pieces; its last Chebyshev term is computed by the last piece itself. -/

/-- The last piece: the fifth Chebyshev term, its product onto the running sum, the bias, SELU. -/
theorem hB2 (X : Valuation τ sig (Elt Ideal)) : after (p4a (F := Ideal)) X (Proc.devRef .tc main_v205)
    = seluVec (addT (addT (X (Proc.devRef .tc main_v181)) (dotw (after (p4a (F := Ideal)) X (Proc.devRef .tc main_v197)) (wmat (X (Proc.devRef .tc main_arg5)) 4 slices_S5x64x64_S1x64x64_4_0_0))) (biasRows (X (Proc.devRef .tc main_arg6)))) := by
  simp (disch := decide) only [after_cons, after_nil, nullary_result', unary_result', binary_result', ternary_result', reshape_result', nullary_result_ne', unary_result_ne', binary_result_ne', ternary_result_ne', reshape_result_ne']
  simp only [cast_eq]
  first | done | rfl

theorem kB2_137 (X : Valuation τ sig (Elt Ideal)) : after (p4a (F := Ideal)) X (Proc.devRef .tc main_v137) = X (Proc.devRef .tc main_v137) := by
  simp (disch := decide) only [after_cons, after_nil, nullary_result', unary_result', binary_result', ternary_result', reshape_result', nullary_result_ne', unary_result_ne', binary_result_ne', ternary_result_ne', reshape_result_ne']

theorem kB2_157 (X : Valuation τ sig (Elt Ideal)) : after (p4a (F := Ideal)) X (Proc.devRef .tc main_v157) = X (Proc.devRef .tc main_v157) := by
  simp (disch := decide) only [after_cons, after_nil, nullary_result', unary_result', binary_result', ternary_result', reshape_result', nullary_result_ne', unary_result_ne', binary_result_ne', ternary_result_ne', reshape_result_ne']

theorem kB2_177 (X : Valuation τ sig (Elt Ideal)) : after (p4a (F := Ideal)) X (Proc.devRef .tc main_v177) = X (Proc.devRef .tc main_v177) := by
  simp (disch := decide) only [after_cons, after_nil, nullary_result', unary_result', binary_result', ternary_result', reshape_result', nullary_result_ne', unary_result_ne', binary_result_ne', ternary_result_ne', reshape_result_ne']

/-- The middle piece: the third and fourth products onto the running sum. -/
theorem hB1_181 (X : Valuation τ sig (Elt Ideal)) : after (p3 (F := Ideal)) X (Proc.devRef .tc main_v181)
    = addT (addT (X (Proc.devRef .tc main_v141)) (dotw (after (p3 (F := Ideal)) X (Proc.devRef .tc main_v157)) (wmat (X (Proc.devRef .tc main_arg5)) 2 slices_S5x64x64_S1x64x64_2_0_0))) (dotw (after (p3 (F := Ideal)) X (Proc.devRef .tc main_v177)) (wmat (X (Proc.devRef .tc main_arg5)) 3 slices_S5x64x64_S1x64x64_3_0_0)) := by
  simp (disch := decide) only [after_cons, after_nil, nullary_result', unary_result', binary_result', ternary_result', reshape_result', nullary_result_ne', unary_result_ne', binary_result_ne', ternary_result_ne', reshape_result_ne']
  first | done | rfl

theorem kB1_137 (X : Valuation τ sig (Elt Ideal)) : after (p3 (F := Ideal)) X (Proc.devRef .tc main_v137) = X (Proc.devRef .tc main_v137) := by
  simp (disch := decide) only [after_cons, after_nil, nullary_result', unary_result', binary_result', ternary_result', reshape_result', nullary_result_ne', unary_result_ne', binary_result_ne', ternary_result_ne', reshape_result_ne']

theorem kB1_arg5 (X : Valuation τ sig (Elt Ideal)) : after (p3 (F := Ideal)) X (Proc.devRef .tc main_arg5) = X (Proc.devRef .tc main_arg5) := by
  simp (disch := decide) only [after_cons, after_nil, nullary_result', unary_result', binary_result', ternary_result', reshape_result', nullary_result_ne', unary_result_ne', binary_result_ne', ternary_result_ne', reshape_result_ne']

theorem kB1_arg6 (X : Valuation τ sig (Elt Ideal)) : after (p3 (F := Ideal)) X (Proc.devRef .tc main_arg6) = X (Proc.devRef .tc main_arg6) := by
  simp (disch := decide) only [after_cons, after_nil, nullary_result', unary_result', binary_result', ternary_result', reshape_result', nullary_result_ne', unary_result_ne', binary_result_ne', ternary_result_ne', reshape_result_ne']

/-- The first piece: the first two products. -/
theorem hB0_141 (X : Valuation τ sig (Elt Ideal)) : after (p2b (F := Ideal)) X (Proc.devRef .tc main_v141)
    = addT (dotw (X (Proc.devRef .tc main_v104)) (wmat (X (Proc.devRef .tc main_arg5)) 0 slices_S5x64x64_S1x64x64_0_0_0)) (dotw (after (p2b (F := Ideal)) X (Proc.devRef .tc main_v137)) (wmat (X (Proc.devRef .tc main_arg5)) 1 slices_S5x64x64_S1x64x64_1_0_0)) := by
  simp (disch := decide) only [after_cons, after_nil, nullary_result', unary_result', binary_result', ternary_result', reshape_result', nullary_result_ne', unary_result_ne', binary_result_ne', ternary_result_ne', reshape_result_ne']
  first | done | rfl

theorem kB0_arg5 (X : Valuation τ sig (Elt Ideal)) : after (p2b (F := Ideal)) X (Proc.devRef .tc main_arg5) = X (Proc.devRef .tc main_arg5) := by
  simp (disch := decide) only [after_cons, after_nil, nullary_result', unary_result', binary_result', ternary_result', reshape_result', nullary_result_ne', unary_result_ne', binary_result_ne', ternary_result_ne', reshape_result_ne']

theorem kB0_arg6 (X : Valuation τ sig (Elt Ideal)) : after (p2b (F := Ideal)) X (Proc.devRef .tc main_arg6) = X (Proc.devRef .tc main_arg6) := by
  simp (disch := decide) only [after_cons, after_nil, nullary_result', unary_result', binary_result', ternary_result', reshape_result', nullary_result_ne', unary_result_ne', binary_result_ne', ternary_result_ne', reshape_result_ne']

theorem layerB (V : Valuation τ sig (Elt Ideal)) : after (opsB (F := Ideal)) V (Proc.devRef .tc main_v205)
    = Cert.Spec.dense (V (Proc.devRef .tc main_v104)) (after opsB V (Proc.devRef .tc main_v137)) (after opsB V (Proc.devRef .tc main_v157)) (after opsB V (Proc.devRef .tc main_v177)) (after opsB V (Proc.devRef .tc main_v197)) (V (Proc.devRef .tc main_arg5)) (V (Proc.devRef .tc main_arg6)) := by
  simp only [after_append']
  rw [hB2, kB2_137, kB2_157, kB2_177, hB1_181, kB1_137, kB1_arg5, kB1_arg6, hB0_141, kB0_arg5, kB0_arg6]
  exact dense_pure _ _ _ _ _ _ _

end Cert.ReferenceIdeal.RefDense
end
-- ==== Proof.KerDenseCommon.lean ====
/-
  Facts shared by the two Chebyshev regions, read at one index on the extended reals: a 5000-row block times a
  64×64 weight matrix into the zero accumulator is the sum over the 64 inner coordinates of row times column; the
  same with the block cast to its own shape and the matrix a [1,64,64] slice whose unit axis is dropped; the bias
  vector made one row and laid along every row; the activation scale·select(x > 0, x, alpha·(eˣ − 1)) with the zero
  word read as 0 and the word of 1.0 as 1; a [1,64,64] load from the stacked weights at offsets (j, 0, 0) is weight
  matrix j.
-/
import proofs.«178477_j50946902065605_1_alg».proof.Proof.Gen.KernelIdeal.Frame
import proofs.«178477_j50946902065605_1_alg».proof.Proof.Spec
import proofs.«178477_j50946902065605_1_alg».proof.Proof.LibDenseRows
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Dense

open Idealize.ShloMosaic Idealize.ShloMosaic.ValueIdx Idealize.ShloMosaic.TcCoe Idealize.SL.Sem
open Cert.KernelIdeal Cert.KernelIdeal.Gen
open scoped BigOperators

/-- One block times one weight matrix, into the zero accumulator, at row r and column c. -/
theorem blockDot (x : FVec Ideal S5000x64 .bf16) (w : FVec Ideal S64x64 .bf16) (r : Fin 5000) (c : Fin 64) :
    matmul dot_S5000x64_S64x64_S5000x64_1_0_0_1_n_n none x w (constant (F := Ideal) S5000x64 .f32 0x00000000#32) (ix2 r c)
      = ∑ k : Fin 64, x (ix2 r k) * w (ix2 k c) :=
  Cert.DenseRows.matmul_zero_plain_apply dot_S5000x64_S64x64_S5000x64_1_0_0_1_n_n rfl rfl rfl rfl
    (fun j k => rfl) (fun j k => rfl) x w r c

/-- A loaded block (cast to its own shape) times a loaded weight slice [1,64,64] (its unit axis dropped). -/
theorem loadedDot (x : FVec Ideal S5000x64 .bf16) (w : FVec Ideal S1x64x64 .bf16) (r : Fin 5000) (c : Fin 64) :
    matmul dot_S5000x64_S64x64_S5000x64_1_0_0_1_n_n none (shapeCast S5000x64 x Facts₀.shapeCasts_S5000x64_S5000x64)
        (shapeCast S64x64 w Facts₀.shapeCasts_S1x64x64_S64x64) (constant (F := Ideal) S5000x64 .f32 0x00000000#32) (ix2 r c)
      = ∑ k : Fin 64, x (ix2 r k) * w (ix3 (0 : Fin 1) k c) := by
  refine (blockDot _ _ r c).trans (Finset.sum_congr rfl fun k _ => ?_)
  rw [shapeCast_self]
  exact congrArg (x (ix2 r k) * ·) (shapeCast_1ab_ab_apply w Facts₀.shapeCasts_S1x64x64_S64x64 k c)

/-- The bias vector, made one row and laid along every row of the block. -/
theorem biasRow (b : FVec Ideal S64 .f32) (r : Fin 5000) (c : Fin 64) :
    broadcastTo S5000x64 (shapeCast S1x64 b Facts₀.shapeCasts_S64_S1x64) Facts₀.broadcasts_S1x64_S5000x64 (ix2 r c) = b (ix1 c) :=
  Cert.DenseRows.rowBias_cast_apply b Facts₀.shapeCasts_S64_S1x64 Facts₀.broadcasts_S1x64_S5000x64 r c

/-- The activation as the body spells it, at one index: the zero word is 0 and the word of 1.0 is 1. -/
theorem seluVec (z : FVec Ideal S5000x64 .f32) (i : S5000x64.Idx) :
    mulf (broadcast S5000x64 (Scalar.ofBits .f32 0x3F867D5F#32))
      (select (cmpf .ogt z (broadcast S5000x64 (Scalar.ofBits .f32 0x00000000#32))) z
        (mulf (broadcast S5000x64 (Scalar.ofBits .f32 0x3FD62D7D#32))
          (subf (exp z) (broadcast S5000x64 (Scalar.ofBits .f32 0x3F800000#32))))) i = Cert.Spec.selu (z i) := by
  unfold Cert.Spec.selu Cert.Spec.scale Cert.Spec.alpha
  show Ideal.ofBits .f32 0x3F867D5F#32 * Scalar.select (Ideal.cmp .ogt (z i) (Ideal.ofBits .f32 0x00000000#32)) (z i)
    (Ideal.ofBits .f32 0x3FD62D7D#32 * (Ideal.exp (z i) - Ideal.ofBits .f32 0x3F800000#32)) = _
  rw [Ideal.ofBits_zero_f32, Cert.Spec.one_word]

/-- The offsets (0, 0) are zero on both axes. -/
theorem hz2 : (![0, 0] : Fin 2 → Nat) = fun _ => 0 := funext fun a => by fin_cases a <;> rfl
/-- The offset (0) is zero on its one axis. -/
theorem hz1 : (![0] : Fin 1 → Nat) = fun _ => 0 := funext fun a => by fin_cases a <;> rfl

/-- A [1,64,64] load from the stacked weights at offsets (j, 0, 0) reads weight matrix j. -/
theorem ldW (W : FVec Ideal S5x64x64 .bf16) (off : Fin 3 → Nat) (inb : ∀ a, off a + S1x64x64.size a ≤ S5x64x64.size a)
    (j : Fin 5) (h0 : off 0 = j.val) (h1 : off 1 = 0) (h2 : off 2 = 0) (k c : Fin 64) :
    View.ld (Val := Elt Ideal) (e' := .bf16) W (Rect.unit (s := S5x64x64) off S1x64x64.size inb) (ix3 (0 : Fin 1) k c) = W (ix3 j k c) := by
  refine congrArg W (funext fun a => Fin.ext ?_)
  match a with
  | ⟨0, _⟩ => show off 0 + 1 * 0 = j.val; omega
  | ⟨1, _⟩ => show off 1 + 1 * k.val = k.val; omega
  | ⟨2, _⟩ => show off 2 + 1 * c.val = c.val; omega

end Cert.KernelIdeal.Dense

end
-- ==== Proof.KerDense0.lean ====
/-
  Region 0 (the first Chebyshev layer) as a whole-array function. The grid has 20 points; point t stages rows
  5000·t … 5000·t + 4999 of the five Chebyshev terms, the whole stacked weights and the whole bias, and writes rows
  5000·t … 5000·t + 4999 of the result. At row r and column c of its block the body leaves the five products of the
  terms' rows with the weight matrices' columns added from the left, plus the bias, through the activation: that is the
  layer at row 5000·t + r. The 20 row blocks cover the 100000 rows, so the result array ends holding the layer.
-/
import proofs.«178477_j50946902065605_1_alg».proof.Proof.KerDenseCommon

noncomputable section

namespace Cert.KernelIdeal.Dense

open Idealize.ShloMosaic Idealize.ShloMosaic.ValueIdx Idealize.ShloMosaic.TcCoe Idealize.SL.Sem
open Idealize.ShloMosaic.Pipeline (Dat)
open Cert.KernelIdeal Cert.KernelIdeal.Gen
open scoped BigOperators

/-- The first four products added from the left onto the zero word. -/
theorem pay2_apply0 (x0 x1 x2 x3 : FVec Ideal S5000x64 .bf16) (w0 w1 w2 w3 : FVec Ideal S1x64x64 .bf16) (r : Fin 5000) (c : Fin 64) :
    (k0_pay2 (F := Ideal) x0 w0 x1 w1 x2 w2 x3 w3 (ix2 r c) : EReal)
      = (((∑ k : Fin 64, x0 (ix2 r k) * w0 (ix3 (0 : Fin 1) k c)) + ∑ k : Fin 64, x1 (ix2 r k) * w1 (ix3 (0 : Fin 1) k c))
          + ∑ k : Fin 64, x2 (ix2 r k) * w2 (ix3 (0 : Fin 1) k c)) + ∑ k : Fin 64, x3 (ix2 r k) * w3 (ix3 (0 : Fin 1) k c) := by
  unfold k0_pay2
  exact (congrArg₂ (· + ·) (congrArg₂ (· + ·) (congrArg₂ (· + ·) ((congrArg₂ (· + ·) Ideal.ofBits_zero_f32 (loadedDot x0 w0 r c)).trans (zero_add _))
    (loadedDot x1 w1 r c)) (loadedDot x2 w2 r c)) (loadedDot x3 w3 r c))

/-- The last product added, the bias added, the activation applied. -/
theorem pay1_apply0 (acc : FVec Ideal S5000x64 .f32) (x4 : FVec Ideal S5000x64 .bf16) (w4 : FVec Ideal S1x64x64 .bf16)
    (b : FVec Ideal S64 .f32) (r : Fin 5000) (c : Fin 64) :
    (k0_pay1 (F := Ideal) acc (k0_pay3 x4) (k0_pay4 w4) b (ix2 r c) : EReal)
      = Cert.Spec.selu ((acc (ix2 r c) + ∑ k : Fin 64, x4 (ix2 r k) * w4 (ix3 (0 : Fin 1) k c)) + b (ix1 c)) := by
  unfold k0_pay1 k0_pay3 k0_pay4
  refine (seluVec _ (ix2 r c)).trans (congrArg Cert.Spec.selu ?_)
  exact congrArg₂ (· + ·) (congrArg (acc (ix2 r c) + ·) (loadedDot x4 w4 r c)) (biasRow b r c)

/-- What the body leaves in the output's staging buffer, at row r and column c of the block: the five products of
    the five input blocks' rows with the five weight matrices' columns added from the left, the bias, the activation. -/
theorem out_apply0 (x0 x1 x2 x3 x4 : FVec Ideal S5000x64 .bf16) (W : FVec Ideal S5x64x64 .bf16) (b : FVec Ideal S64 .f32)
    (r : Fin 5000) (c : Fin 64) :
    (out0_7 (F := Ideal) x0 x1 x2 x3 x4 W b (ix2 r c) : EReal)
      = Cert.Spec.selu ((((((∑ k : Fin 64, x0 (ix2 r k) * W (ix3 (0 : Fin 5) k c)) + ∑ k : Fin 64, x1 (ix2 r k) * W (ix3 (1 : Fin 5) k c))
          + ∑ k : Fin 64, x2 (ix2 r k) * W (ix3 (2 : Fin 5) k c)) + ∑ k : Fin 64, x3 (ix2 r k) * W (ix3 (3 : Fin 5) k c))
          + ∑ k : Fin 64, x4 (ix2 r k) * W (ix3 (4 : Fin 5) k c)) + b (ix1 c)) := by
  unfold out0_7
  rw [View.canon_unit_zero hz2]
  simp only [View.ld_unit_zero (S := S5000x64) hz2, View.ld_unit_zero (S := S64) hz1]
  refine (pay1_apply0 _ _ _ _ r c).trans (congrArg Cert.Spec.selu ?_)
  refine congrArg₂ (· + ·) (congrArg₂ (· + ·) ((pay2_apply0 _ _ _ _ _ _ _ _ r c).trans ?_) ?_) rfl
  · refine congrArg₂ (· + ·) (congrArg₂ (· + ·) (congrArg₂ (· + ·) ?_ ?_) ?_) ?_
    · exact Finset.sum_congr rfl fun k _ => congrArg (x0 (ix2 r k) * ·) (ldW W _ _ (0 : Fin 5) rfl rfl rfl k c)
    · exact Finset.sum_congr rfl fun k _ => congrArg (x1 (ix2 r k) * ·) (ldW W _ _ (1 : Fin 5) rfl rfl rfl k c)
    · exact Finset.sum_congr rfl fun k _ => congrArg (x2 (ix2 r k) * ·) (ldW W _ _ (2 : Fin 5) rfl rfl rfl k c)
    · exact Finset.sum_congr rfl fun k _ => congrArg (x3 (ix2 r k) * ·) (ldW W _ _ (3 : Fin 5) rfl rfl rfl k c)
  · exact Finset.sum_congr rfl fun k _ => congrArg (x4 (ix2 r k) * ·) (ldW W _ _ (4 : Fin 5) rfl rfl rfl k c)

variable (V : (c : Dev nD) → (b : Ref sig .tc) → Buf (Elt Ideal) ((c : Thread nD τ).loc b))

/-- Window 0's index map, decided over the grid: at point t it is at row block t, column block 0. -/
theorem idx0_0 : ∀ t : Fin cfg0.N, win0_0.index t (0 : Fin 2) = t.val ∧ win0_0.index t (1 : Fin 2) = 0 :=
  (by decide +kernel : ∀ t : Fin grid0.N, _)

/-- Window 1's index map, decided over the grid: at point t it is at row block t, column block 0. -/
theorem idx0_1 : ∀ t : Fin cfg0.N, win0_1.index t (0 : Fin 2) = t.val ∧ win0_1.index t (1 : Fin 2) = 0 :=
  (by decide +kernel : ∀ t : Fin grid0.N, _)

/-- Window 2's index map, decided over the grid: at point t it is at row block t, column block 0. -/
theorem idx0_2 : ∀ t : Fin cfg0.N, win0_2.index t (0 : Fin 2) = t.val ∧ win0_2.index t (1 : Fin 2) = 0 :=
  (by decide +kernel : ∀ t : Fin grid0.N, _)

/-- Window 3's index map, decided over the grid: at point t it is at row block t, column block 0. -/
theorem idx0_3 : ∀ t : Fin cfg0.N, win0_3.index t (0 : Fin 2) = t.val ∧ win0_3.index t (1 : Fin 2) = 0 :=
  (by decide +kernel : ∀ t : Fin grid0.N, _)

/-- Window 4's index map, decided over the grid: at point t it is at row block t, column block 0. -/
theorem idx0_4 : ∀ t : Fin cfg0.N, win0_4.index t (0 : Fin 2) = t.val ∧ win0_4.index t (1 : Fin 2) = 0 :=
  (by decide +kernel : ∀ t : Fin grid0.N, _)

/-- Window 7's index map, decided over the grid: at point t it is at row block t, column block 0. -/
theorem idx0_7 : ∀ t : Fin cfg0.N, win0_7.index t (0 : Fin 2) = t.val ∧ win0_7.index t (1 : Fin 2) = 0 :=
  (by decide +kernel : ∀ t : Fin grid0.N, _)

/-- Window 0's block at point t is rows 5000·t … 5000·t + 4999 of its array. -/
theorem rowBlock0_0 (c : Dev nD) (t : Fin cfg0.N) (r : Fin 5000) (k : Fin 64) (i : Fin 100000) (hi : i.val = 5000 * t.val + r.val) :
    (iblk0 V c 0 t : Vec Ideal S5000x64 .bf16) (ix2 r k) = (V c main_v84 : S100000x64.Idx → EReal) (ix2 i k) := by
  obtain ⟨e0, e1⟩ := idx0_0 t
  unfold iblk0
  rw [View.read_apply]
  show (V c main_v84 : S100000x64.Idx → EReal) _ = (V c main_v84 : S100000x64.Idx → EReal) _
  refine congrArg (V c main_v84 : S100000x64.Idx → EReal) (funext fun a => Fin.ext ?_)
  match a with
  | ⟨0, _⟩ => show win0_0.index t (0 : Fin 2) * 5000 + 1 * r.val = i.val; rw [e0, hi]; omega
  | ⟨1, _⟩ => show win0_0.index t (1 : Fin 2) * 64 + 1 * k.val = k.val; rw [e1]; omega

/-- Window 1's block at point t is rows 5000·t … 5000·t + 4999 of its array. -/
theorem rowBlock0_1 (c : Dev nD) (t : Fin cfg0.N) (r : Fin 5000) (k : Fin 64) (i : Fin 100000) (hi : i.val = 5000 * t.val + r.val) :
    (iblk0 V c 1 t : Vec Ideal S5000x64 .bf16) (ix2 r k) = (V c main_v85 : S100000x64.Idx → EReal) (ix2 i k) := by
  obtain ⟨e0, e1⟩ := idx0_1 t
  unfold iblk0
  rw [View.read_apply]
  show (V c main_v85 : S100000x64.Idx → EReal) _ = (V c main_v85 : S100000x64.Idx → EReal) _
  refine congrArg (V c main_v85 : S100000x64.Idx → EReal) (funext fun a => Fin.ext ?_)
  match a with
  | ⟨0, _⟩ => show win0_1.index t (0 : Fin 2) * 5000 + 1 * r.val = i.val; rw [e0, hi]; omega
  | ⟨1, _⟩ => show win0_1.index t (1 : Fin 2) * 64 + 1 * k.val = k.val; rw [e1]; omega

/-- Window 2's block at point t is rows 5000·t … 5000·t + 4999 of its array. -/
theorem rowBlock0_2 (c : Dev nD) (t : Fin cfg0.N) (r : Fin 5000) (k : Fin 64) (i : Fin 100000) (hi : i.val = 5000 * t.val + r.val) :
    (iblk0 V c 2 t : Vec Ideal S5000x64 .bf16) (ix2 r k) = (V c main_v86 : S100000x64.Idx → EReal) (ix2 i k) := by
  obtain ⟨e0, e1⟩ := idx0_2 t
  unfold iblk0
  rw [View.read_apply]
  show (V c main_v86 : S100000x64.Idx → EReal) _ = (V c main_v86 : S100000x64.Idx → EReal) _
  refine congrArg (V c main_v86 : S100000x64.Idx → EReal) (funext fun a => Fin.ext ?_)
  match a with
  | ⟨0, _⟩ => show win0_2.index t (0 : Fin 2) * 5000 + 1 * r.val = i.val; rw [e0, hi]; omega
  | ⟨1, _⟩ => show win0_2.index t (1 : Fin 2) * 64 + 1 * k.val = k.val; rw [e1]; omega

/-- Window 3's block at point t is rows 5000·t … 5000·t + 4999 of its array. -/
theorem rowBlock0_3 (c : Dev nD) (t : Fin cfg0.N) (r : Fin 5000) (k : Fin 64) (i : Fin 100000) (hi : i.val = 5000 * t.val + r.val) :
    (iblk0 V c 3 t : Vec Ideal S5000x64 .bf16) (ix2 r k) = (V c main_v87 : S100000x64.Idx → EReal) (ix2 i k) := by
  obtain ⟨e0, e1⟩ := idx0_3 t
  unfold iblk0
  rw [View.read_apply]
  show (V c main_v87 : S100000x64.Idx → EReal) _ = (V c main_v87 : S100000x64.Idx → EReal) _
  refine congrArg (V c main_v87 : S100000x64.Idx → EReal) (funext fun a => Fin.ext ?_)
  match a with
  | ⟨0, _⟩ => show win0_3.index t (0 : Fin 2) * 5000 + 1 * r.val = i.val; rw [e0, hi]; omega
  | ⟨1, _⟩ => show win0_3.index t (1 : Fin 2) * 64 + 1 * k.val = k.val; rw [e1]; omega

/-- Window 4's block at point t is rows 5000·t … 5000·t + 4999 of its array. -/
theorem rowBlock0_4 (c : Dev nD) (t : Fin cfg0.N) (r : Fin 5000) (k : Fin 64) (i : Fin 100000) (hi : i.val = 5000 * t.val + r.val) :
    (iblk0 V c 4 t : Vec Ideal S5000x64 .bf16) (ix2 r k) = (V c main_v88 : S100000x64.Idx → EReal) (ix2 i k) := by
  obtain ⟨e0, e1⟩ := idx0_4 t
  unfold iblk0
  rw [View.read_apply]
  show (V c main_v88 : S100000x64.Idx → EReal) _ = (V c main_v88 : S100000x64.Idx → EReal) _
  refine congrArg (V c main_v88 : S100000x64.Idx → EReal) (funext fun a => Fin.ext ?_)
  match a with
  | ⟨0, _⟩ => show win0_4.index t (0 : Fin 2) * 5000 + 1 * r.val = i.val; rw [e0, hi]; omega
  | ⟨1, _⟩ => show win0_4.index t (1 : Fin 2) * 64 + 1 * k.val = k.val; rw [e1]; omega

/-- The weights' index map, decided over the grid: block (0, 0, 0) at every point. -/
theorem idx0_5 : ∀ t : Fin cfg0.N, win0_5.index t (0 : Fin 3) = 0 ∧ win0_5.index t (1 : Fin 3) = 0 ∧ win0_5.index t (2 : Fin 3) = 0 :=
  (by decide +kernel : ∀ t : Fin grid0.N, _)

/-- The bias's index map, decided over the grid: block 0 at every point. -/
theorem idx0_6 : ∀ t : Fin cfg0.N, win0_6.index t (0 : Fin 1) = 0 :=
  (by decide +kernel : ∀ t : Fin grid0.N, _)

/-- The weights' block at every point is the whole stacked weights. -/
theorem wBlock0 (c : Dev nD) (t : Fin cfg0.N) (j : Fin 5) (k q : Fin 64) :
    (iblk0 V c 5 t : Vec Ideal S5x64x64 .bf16) (ix3 j k q) = (V c main_v21 : S5x64x64.Idx → EReal) (ix3 j k q) := by
  obtain ⟨e0, e1, e2⟩ := idx0_5 t
  unfold iblk0
  rw [View.read_apply]
  show (V c main_v21 : S5x64x64.Idx → EReal) _ = (V c main_v21 : S5x64x64.Idx → EReal) _
  refine congrArg (V c main_v21 : S5x64x64.Idx → EReal) (funext fun a => Fin.ext ?_)
  match a with
  | ⟨0, _⟩ => show win0_5.index t (0 : Fin 3) * 5 + 1 * j.val = j.val; rw [e0]; omega
  | ⟨1, _⟩ => show win0_5.index t (1 : Fin 3) * 64 + 1 * k.val = k.val; rw [e1]; omega
  | ⟨2, _⟩ => show win0_5.index t (2 : Fin 3) * 64 + 1 * q.val = q.val; rw [e2]; omega

/-- The bias's block at every point is the whole bias. -/
theorem bBlock0 (c : Dev nD) (t : Fin cfg0.N) (q : Fin 64) :
    (iblk0 V c 6 t : Vec Ideal S64 .f32) (ix1 q) = (V c main_arg4 : S64.Idx → EReal) (ix1 q) := by
  have e0 := idx0_6 t
  unfold iblk0
  rw [View.read_apply]
  show (V c main_arg4 : S64.Idx → EReal) _ = (V c main_arg4 : S64.Idx → EReal) _
  refine congrArg (V c main_arg4 : S64.Idx → EReal) (funext fun a => Fin.ext ?_)
  match a with
  | ⟨0, _⟩ => show win0_6.index t (0 : Fin 1) * 64 + 1 * q.val = q.val; rw [e0]; omega

/-- What point t writes back is block t of the layer of the region's operand arrays. -/
theorem flushed_eq0 (c : Dev nD) (t : Fin cfg0.N) :
    (dat0 (F := Ideal) V c).flushed 7 t = ((cfg0.win 7).blk t).view.read (Elt Ideal)
      (Cert.Spec.dense (V c main_v84) (V c main_v85) (V c main_v86) (V c main_v87) (V c main_v88) (V c main_v21) (V c main_arg4)) := by
  show (cfg0.win 7).cut (grid0.coords t) ((dat0 (F := Ideal) V c).after 7 t) = _
  rw [after0_7]
  obtain ⟨e0, e1⟩ := idx0_7 t
  have ht : t.val < 20 := lt_of_lt_of_eq t.isLt N_0
  funext y
  obtain ⟨r, q, rfl⟩ : ∃ (r : Fin 5000) (q : Fin 64), y = ix2 r q := ⟨y 0, y 1, eq_ix2 y⟩
  have hemb : ((cfg0.win 7).blk t).view.emb (ix2 r q) = (ix2 (⟨5000 * t.val + r.val, by omega⟩ : Fin 100000) q : S100000x64.Idx) := by
    funext a; apply Fin.ext
    match a with
    | ⟨0, _⟩ => show win0_7.index t (0 : Fin 2) * 5000 + 1 * r.val = 5000 * t.val + r.val; rw [e0]; omega
    | ⟨1, _⟩ => show win0_7.index t (1 : Fin 2) * 64 + 1 * q.val = q.val; rw [e1]; omega
  rw [View.read_apply]
  show (out0_7 (F := Ideal) (iblk0 V c 0 t) (iblk0 V c 1 t) (iblk0 V c 2 t) (iblk0 V c 3 t) (iblk0 V c 4 t) (iblk0 V c 5 t) (iblk0 V c 6 t) (ix2 r q) : EReal)
    = Cert.Spec.dense (V c main_v84) (V c main_v85) (V c main_v86) (V c main_v87) (V c main_v88) (V c main_v21) (V c main_arg4) (((cfg0.win 7).blk t).view.emb (ix2 r q))
  rw [hemb, Cert.Spec.dense_ix2]
  refine (out_apply0 (iblk0 V c 0 t) (iblk0 V c 1 t) (iblk0 V c 2 t) (iblk0 V c 3 t) (iblk0 V c 4 t) (iblk0 V c 5 t) (iblk0 V c 6 t) r q).trans ?_
  unfold Cert.Spec.denseAt Cert.Spec.rowDot
  refine congrArg Cert.Spec.selu (congrArg₂ (· + ·) (congrArg₂ (· + ·) (congrArg₂ (· + ·) (congrArg₂ (· + ·) (congrArg₂ (· + ·) ?_ ?_) ?_) ?_) ?_) (bBlock0 V c t q))
  · exact Finset.sum_congr rfl fun k _ => congrArg₂ (· * ·) (rowBlock0_0 V c t r k _ rfl) (wBlock0 V c t 0 k q)
  · exact Finset.sum_congr rfl fun k _ => congrArg₂ (· * ·) (rowBlock0_1 V c t r k _ rfl) (wBlock0 V c t 1 k q)
  · exact Finset.sum_congr rfl fun k _ => congrArg₂ (· * ·) (rowBlock0_2 V c t r k _ rfl) (wBlock0 V c t 2 k q)
  · exact Finset.sum_congr rfl fun k _ => congrArg₂ (· * ·) (rowBlock0_3 V c t r k _ rfl) (wBlock0 V c t 3 k q)
  · exact Finset.sum_congr rfl fun k _ => congrArg₂ (· * ·) (rowBlock0_4 V c t r k _ rfl) (wBlock0 V c t 4 k q)

/-- An index of the result array is in point t's block iff each coordinate is in the block's range on its axis. -/
theorem mem_blk0 (t : Fin cfg0.N) (i : S100000x64.Idx) :
    i ∈ ((cfg0.win 7).blk t).view.set ↔ ∀ a : Fin 2, win0_7.index t a * S5000x64.size a ≤ (i a).val ∧ (i a).val < win0_7.index t a * S5000x64.size a + S5000x64.size a := by
  show i ∈ ((View.whole main_v89).slice (win0_7.rect t)).set ↔ _
  rw [View.set_slice_whole, Rect.mem_set_unit]
  exact Iff.rfl

/-- Row i of the result is covered by point i / 5000. -/
theorem cover0 (i : S100000x64.Idx) : ∃ t : Fin cfg0.N, (cfg0.win 7).flush t = true ∧ i ∈ ((cfg0.win 7).blk t).view.set := by
  have hi0 : (i 0).val < 100000 := (i 0).isLt
  have hi1 : (i 1).val < 64 := (i 1).isLt
  have hN : cfg0.N = 20 := N_0
  refine ⟨⟨(i 0).val / 5000, by rw [hN]; omega⟩, flush0_7 _, ?_⟩
  rw [mem_blk0]
  obtain ⟨e0, e1⟩ := idx0_7 ⟨(i 0).val / 5000, by rw [hN]; omega⟩
  intro a
  match a with
  | ⟨0, _⟩ =>
    show win0_7.index _ (0 : Fin 2) * 5000 ≤ (i 0).val ∧ (i 0).val < win0_7.index _ (0 : Fin 2) * 5000 + 5000
    rw [e0]; show (i 0).val / 5000 * 5000 ≤ (i 0).val ∧ (i 0).val < (i 0).val / 5000 * 5000 + 5000; omega
  | ⟨1, _⟩ =>
    show win0_7.index _ (1 : Fin 2) * 64 ≤ (i 1).val ∧ (i 1).val < win0_7.index _ (1 : Fin 2) * 64 + 64
    rw [e1]; omega

/-- The result array after the region is the layer of the region's operand arrays. -/
theorem region0 (c : Dev nD) :
    (Cert.KernelIdeal.Gen.dat0 (F := Ideal) V c).arrAt 7 cfg0.N
      = Cert.Spec.dense (V c main_v84) (V c main_v85) (V c main_v86) (V c main_v87) (V c main_v88) (V c main_v21) (V c main_arg4) :=
  (dat0 (F := Ideal) V c).arrAt_eq_of_cover 7 _ (fun t _ => flushed_eq0 V c t) (cover0)

end Cert.KernelIdeal.Dense

end
-- ==== Proof.KerDense1.lean ====
/-
  Region 1 (the second Chebyshev layer) as a whole-array function. The grid has 20 points; point t stages rows
  5000·t … 5000·t + 4999 of the five Chebyshev terms, the whole stacked weights and the whole bias, and writes rows
  5000·t … 5000·t + 4999 of the result. At row r and column c of its block the body leaves the five products of the
  terms' rows with the weight matrices' columns added from the left, plus the bias, through the activation: that is the
  layer at row 5000·t + r. The 20 row blocks cover the 100000 rows, so the result array ends holding the layer.
-/
import proofs.«178477_j50946902065605_1_alg».proof.Proof.KerDenseCommon

noncomputable section

namespace Cert.KernelIdeal.Dense

open Idealize.ShloMosaic Idealize.ShloMosaic.ValueIdx Idealize.ShloMosaic.TcCoe Idealize.SL.Sem
open Idealize.ShloMosaic.Pipeline (Dat)
open Cert.KernelIdeal Cert.KernelIdeal.Gen
open scoped BigOperators

/-- The first four products added from the left onto the zero word. -/
theorem pay2_apply1 (x0 x1 x2 x3 : FVec Ideal S5000x64 .bf16) (w0 w1 w2 w3 : FVec Ideal S1x64x64 .bf16) (r : Fin 5000) (c : Fin 64) :
    (k1_pay2 (F := Ideal) x0 w0 x1 w1 x2 w2 x3 w3 (ix2 r c) : EReal)
      = (((∑ k : Fin 64, x0 (ix2 r k) * w0 (ix3 (0 : Fin 1) k c)) + ∑ k : Fin 64, x1 (ix2 r k) * w1 (ix3 (0 : Fin 1) k c))
          + ∑ k : Fin 64, x2 (ix2 r k) * w2 (ix3 (0 : Fin 1) k c)) + ∑ k : Fin 64, x3 (ix2 r k) * w3 (ix3 (0 : Fin 1) k c) := by
  unfold k1_pay2
  exact (congrArg₂ (· + ·) (congrArg₂ (· + ·) (congrArg₂ (· + ·) ((congrArg₂ (· + ·) Ideal.ofBits_zero_f32 (loadedDot x0 w0 r c)).trans (zero_add _))
    (loadedDot x1 w1 r c)) (loadedDot x2 w2 r c)) (loadedDot x3 w3 r c))

/-- The last product added, the bias added, the activation applied. -/
theorem pay1_apply1 (acc : FVec Ideal S5000x64 .f32) (x4 : FVec Ideal S5000x64 .bf16) (w4 : FVec Ideal S1x64x64 .bf16)
    (b : FVec Ideal S64 .f32) (r : Fin 5000) (c : Fin 64) :
    (k1_pay1 (F := Ideal) acc (k1_pay3 x4) (k1_pay4 w4) b (ix2 r c) : EReal)
      = Cert.Spec.selu ((acc (ix2 r c) + ∑ k : Fin 64, x4 (ix2 r k) * w4 (ix3 (0 : Fin 1) k c)) + b (ix1 c)) := by
  unfold k1_pay1 k1_pay3 k1_pay4
  refine (seluVec _ (ix2 r c)).trans (congrArg Cert.Spec.selu ?_)
  exact congrArg₂ (· + ·) (congrArg (acc (ix2 r c) + ·) (loadedDot x4 w4 r c)) (biasRow b r c)

/-- What the body leaves in the output's staging buffer, at row r and column c of the block: the five products of
    the five input blocks' rows with the five weight matrices' columns added from the left, the bias, the activation. -/
theorem out_apply1 (x0 x1 x2 x3 x4 : FVec Ideal S5000x64 .bf16) (W : FVec Ideal S5x64x64 .bf16) (b : FVec Ideal S64 .f32)
    (r : Fin 5000) (c : Fin 64) :
    (out1_7 (F := Ideal) x0 x1 x2 x3 x4 W b (ix2 r c) : EReal)
      = Cert.Spec.selu ((((((∑ k : Fin 64, x0 (ix2 r k) * W (ix3 (0 : Fin 5) k c)) + ∑ k : Fin 64, x1 (ix2 r k) * W (ix3 (1 : Fin 5) k c))
          + ∑ k : Fin 64, x2 (ix2 r k) * W (ix3 (2 : Fin 5) k c)) + ∑ k : Fin 64, x3 (ix2 r k) * W (ix3 (3 : Fin 5) k c))
          + ∑ k : Fin 64, x4 (ix2 r k) * W (ix3 (4 : Fin 5) k c)) + b (ix1 c)) := by
  unfold out1_7
  rw [View.canon_unit_zero hz2]
  simp only [View.ld_unit_zero (S := S5000x64) hz2, View.ld_unit_zero (S := S64) hz1]
  refine (pay1_apply1 _ _ _ _ r c).trans (congrArg Cert.Spec.selu ?_)
  refine congrArg₂ (· + ·) (congrArg₂ (· + ·) ((pay2_apply1 _ _ _ _ _ _ _ _ r c).trans ?_) ?_) rfl
  · refine congrArg₂ (· + ·) (congrArg₂ (· + ·) (congrArg₂ (· + ·) ?_ ?_) ?_) ?_
    · exact Finset.sum_congr rfl fun k _ => congrArg (x0 (ix2 r k) * ·) (ldW W _ _ (0 : Fin 5) rfl rfl rfl k c)
    · exact Finset.sum_congr rfl fun k _ => congrArg (x1 (ix2 r k) * ·) (ldW W _ _ (1 : Fin 5) rfl rfl rfl k c)
    · exact Finset.sum_congr rfl fun k _ => congrArg (x2 (ix2 r k) * ·) (ldW W _ _ (2 : Fin 5) rfl rfl rfl k c)
    · exact Finset.sum_congr rfl fun k _ => congrArg (x3 (ix2 r k) * ·) (ldW W _ _ (3 : Fin 5) rfl rfl rfl k c)
  · exact Finset.sum_congr rfl fun k _ => congrArg (x4 (ix2 r k) * ·) (ldW W _ _ (4 : Fin 5) rfl rfl rfl k c)

variable (V : (c : Dev nD) → (b : Ref sig .tc) → Buf (Elt Ideal) ((c : Thread nD τ).loc b))

/-- Window 0's index map, decided over the grid: at point t it is at row block t, column block 0. -/
theorem idx1_0 : ∀ t : Fin cfg1.N, win1_0.index t (0 : Fin 2) = t.val ∧ win1_0.index t (1 : Fin 2) = 0 :=
  (by decide +kernel : ∀ t : Fin grid1.N, _)

/-- Window 1's index map, decided over the grid: at point t it is at row block t, column block 0. -/
theorem idx1_1 : ∀ t : Fin cfg1.N, win1_1.index t (0 : Fin 2) = t.val ∧ win1_1.index t (1 : Fin 2) = 0 :=
  (by decide +kernel : ∀ t : Fin grid1.N, _)

/-- Window 2's index map, decided over the grid: at point t it is at row block t, column block 0. -/
theorem idx1_2 : ∀ t : Fin cfg1.N, win1_2.index t (0 : Fin 2) = t.val ∧ win1_2.index t (1 : Fin 2) = 0 :=
  (by decide +kernel : ∀ t : Fin grid1.N, _)

/-- Window 3's index map, decided over the grid: at point t it is at row block t, column block 0. -/
theorem idx1_3 : ∀ t : Fin cfg1.N, win1_3.index t (0 : Fin 2) = t.val ∧ win1_3.index t (1 : Fin 2) = 0 :=
  (by decide +kernel : ∀ t : Fin grid1.N, _)

/-- Window 4's index map, decided over the grid: at point t it is at row block t, column block 0. -/
theorem idx1_4 : ∀ t : Fin cfg1.N, win1_4.index t (0 : Fin 2) = t.val ∧ win1_4.index t (1 : Fin 2) = 0 :=
  (by decide +kernel : ∀ t : Fin grid1.N, _)

/-- Window 7's index map, decided over the grid: at point t it is at row block t, column block 0. -/
theorem idx1_7 : ∀ t : Fin cfg1.N, win1_7.index t (0 : Fin 2) = t.val ∧ win1_7.index t (1 : Fin 2) = 0 :=
  (by decide +kernel : ∀ t : Fin grid1.N, _)

/-- Window 0's block at point t is rows 5000·t … 5000·t + 4999 of its array. -/
theorem rowBlock1_0 (c : Dev nD) (t : Fin cfg1.N) (r : Fin 5000) (k : Fin 64) (i : Fin 100000) (hi : i.val = 5000 * t.val + r.val) :
    (iblk1 V c 0 t : Vec Ideal S5000x64 .bf16) (ix2 r k) = (V c main_v151 : S100000x64.Idx → EReal) (ix2 i k) := by
  obtain ⟨e0, e1⟩ := idx1_0 t
  unfold iblk1
  rw [View.read_apply]
  show (V c main_v151 : S100000x64.Idx → EReal) _ = (V c main_v151 : S100000x64.Idx → EReal) _
  refine congrArg (V c main_v151 : S100000x64.Idx → EReal) (funext fun a => Fin.ext ?_)
  match a with
  | ⟨0, _⟩ => show win1_0.index t (0 : Fin 2) * 5000 + 1 * r.val = i.val; rw [e0, hi]; omega
  | ⟨1, _⟩ => show win1_0.index t (1 : Fin 2) * 64 + 1 * k.val = k.val; rw [e1]; omega

/-- Window 1's block at point t is rows 5000·t … 5000·t + 4999 of its array. -/
theorem rowBlock1_1 (c : Dev nD) (t : Fin cfg1.N) (r : Fin 5000) (k : Fin 64) (i : Fin 100000) (hi : i.val = 5000 * t.val + r.val) :
    (iblk1 V c 1 t : Vec Ideal S5000x64 .bf16) (ix2 r k) = (V c main_v152 : S100000x64.Idx → EReal) (ix2 i k) := by
  obtain ⟨e0, e1⟩ := idx1_1 t
  unfold iblk1
  rw [View.read_apply]
  show (V c main_v152 : S100000x64.Idx → EReal) _ = (V c main_v152 : S100000x64.Idx → EReal) _
  refine congrArg (V c main_v152 : S100000x64.Idx → EReal) (funext fun a => Fin.ext ?_)
  match a with
  | ⟨0, _⟩ => show win1_1.index t (0 : Fin 2) * 5000 + 1 * r.val = i.val; rw [e0, hi]; omega
  | ⟨1, _⟩ => show win1_1.index t (1 : Fin 2) * 64 + 1 * k.val = k.val; rw [e1]; omega

/-- Window 2's block at point t is rows 5000·t … 5000·t + 4999 of its array. -/
theorem rowBlock1_2 (c : Dev nD) (t : Fin cfg1.N) (r : Fin 5000) (k : Fin 64) (i : Fin 100000) (hi : i.val = 5000 * t.val + r.val) :
    (iblk1 V c 2 t : Vec Ideal S5000x64 .bf16) (ix2 r k) = (V c main_v153 : S100000x64.Idx → EReal) (ix2 i k) := by
  obtain ⟨e0, e1⟩ := idx1_2 t
  unfold iblk1
  rw [View.read_apply]
  show (V c main_v153 : S100000x64.Idx → EReal) _ = (V c main_v153 : S100000x64.Idx → EReal) _
  refine congrArg (V c main_v153 : S100000x64.Idx → EReal) (funext fun a => Fin.ext ?_)
  match a with
  | ⟨0, _⟩ => show win1_2.index t (0 : Fin 2) * 5000 + 1 * r.val = i.val; rw [e0, hi]; omega
  | ⟨1, _⟩ => show win1_2.index t (1 : Fin 2) * 64 + 1 * k.val = k.val; rw [e1]; omega

/-- Window 3's block at point t is rows 5000·t … 5000·t + 4999 of its array. -/
theorem rowBlock1_3 (c : Dev nD) (t : Fin cfg1.N) (r : Fin 5000) (k : Fin 64) (i : Fin 100000) (hi : i.val = 5000 * t.val + r.val) :
    (iblk1 V c 3 t : Vec Ideal S5000x64 .bf16) (ix2 r k) = (V c main_v154 : S100000x64.Idx → EReal) (ix2 i k) := by
  obtain ⟨e0, e1⟩ := idx1_3 t
  unfold iblk1
  rw [View.read_apply]
  show (V c main_v154 : S100000x64.Idx → EReal) _ = (V c main_v154 : S100000x64.Idx → EReal) _
  refine congrArg (V c main_v154 : S100000x64.Idx → EReal) (funext fun a => Fin.ext ?_)
  match a with
  | ⟨0, _⟩ => show win1_3.index t (0 : Fin 2) * 5000 + 1 * r.val = i.val; rw [e0, hi]; omega
  | ⟨1, _⟩ => show win1_3.index t (1 : Fin 2) * 64 + 1 * k.val = k.val; rw [e1]; omega

/-- Window 4's block at point t is rows 5000·t … 5000·t + 4999 of its array. -/
theorem rowBlock1_4 (c : Dev nD) (t : Fin cfg1.N) (r : Fin 5000) (k : Fin 64) (i : Fin 100000) (hi : i.val = 5000 * t.val + r.val) :
    (iblk1 V c 4 t : Vec Ideal S5000x64 .bf16) (ix2 r k) = (V c main_v155 : S100000x64.Idx → EReal) (ix2 i k) := by
  obtain ⟨e0, e1⟩ := idx1_4 t
  unfold iblk1
  rw [View.read_apply]
  show (V c main_v155 : S100000x64.Idx → EReal) _ = (V c main_v155 : S100000x64.Idx → EReal) _
  refine congrArg (V c main_v155 : S100000x64.Idx → EReal) (funext fun a => Fin.ext ?_)
  match a with
  | ⟨0, _⟩ => show win1_4.index t (0 : Fin 2) * 5000 + 1 * r.val = i.val; rw [e0, hi]; omega
  | ⟨1, _⟩ => show win1_4.index t (1 : Fin 2) * 64 + 1 * k.val = k.val; rw [e1]; omega

/-- The weights' index map, decided over the grid: block (0, 0, 0) at every point. -/
theorem idx1_5 : ∀ t : Fin cfg1.N, win1_5.index t (0 : Fin 3) = 0 ∧ win1_5.index t (1 : Fin 3) = 0 ∧ win1_5.index t (2 : Fin 3) = 0 :=
  (by decide +kernel : ∀ t : Fin grid1.N, _)

/-- The bias's index map, decided over the grid: block 0 at every point. -/
theorem idx1_6 : ∀ t : Fin cfg1.N, win1_6.index t (0 : Fin 1) = 0 :=
  (by decide +kernel : ∀ t : Fin grid1.N, _)

/-- The weights' block at every point is the whole stacked weights. -/
theorem wBlock1 (c : Dev nD) (t : Fin cfg1.N) (j : Fin 5) (k q : Fin 64) :
    (iblk1 V c 5 t : Vec Ideal S5x64x64 .bf16) (ix3 j k q) = (V c main_v22 : S5x64x64.Idx → EReal) (ix3 j k q) := by
  obtain ⟨e0, e1, e2⟩ := idx1_5 t
  unfold iblk1
  rw [View.read_apply]
  show (V c main_v22 : S5x64x64.Idx → EReal) _ = (V c main_v22 : S5x64x64.Idx → EReal) _
  refine congrArg (V c main_v22 : S5x64x64.Idx → EReal) (funext fun a => Fin.ext ?_)
  match a with
  | ⟨0, _⟩ => show win1_5.index t (0 : Fin 3) * 5 + 1 * j.val = j.val; rw [e0]; omega
  | ⟨1, _⟩ => show win1_5.index t (1 : Fin 3) * 64 + 1 * k.val = k.val; rw [e1]; omega
  | ⟨2, _⟩ => show win1_5.index t (2 : Fin 3) * 64 + 1 * q.val = q.val; rw [e2]; omega

/-- The bias's block at every point is the whole bias. -/
theorem bBlock1 (c : Dev nD) (t : Fin cfg1.N) (q : Fin 64) :
    (iblk1 V c 6 t : Vec Ideal S64 .f32) (ix1 q) = (V c main_arg6 : S64.Idx → EReal) (ix1 q) := by
  have e0 := idx1_6 t
  unfold iblk1
  rw [View.read_apply]
  show (V c main_arg6 : S64.Idx → EReal) _ = (V c main_arg6 : S64.Idx → EReal) _
  refine congrArg (V c main_arg6 : S64.Idx → EReal) (funext fun a => Fin.ext ?_)
  match a with
  | ⟨0, _⟩ => show win1_6.index t (0 : Fin 1) * 64 + 1 * q.val = q.val; rw [e0]; omega

/-- What point t writes back is block t of the layer of the region's operand arrays. -/
theorem flushed_eq1 (c : Dev nD) (t : Fin cfg1.N) :
    (dat1 (F := Ideal) V c).flushed 7 t = ((cfg1.win 7).blk t).view.read (Elt Ideal)
      (Cert.Spec.dense (V c main_v151) (V c main_v152) (V c main_v153) (V c main_v154) (V c main_v155) (V c main_v22) (V c main_arg6)) := by
  show (cfg1.win 7).cut (grid1.coords t) ((dat1 (F := Ideal) V c).after 7 t) = _
  rw [after1_7]
  obtain ⟨e0, e1⟩ := idx1_7 t
  have ht : t.val < 20 := lt_of_lt_of_eq t.isLt N_1
  funext y
  obtain ⟨r, q, rfl⟩ : ∃ (r : Fin 5000) (q : Fin 64), y = ix2 r q := ⟨y 0, y 1, eq_ix2 y⟩
  have hemb : ((cfg1.win 7).blk t).view.emb (ix2 r q) = (ix2 (⟨5000 * t.val + r.val, by omega⟩ : Fin 100000) q : S100000x64.Idx) := by
    funext a; apply Fin.ext
    match a with
    | ⟨0, _⟩ => show win1_7.index t (0 : Fin 2) * 5000 + 1 * r.val = 5000 * t.val + r.val; rw [e0]; omega
    | ⟨1, _⟩ => show win1_7.index t (1 : Fin 2) * 64 + 1 * q.val = q.val; rw [e1]; omega
  rw [View.read_apply]
  show (out1_7 (F := Ideal) (iblk1 V c 0 t) (iblk1 V c 1 t) (iblk1 V c 2 t) (iblk1 V c 3 t) (iblk1 V c 4 t) (iblk1 V c 5 t) (iblk1 V c 6 t) (ix2 r q) : EReal)
    = Cert.Spec.dense (V c main_v151) (V c main_v152) (V c main_v153) (V c main_v154) (V c main_v155) (V c main_v22) (V c main_arg6) (((cfg1.win 7).blk t).view.emb (ix2 r q))
  rw [hemb, Cert.Spec.dense_ix2]
  refine (out_apply1 (iblk1 V c 0 t) (iblk1 V c 1 t) (iblk1 V c 2 t) (iblk1 V c 3 t) (iblk1 V c 4 t) (iblk1 V c 5 t) (iblk1 V c 6 t) r q).trans ?_
  unfold Cert.Spec.denseAt Cert.Spec.rowDot
  refine congrArg Cert.Spec.selu (congrArg₂ (· + ·) (congrArg₂ (· + ·) (congrArg₂ (· + ·) (congrArg₂ (· + ·) (congrArg₂ (· + ·) ?_ ?_) ?_) ?_) ?_) (bBlock1 V c t q))
  · exact Finset.sum_congr rfl fun k _ => congrArg₂ (· * ·) (rowBlock1_0 V c t r k _ rfl) (wBlock1 V c t 0 k q)
  · exact Finset.sum_congr rfl fun k _ => congrArg₂ (· * ·) (rowBlock1_1 V c t r k _ rfl) (wBlock1 V c t 1 k q)
  · exact Finset.sum_congr rfl fun k _ => congrArg₂ (· * ·) (rowBlock1_2 V c t r k _ rfl) (wBlock1 V c t 2 k q)
  · exact Finset.sum_congr rfl fun k _ => congrArg₂ (· * ·) (rowBlock1_3 V c t r k _ rfl) (wBlock1 V c t 3 k q)
  · exact Finset.sum_congr rfl fun k _ => congrArg₂ (· * ·) (rowBlock1_4 V c t r k _ rfl) (wBlock1 V c t 4 k q)

/-- An index of the result array is in point t's block iff each coordinate is in the block's range on its axis. -/
theorem mem_blk1 (t : Fin cfg1.N) (i : S100000x64.Idx) :
    i ∈ ((cfg1.win 7).blk t).view.set ↔ ∀ a : Fin 2, win1_7.index t a * S5000x64.size a ≤ (i a).val ∧ (i a).val < win1_7.index t a * S5000x64.size a + S5000x64.size a := by
  show i ∈ ((View.whole main_v156).slice (win1_7.rect t)).set ↔ _
  rw [View.set_slice_whole, Rect.mem_set_unit]
  exact Iff.rfl

/-- Row i of the result is covered by point i / 5000. -/
theorem cover1 (i : S100000x64.Idx) : ∃ t : Fin cfg1.N, (cfg1.win 7).flush t = true ∧ i ∈ ((cfg1.win 7).blk t).view.set := by
  have hi0 : (i 0).val < 100000 := (i 0).isLt
  have hi1 : (i 1).val < 64 := (i 1).isLt
  have hN : cfg1.N = 20 := N_1
  refine ⟨⟨(i 0).val / 5000, by rw [hN]; omega⟩, flush1_7 _, ?_⟩
  rw [mem_blk1]
  obtain ⟨e0, e1⟩ := idx1_7 ⟨(i 0).val / 5000, by rw [hN]; omega⟩
  intro a
  match a with
  | ⟨0, _⟩ =>
    show win1_7.index _ (0 : Fin 2) * 5000 ≤ (i 0).val ∧ (i 0).val < win1_7.index _ (0 : Fin 2) * 5000 + 5000
    rw [e0]; show (i 0).val / 5000 * 5000 ≤ (i 0).val ∧ (i 0).val < (i 0).val / 5000 * 5000 + 5000; omega
  | ⟨1, _⟩ =>
    show win1_7.index _ (1 : Fin 2) * 64 ≤ (i 1).val ∧ (i 1).val < win1_7.index _ (1 : Fin 2) * 64 + 64
    rw [e1]; omega

/-- The result array after the region is the layer of the region's operand arrays. -/
theorem region1 (c : Dev nD) :
    (Cert.KernelIdeal.Gen.dat1 (F := Ideal) V c).arrAt 7 cfg1.N
      = Cert.Spec.dense (V c main_v151) (V c main_v152) (V c main_v153) (V c main_v154) (V c main_v155) (V c main_v22) (V c main_arg6) :=
  (dat1 (F := Ideal) V c).arrAt_eq_of_cover 7 _ (fun t _ => flushed_eq1 V c t) (cover1)

end Cert.KernelIdeal.Dense

end
-- ==== Proof.KerFc.lean ====
import proofs.«178477_j50946902065605_1_alg».proof.Proof.Gen.KernelIdeal.Frame
import proofs.«178477_j50946902065605_1_alg».proof.Proof.Spec
import proofs.«178477_j50946902065605_1_alg».proof.Proof.LibDenseRows
import Idealize.ShloMosaic.Lib.Pipeline.Value

set_option maxRecDepth 16384

noncomputable section

namespace Cert.KernelIdeal.Fc

open Idealize.ShloMosaic Idealize.ShloMosaic.TcCoe Idealize.ShloMosaic.ValueIdx
open Idealize.ShloMosaic.Pipeline (Dat)
open Cert.KernelIdeal Cert.KernelIdeal.Gen

/-- The zero offsets of a whole-array access, as a constant function. -/
theorem hz : (![0, 0] : Fin 2 → Nat) = fun _ => 0 := funext fun a => by fin_cases a <;> rfl
theorem hz1 : (![0] : Fin 1 → Nat) = fun _ => 0 := funext fun a => by fin_cases a; rfl

/-- The body's arithmetic at graph `r`, class `c`: the matrix product into the zero accumulator is the sum over the 64
    pooled features, and the bias vector laid along the rows reads the bias at `c`. -/
theorem pay_apply (g : FVec Ideal S64x64 .bf16) (w : FVec Ideal S64x10 .bf16) (b : Vec Ideal S10 .f32) (r : Fin 64) (c : Fin 10) :
    k2_pay1 (F := Ideal) g w b (ix2 r c) = Cert.Spec.fcAt g w b r c := by
  unfold k2_pay1
  refine (addf_apply _ _ _).trans ?_
  unfold Cert.Spec.fcAt
  refine congrArg₂ (· + ·) ?_ ?_
  · refine (Cert.DenseRows.matmul_zero_plain_apply dot_S64x64_S64x10_S64x10_1_0_0_1_n_n rfl rfl rfl rfl (fun _ _ => rfl) (fun _ _ => rfl) _ _ r c).trans ?_
    simp only [shapeCast_self]
  · exact Cert.DenseRows.rowBias_cast_apply b shapeCasts_S10_S1x10 broadcasts_S1x10_S64x10 r c

/-- So the body's arithmetic is the projection of its three loaded blocks. -/
theorem pay_eq_fc (g : FVec Ideal S64x64 .bf16) (w : FVec Ideal S64x10 .bf16) (b : Vec Ideal S10 .f32) :
    k2_pay1 (F := Ideal) g w b = Cert.Spec.fc g w b := Cert.Spec.eq_fc (pay_apply g w b)

variable (V : (c : Dev nD) → (b : Ref sig .tc) → Buf (Elt Ideal) ((c : Thread nD τ).loc b))

/-- The grid is one point and every window is its whole array at block (0, …, 0): a window's block is its array. -/
theorem iblk_0 (c : Dev nD) : (iblk2 V c 0 t2_0 : Vec Ideal S64x64 .bf16) = V c main_v160 := by
  unfold iblk2
  have hz' : (fun a => win2_0.index t2_0 a * main_v160.ty.shape.size a) = fun _ => 0 := funext fun a => by fin_cases a <;> decide
  exact Memref.read_access_unit_zero (Elt Ideal) main_v160 hz' (fun a => by rw [congrFun hz' a]; simp) (V c main_v160)

theorem iblk_1 (c : Dev nD) : (iblk2 V c 1 t2_0 : Vec Ideal S64x10 .bf16) = V c main_v161 := by
  unfold iblk2
  have hz' : (fun a => win2_1.index t2_0 a * main_v161.ty.shape.size a) = fun _ => 0 := funext fun a => by fin_cases a <;> decide
  exact Memref.read_access_unit_zero (Elt Ideal) main_v161 hz' (fun a => by rw [congrFun hz' a]; simp) (V c main_v161)

theorem iblk_2 (c : Dev nD) : (iblk2 V c 2 t2_0 : Vec Ideal S10 .f32) = V c main_arg8 := by
  unfold iblk2
  have hz' : (fun a => win2_2.index t2_0 a * main_arg8.ty.shape.size a) = fun _ => 0 := funext fun a => by fin_cases a; decide
  exact Memref.read_access_unit_zero (Elt Ideal) main_arg8 hz' (fun a => by rw [congrFun hz' a]; simp) (V c main_arg8)

/-- What the one point writes back is the projection of the three arrays as the region finds them, read through the
    output window's block — which is the whole output array. -/
theorem flushed_eq (c : Dev nD) (t : Fin cfg2.N) :
    (dat2 (F := Ideal) V c).flushed 3 t = ((cfg2.win 3).blk t).view.read (Elt Ideal) (Cert.Spec.fc (V c main_v160) (V c main_v161) (V c main_arg8)) := by
  obtain rfl := fin_N2 t
  show (cfg2.win 3).cut (grid2.coords t2_0) ((dat2 V c).after 3 t2_0) = _
  rw [after2_3]
  unfold out2_3
  rw [View.canon_unit_zero hz]
  simp only [View.ld_unit_zero (S := S64x64) hz, View.ld_unit_zero (S := S64x10) hz, View.ld_unit_zero (S := S10) hz1]
  have hz' : (fun a => win2_3.index t2_0 a * main_v162.ty.shape.size a) = fun _ => 0 := funext fun a => by fin_cases a <;> decide
  refine Eq.trans ?_ (Memref.read_access_unit_zero (Elt Ideal) main_v162 hz' (fun a => by rw [congrFun hz' a]; simp)
    (Cert.Spec.fc (V c main_v160) (V c main_v161) (V c main_arg8))).symm
  show k2_pay1 (F := Ideal) (iblk2 V c 0 t2_0) (iblk2 V c 1 t2_0) (iblk2 V c 2 t2_0) = _
  rw [iblk_0 V c, iblk_1 V c, iblk_2 V c]
  exact pay_eq_fc (V c main_v160) (V c main_v161) (V c main_arg8)

/-- The output array after the region: the one point's block covers it. -/
theorem region2 (c : Dev nD) :
    (Cert.KernelIdeal.Gen.dat2 (F := Ideal) V c).arrAt 3 cfg2.N = Cert.Spec.fc (V c main_v160) (V c main_v161) (V c main_arg8) :=
  (dat2 (F := Ideal) V c).arrAt_eq_of_cover 3 (Cert.Spec.fc (V c main_v160) (V c main_v161) (V c main_arg8))
    (fun t _ => flushed_eq V c t) fun i =>
    ⟨t2_0, flush2_3 t2_0, by
      show i ∈ ((View.whole main_v162).slice (win2_3.rect t2_0)).set
      rw [View.set_slice_whole, Rect.mem_set_unit]
      intro a
      have h0 : (i 0 : Nat) < 64 := (i 0).isLt
      have h1 : (i 1 : Nat) < 10 := (i 1).isLt
      match a with
      | ⟨0, _⟩ => show win2_3.index t2_0 0 * win2_3.size 0 ≤ (i 0 : Nat) ∧ (i 0 : Nat) < win2_3.index t2_0 0 * win2_3.size 0 + win2_3.xsize (grid2.coords t2_0) 0
                  rw [show win2_3.index t2_0 0 * win2_3.size 0 = 0 from by decide +kernel, show win2_3.xsize (grid2.coords t2_0) 0 = 64 from by decide +kernel]; omega
      | ⟨1, _⟩ => show win2_3.index t2_0 1 * win2_3.size 1 ≤ (i 1 : Nat) ∧ (i 1 : Nat) < win2_3.index t2_0 1 * win2_3.size 1 + win2_3.xsize (grid2.coords t2_0) 1
                  rw [show win2_3.index t2_0 1 * win2_3.size 1 = 0 from by decide +kernel, show win2_3.xsize (grid2.coords t2_0) 1 = 10 from by decide +kernel]; omega⟩

end Cert.KernelIdeal.Fc
end
-- ==== Proof.BridgeBase.lean ====
/-
  Reading both programs' host operations side by side. A line of host operations turns the contents of the buffers
  before it into the contents after it; opened operation by operation, the contents of one result buffer become a
  term in the contents of the buffers the line started from. The kernel's program and the reference apply the same
  graph operations (degrees, edge weights, gather, weighted scatter-add, the Chebyshev recurrence) in the same order,
  so opened this way their buffers hold the same terms: nothing of a gather or a scatter is ever unfolded.
-/
import proofs.«178477_j50946902065605_1_alg».proof.Proof.Gen.KernelIdeal.Launch
import proofs.«178477_j50946902065605_1_alg».proof.Proof.RefOps
import Idealize.ShloMosaic.Lib.StableHlo.Run
import Idealize.ShloMosaic.PureOps.Ideal

noncomputable section

namespace Cert.Bridge

open Idealize.ShloMosaic Idealize.ShloMosaic.StableHlo

/-- Two lines run one after the other: the contents after the second, from the contents after the first. -/
theorem after_append' {τ : Topo} {sig : RefSig} {Val : EltTy → Type} (l₁ l₂ : List (HloOp τ sig Val)) (V : Valuation τ sig Val) :
    after (l₁ ++ l₂) V = after l₂ (after l₁ V) := by
  induction l₁ generalizing V with
  | nil => rfl
  | cons op l ih => exact ih (op.result V)

/-- Buffer contents of the kernel's program and of the reference, at the ideal values. -/
abbrev VK := Valuation Cert.KernelIdeal.τ Cert.KernelIdeal.sig (Elt Ideal)
abbrev VR := Valuation Cert.ReferenceIdeal.τ Cert.ReferenceIdeal.sig (Elt Ideal)

/-- A change of float format is the identity on extended reals: a table rounded to another format is the table. -/
theorem truncf_id {s : Shape} {φ ψ : FTy} (a : FVec Ideal s φ) (h : ψ.bits < φ.bits) : (truncf ψ a h : FVec Ideal s ψ) = a := rfl

/-- Opens every line in the goal, operation by operation, down to the contents the lines started from. -/
macro "open_lists" "[" hs:Lean.Parser.Tactic.simpLemma,* "]" : tactic =>
  `(tactic| (simp (disch := decide) only [after_append', after_cons, after_nil,
      nullary_result', unary_result', binary_result', ternary_result', reshape_result',
      nullary_result_ne', unary_result_ne', binary_result_ne', ternary_result_ne', reshape_result_ne', cast_eq, truncf_id,
      and_self, and_true, true_and, $hs,*]))

end Cert.Bridge

end
-- ==== Proof.BridgeA.lean ====
/-
  The first layer's inputs. From launch contents that agree on the node features, the edge list and the first weight
  array, the kernel's program (its host operations before the first region) and the reference (its first layer's
  operations) leave the same source and destination rows, the same edge weights and the same five Chebyshev terms
  T₀ = x, T₁ = L̂x, T₂ = 2L̂T₁ − T₀, T₃ = 2L̂T₂ − T₁, T₄ = 2L̂T₃ − T₂, where L̂ gathers at the sources, weighs by minus the
  inverse out-degree and scatter-adds at the destinations. The kernel's rounding of the terms and of the weights to
  bf16 is the identity on extended reals.
-/
import proofs.«178477_j50946902065605_1_alg».proof.Proof.BridgeBase

set_option maxRecDepth 16384

noncomputable section

namespace Cert.Bridge

open Idealize.ShloMosaic Idealize.ShloMosaic.StableHlo

set_option maxHeartbeats 40000000 in
theorem layer1 (vk : VK) (vr : VR)
    (h0 : vk (Proc.devRef .tc Cert.KernelIdeal.main_arg0) = vr (Proc.devRef .tc Cert.ReferenceIdeal.main_arg0))
    (h1 : vk (Proc.devRef .tc Cert.KernelIdeal.main_arg1) = vr (Proc.devRef .tc Cert.ReferenceIdeal.main_arg1))
    (h3 : vk (Proc.devRef .tc Cert.KernelIdeal.main_arg3) = vr (Proc.devRef .tc Cert.ReferenceIdeal.main_arg3)) :
    (after (Cert.KernelIdeal.Gen.hostOps0_2 (F := Ideal)) (after Cert.KernelIdeal.Gen.hostOps0_1 (after Cert.KernelIdeal.Gen.hostOps0 vk))) (Proc.devRef .tc Cert.KernelIdeal.main_v84) = vr (Proc.devRef .tc Cert.ReferenceIdeal.main_arg0)
    ∧ (after (Cert.KernelIdeal.Gen.hostOps0_2 (F := Ideal)) (after Cert.KernelIdeal.Gen.hostOps0_1 (after Cert.KernelIdeal.Gen.hostOps0 vk))) (Proc.devRef .tc Cert.KernelIdeal.main_v85) = after (Cert.ReferenceIdeal.RefRun.opsA (F := Ideal)) vr (Proc.devRef .tc Cert.ReferenceIdeal.main_v36)
    ∧ (after (Cert.KernelIdeal.Gen.hostOps0_2 (F := Ideal)) (after Cert.KernelIdeal.Gen.hostOps0_1 (after Cert.KernelIdeal.Gen.hostOps0 vk))) (Proc.devRef .tc Cert.KernelIdeal.main_v86) = after (Cert.ReferenceIdeal.RefRun.opsA (F := Ideal)) vr (Proc.devRef .tc Cert.ReferenceIdeal.main_v56)
    ∧ (after (Cert.KernelIdeal.Gen.hostOps0_2 (F := Ideal)) (after Cert.KernelIdeal.Gen.hostOps0_1 (after Cert.KernelIdeal.Gen.hostOps0 vk))) (Proc.devRef .tc Cert.KernelIdeal.main_v87) = after (Cert.ReferenceIdeal.RefRun.opsA (F := Ideal)) vr (Proc.devRef .tc Cert.ReferenceIdeal.main_v76)
    ∧ (after (Cert.KernelIdeal.Gen.hostOps0_2 (F := Ideal)) (after Cert.KernelIdeal.Gen.hostOps0_1 (after Cert.KernelIdeal.Gen.hostOps0 vk))) (Proc.devRef .tc Cert.KernelIdeal.main_v88) = after (Cert.ReferenceIdeal.RefRun.opsA (F := Ideal)) vr (Proc.devRef .tc Cert.ReferenceIdeal.main_v96)
    ∧ (after (Cert.KernelIdeal.Gen.hostOps0_2 (F := Ideal)) (after Cert.KernelIdeal.Gen.hostOps0_1 (after Cert.KernelIdeal.Gen.hostOps0 vk))) (Proc.devRef .tc Cert.KernelIdeal.main_v21) = vr (Proc.devRef .tc Cert.ReferenceIdeal.main_arg3)
    ∧ (after (Cert.KernelIdeal.Gen.hostOps0_2 (F := Ideal)) (after Cert.KernelIdeal.Gen.hostOps0_1 (after Cert.KernelIdeal.Gen.hostOps0 vk))) (Proc.devRef .tc Cert.KernelIdeal.main_v1) = after (Cert.ReferenceIdeal.RefRun.opsA (F := Ideal)) vr (Proc.devRef .tc Cert.ReferenceIdeal.main_v1)
    ∧ (after (Cert.KernelIdeal.Gen.hostOps0_2 (F := Ideal)) (after Cert.KernelIdeal.Gen.hostOps0_1 (after Cert.KernelIdeal.Gen.hostOps0 vk))) (Proc.devRef .tc Cert.KernelIdeal.main_v3) = after (Cert.ReferenceIdeal.RefRun.opsA (F := Ideal)) vr (Proc.devRef .tc Cert.ReferenceIdeal.main_v3)
    ∧ (after (Cert.KernelIdeal.Gen.hostOps0_2 (F := Ideal)) (after Cert.KernelIdeal.Gen.hostOps0_1 (after Cert.KernelIdeal.Gen.hostOps0 vk))) (Proc.devRef .tc Cert.KernelIdeal.main_v20) = after (Cert.ReferenceIdeal.RefRun.opsA (F := Ideal)) vr (Proc.devRef .tc Cert.ReferenceIdeal.main_v20) := by
  open_lists [h0, h1, h3]
  repeat' apply And.intro
  all_goals rfl

end Cert.Bridge

end
-- ==== Proof.BridgeB.lean ====
/-
  The second layer's inputs. Entered with the same first-layer output, the same source and destination rows and the
  same edge weights, the kernel's host operations between its first two regions and the reference's second-layer
  operations leave the same five Chebyshev terms of that output. The reference computes the degrees and the edge
  weights a second time, from the same edge list: the same term again.
-/
import proofs.«178477_j50946902065605_1_alg».proof.Proof.BridgeBase

set_option maxRecDepth 16384

noncomputable section

namespace Cert.Bridge

open Idealize.ShloMosaic Idealize.ShloMosaic.StableHlo

set_option maxHeartbeats 40000000 in
/-- The edge weights of the reference's second layer are those of its first. -/
theorem weights_again (vr : VR) :
    (after (Cert.ReferenceIdeal.RefRun.opsA (F := Ideal)) vr) (Proc.devRef .tc Cert.ReferenceIdeal.main_v20) = (after (Cert.ReferenceIdeal.RefRun.opsB (F := Ideal)) (after (Cert.ReferenceIdeal.RefRun.opsA (F := Ideal)) vr)) (Proc.devRef .tc Cert.ReferenceIdeal.main_v121) := by
  open_lists []

set_option maxHeartbeats 40000000 in
theorem layer2 (vk : VK) (va : VR)
    (h89 : vk (Proc.devRef .tc Cert.KernelIdeal.main_v89) = va (Proc.devRef .tc Cert.ReferenceIdeal.main_v104))
    (h1 : vk (Proc.devRef .tc Cert.KernelIdeal.main_v1) = va (Proc.devRef .tc Cert.ReferenceIdeal.main_v1))
    (h3 : vk (Proc.devRef .tc Cert.KernelIdeal.main_v3) = va (Proc.devRef .tc Cert.ReferenceIdeal.main_v3))
    (h20 : vk (Proc.devRef .tc Cert.KernelIdeal.main_v20) = (after (Cert.ReferenceIdeal.RefRun.opsB (F := Ideal)) va) (Proc.devRef .tc Cert.ReferenceIdeal.main_v121)) :
    (after (Cert.KernelIdeal.Gen.hostOps1 (F := Ideal)) vk) (Proc.devRef .tc Cert.KernelIdeal.main_v151) = va (Proc.devRef .tc Cert.ReferenceIdeal.main_v104)
    ∧ (after (Cert.KernelIdeal.Gen.hostOps1 (F := Ideal)) vk) (Proc.devRef .tc Cert.KernelIdeal.main_v152) = (after (Cert.ReferenceIdeal.RefRun.opsB (F := Ideal)) va) (Proc.devRef .tc Cert.ReferenceIdeal.main_v137)
    ∧ (after (Cert.KernelIdeal.Gen.hostOps1 (F := Ideal)) vk) (Proc.devRef .tc Cert.KernelIdeal.main_v153) = (after (Cert.ReferenceIdeal.RefRun.opsB (F := Ideal)) va) (Proc.devRef .tc Cert.ReferenceIdeal.main_v157)
    ∧ (after (Cert.KernelIdeal.Gen.hostOps1 (F := Ideal)) vk) (Proc.devRef .tc Cert.KernelIdeal.main_v154) = (after (Cert.ReferenceIdeal.RefRun.opsB (F := Ideal)) va) (Proc.devRef .tc Cert.ReferenceIdeal.main_v177)
    ∧ (after (Cert.KernelIdeal.Gen.hostOps1 (F := Ideal)) vk) (Proc.devRef .tc Cert.KernelIdeal.main_v155) = (after (Cert.ReferenceIdeal.RefRun.opsB (F := Ideal)) va) (Proc.devRef .tc Cert.ReferenceIdeal.main_v197) := by
  open_lists [h89, h1, h3, h20]
  repeat' apply And.intro
  all_goals rfl

end Cert.Bridge

end
-- ==== Proof.BridgeC.lean ====
/-
  The pooling. Entered with the same second-layer output and the same graph numbers, both programs scatter-add the
  node rows into the 64 graph rows from zero; the kernel then rounds the pooled rows and the last weight matrix to
  bf16, the identity on extended reals. Also: which buffers each stretch of the kernel's host operations leaves alone.
-/
import proofs.«178477_j50946902065605_1_alg».proof.Proof.BridgeBase

set_option maxRecDepth 16384

noncomputable section

namespace Cert.Bridge

open Idealize.ShloMosaic Idealize.ShloMosaic.StableHlo

set_option maxHeartbeats 40000000 in
theorem pooled (vk : VK) (vb : VR)
    (h156 : vk (Proc.devRef .tc Cert.KernelIdeal.main_v156) = vb (Proc.devRef .tc Cert.ReferenceIdeal.main_v205))
    (h2 : vk (Proc.devRef .tc Cert.KernelIdeal.main_arg2) = vb (Proc.devRef .tc Cert.ReferenceIdeal.main_arg2)) :
    (after (Cert.KernelIdeal.Gen.hostOps2 (F := Ideal)) vk) (Proc.devRef .tc Cert.KernelIdeal.main_v160) = (after (Cert.ReferenceIdeal.RefRun.opsC (F := Ideal)) vb) (Proc.devRef .tc Cert.ReferenceIdeal.main_v208)
    ∧ (after (Cert.KernelIdeal.Gen.hostOps2 (F := Ideal)) vk) (Proc.devRef .tc Cert.KernelIdeal.main_v161) = vk (Proc.devRef .tc Cert.KernelIdeal.main_arg7)
    ∧ (after (Cert.KernelIdeal.Gen.hostOps2 (F := Ideal)) vk) (Proc.devRef .tc Cert.KernelIdeal.main_arg8) = vk (Proc.devRef .tc Cert.KernelIdeal.main_arg8) := by
  -- the roundings to bf16 go away in the pass; what is left is one scatter-add spelt in each program's own names
  open_lists [h156, h2] <;> rfl

set_option maxHeartbeats 40000000 in
/-- The host operations before the first region leave these buffers as launched, and round the second weight array. -/
theorem kept0 (vk : VK) :
    (after (Cert.KernelIdeal.Gen.hostOps0_2 (F := Ideal)) (after Cert.KernelIdeal.Gen.hostOps0_1 (after Cert.KernelIdeal.Gen.hostOps0 vk))) (Proc.devRef .tc Cert.KernelIdeal.main_arg2) = vk (Proc.devRef .tc Cert.KernelIdeal.main_arg2)
    ∧ (after (Cert.KernelIdeal.Gen.hostOps0_2 (F := Ideal)) (after Cert.KernelIdeal.Gen.hostOps0_1 (after Cert.KernelIdeal.Gen.hostOps0 vk))) (Proc.devRef .tc Cert.KernelIdeal.main_arg4) = vk (Proc.devRef .tc Cert.KernelIdeal.main_arg4)
    ∧ (after (Cert.KernelIdeal.Gen.hostOps0_2 (F := Ideal)) (after Cert.KernelIdeal.Gen.hostOps0_1 (after Cert.KernelIdeal.Gen.hostOps0 vk))) (Proc.devRef .tc Cert.KernelIdeal.main_arg6) = vk (Proc.devRef .tc Cert.KernelIdeal.main_arg6)
    ∧ (after (Cert.KernelIdeal.Gen.hostOps0_2 (F := Ideal)) (after Cert.KernelIdeal.Gen.hostOps0_1 (after Cert.KernelIdeal.Gen.hostOps0 vk))) (Proc.devRef .tc Cert.KernelIdeal.main_arg7) = vk (Proc.devRef .tc Cert.KernelIdeal.main_arg7)
    ∧ (after (Cert.KernelIdeal.Gen.hostOps0_2 (F := Ideal)) (after Cert.KernelIdeal.Gen.hostOps0_1 (after Cert.KernelIdeal.Gen.hostOps0 vk))) (Proc.devRef .tc Cert.KernelIdeal.main_arg8) = vk (Proc.devRef .tc Cert.KernelIdeal.main_arg8)
    ∧ (after (Cert.KernelIdeal.Gen.hostOps0_2 (F := Ideal)) (after Cert.KernelIdeal.Gen.hostOps0_1 (after Cert.KernelIdeal.Gen.hostOps0 vk))) (Proc.devRef .tc Cert.KernelIdeal.main_v22) = vk (Proc.devRef .tc Cert.KernelIdeal.main_arg5) := by
  open_lists []

set_option maxHeartbeats 40000000 in
/-- The host operations between the first two regions leave these buffers alone. -/
theorem kept1 (vk : VK) :
    (after (Cert.KernelIdeal.Gen.hostOps1 (F := Ideal)) vk) (Proc.devRef .tc Cert.KernelIdeal.main_arg2) = vk (Proc.devRef .tc Cert.KernelIdeal.main_arg2)
    ∧ (after (Cert.KernelIdeal.Gen.hostOps1 (F := Ideal)) vk) (Proc.devRef .tc Cert.KernelIdeal.main_arg6) = vk (Proc.devRef .tc Cert.KernelIdeal.main_arg6)
    ∧ (after (Cert.KernelIdeal.Gen.hostOps1 (F := Ideal)) vk) (Proc.devRef .tc Cert.KernelIdeal.main_arg7) = vk (Proc.devRef .tc Cert.KernelIdeal.main_arg7)
    ∧ (after (Cert.KernelIdeal.Gen.hostOps1 (F := Ideal)) vk) (Proc.devRef .tc Cert.KernelIdeal.main_arg8) = vk (Proc.devRef .tc Cert.KernelIdeal.main_arg8)
    ∧ (after (Cert.KernelIdeal.Gen.hostOps1 (F := Ideal)) vk) (Proc.devRef .tc Cert.KernelIdeal.main_v22) = vk (Proc.devRef .tc Cert.KernelIdeal.main_v22) := by
  open_lists []

end Cert.Bridge

end
-- ==== Proof.BridgeC2.lean ====
/-
  What the reference's host operations leave alone. None of its operations writes one of its nine arguments, so after
  each layer's line, and after the whole program, every argument buffer holds what the launch put there.
-/
import proofs.«178477_j50946902065605_1_alg».proof.Proof.BridgeBase

set_option maxRecDepth 16384

noncomputable section

namespace Cert.Bridge

open Idealize.ShloMosaic Idealize.ShloMosaic.StableHlo

set_option maxHeartbeats 40000000 in
/-- The reference's first-layer host operations leave every argument as launched. -/
theorem keptA9 (vr : VR) :
    (after (Cert.ReferenceIdeal.RefRun.opsA (F := Ideal)) vr) (Proc.devRef .tc Cert.ReferenceIdeal.main_arg0) = vr (Proc.devRef .tc Cert.ReferenceIdeal.main_arg0)
    ∧ (after (Cert.ReferenceIdeal.RefRun.opsA (F := Ideal)) vr) (Proc.devRef .tc Cert.ReferenceIdeal.main_arg1) = vr (Proc.devRef .tc Cert.ReferenceIdeal.main_arg1)
    ∧ (after (Cert.ReferenceIdeal.RefRun.opsA (F := Ideal)) vr) (Proc.devRef .tc Cert.ReferenceIdeal.main_arg2) = vr (Proc.devRef .tc Cert.ReferenceIdeal.main_arg2)
    ∧ (after (Cert.ReferenceIdeal.RefRun.opsA (F := Ideal)) vr) (Proc.devRef .tc Cert.ReferenceIdeal.main_arg3) = vr (Proc.devRef .tc Cert.ReferenceIdeal.main_arg3)
    ∧ (after (Cert.ReferenceIdeal.RefRun.opsA (F := Ideal)) vr) (Proc.devRef .tc Cert.ReferenceIdeal.main_arg4) = vr (Proc.devRef .tc Cert.ReferenceIdeal.main_arg4)
    ∧ (after (Cert.ReferenceIdeal.RefRun.opsA (F := Ideal)) vr) (Proc.devRef .tc Cert.ReferenceIdeal.main_arg5) = vr (Proc.devRef .tc Cert.ReferenceIdeal.main_arg5)
    ∧ (after (Cert.ReferenceIdeal.RefRun.opsA (F := Ideal)) vr) (Proc.devRef .tc Cert.ReferenceIdeal.main_arg6) = vr (Proc.devRef .tc Cert.ReferenceIdeal.main_arg6)
    ∧ (after (Cert.ReferenceIdeal.RefRun.opsA (F := Ideal)) vr) (Proc.devRef .tc Cert.ReferenceIdeal.main_arg7) = vr (Proc.devRef .tc Cert.ReferenceIdeal.main_arg7)
    ∧ (after (Cert.ReferenceIdeal.RefRun.opsA (F := Ideal)) vr) (Proc.devRef .tc Cert.ReferenceIdeal.main_arg8) = vr (Proc.devRef .tc Cert.ReferenceIdeal.main_arg8) := by
  open_lists []

set_option maxHeartbeats 40000000 in
/-- The reference's second-layer host operations leave every argument alone. -/
theorem keptB9 (vr : VR) :
    (after (Cert.ReferenceIdeal.RefRun.opsB (F := Ideal)) vr) (Proc.devRef .tc Cert.ReferenceIdeal.main_arg0) = vr (Proc.devRef .tc Cert.ReferenceIdeal.main_arg0)
    ∧ (after (Cert.ReferenceIdeal.RefRun.opsB (F := Ideal)) vr) (Proc.devRef .tc Cert.ReferenceIdeal.main_arg1) = vr (Proc.devRef .tc Cert.ReferenceIdeal.main_arg1)
    ∧ (after (Cert.ReferenceIdeal.RefRun.opsB (F := Ideal)) vr) (Proc.devRef .tc Cert.ReferenceIdeal.main_arg2) = vr (Proc.devRef .tc Cert.ReferenceIdeal.main_arg2)
    ∧ (after (Cert.ReferenceIdeal.RefRun.opsB (F := Ideal)) vr) (Proc.devRef .tc Cert.ReferenceIdeal.main_arg3) = vr (Proc.devRef .tc Cert.ReferenceIdeal.main_arg3)
    ∧ (after (Cert.ReferenceIdeal.RefRun.opsB (F := Ideal)) vr) (Proc.devRef .tc Cert.ReferenceIdeal.main_arg4) = vr (Proc.devRef .tc Cert.ReferenceIdeal.main_arg4)
    ∧ (after (Cert.ReferenceIdeal.RefRun.opsB (F := Ideal)) vr) (Proc.devRef .tc Cert.ReferenceIdeal.main_arg5) = vr (Proc.devRef .tc Cert.ReferenceIdeal.main_arg5)
    ∧ (after (Cert.ReferenceIdeal.RefRun.opsB (F := Ideal)) vr) (Proc.devRef .tc Cert.ReferenceIdeal.main_arg6) = vr (Proc.devRef .tc Cert.ReferenceIdeal.main_arg6)
    ∧ (after (Cert.ReferenceIdeal.RefRun.opsB (F := Ideal)) vr) (Proc.devRef .tc Cert.ReferenceIdeal.main_arg7) = vr (Proc.devRef .tc Cert.ReferenceIdeal.main_arg7)
    ∧ (after (Cert.ReferenceIdeal.RefRun.opsB (F := Ideal)) vr) (Proc.devRef .tc Cert.ReferenceIdeal.main_arg8) = vr (Proc.devRef .tc Cert.ReferenceIdeal.main_arg8) := by
  open_lists []

set_option maxHeartbeats 40000000 in
/-- The reference's pooling and projection leave every argument alone. -/
theorem keptC9 (vr : VR) :
    (after (Cert.ReferenceIdeal.RefRun.opsC (F := Ideal)) vr) (Proc.devRef .tc Cert.ReferenceIdeal.main_arg0) = vr (Proc.devRef .tc Cert.ReferenceIdeal.main_arg0)
    ∧ (after (Cert.ReferenceIdeal.RefRun.opsC (F := Ideal)) vr) (Proc.devRef .tc Cert.ReferenceIdeal.main_arg1) = vr (Proc.devRef .tc Cert.ReferenceIdeal.main_arg1)
    ∧ (after (Cert.ReferenceIdeal.RefRun.opsC (F := Ideal)) vr) (Proc.devRef .tc Cert.ReferenceIdeal.main_arg2) = vr (Proc.devRef .tc Cert.ReferenceIdeal.main_arg2)
    ∧ (after (Cert.ReferenceIdeal.RefRun.opsC (F := Ideal)) vr) (Proc.devRef .tc Cert.ReferenceIdeal.main_arg3) = vr (Proc.devRef .tc Cert.ReferenceIdeal.main_arg3)
    ∧ (after (Cert.ReferenceIdeal.RefRun.opsC (F := Ideal)) vr) (Proc.devRef .tc Cert.ReferenceIdeal.main_arg4) = vr (Proc.devRef .tc Cert.ReferenceIdeal.main_arg4)
    ∧ (after (Cert.ReferenceIdeal.RefRun.opsC (F := Ideal)) vr) (Proc.devRef .tc Cert.ReferenceIdeal.main_arg5) = vr (Proc.devRef .tc Cert.ReferenceIdeal.main_arg5)
    ∧ (after (Cert.ReferenceIdeal.RefRun.opsC (F := Ideal)) vr) (Proc.devRef .tc Cert.ReferenceIdeal.main_arg6) = vr (Proc.devRef .tc Cert.ReferenceIdeal.main_arg6)
    ∧ (after (Cert.ReferenceIdeal.RefRun.opsC (F := Ideal)) vr) (Proc.devRef .tc Cert.ReferenceIdeal.main_arg7) = vr (Proc.devRef .tc Cert.ReferenceIdeal.main_arg7)
    ∧ (after (Cert.ReferenceIdeal.RefRun.opsC (F := Ideal)) vr) (Proc.devRef .tc Cert.ReferenceIdeal.main_arg8) = vr (Proc.devRef .tc Cert.ReferenceIdeal.main_arg8) := by
  open_lists []

/-- The arguments the later layers read are as launched after the reference's first layer. -/
theorem keptA (vr : VR) :
    (after (Cert.ReferenceIdeal.RefRun.opsA (F := Ideal)) vr) (Proc.devRef .tc Cert.ReferenceIdeal.main_arg2) = vr (Proc.devRef .tc Cert.ReferenceIdeal.main_arg2)
    ∧ (after (Cert.ReferenceIdeal.RefRun.opsA (F := Ideal)) vr) (Proc.devRef .tc Cert.ReferenceIdeal.main_arg5) = vr (Proc.devRef .tc Cert.ReferenceIdeal.main_arg5)
    ∧ (after (Cert.ReferenceIdeal.RefRun.opsA (F := Ideal)) vr) (Proc.devRef .tc Cert.ReferenceIdeal.main_arg6) = vr (Proc.devRef .tc Cert.ReferenceIdeal.main_arg6)
    ∧ (after (Cert.ReferenceIdeal.RefRun.opsA (F := Ideal)) vr) (Proc.devRef .tc Cert.ReferenceIdeal.main_arg7) = vr (Proc.devRef .tc Cert.ReferenceIdeal.main_arg7)
    ∧ (after (Cert.ReferenceIdeal.RefRun.opsA (F := Ideal)) vr) (Proc.devRef .tc Cert.ReferenceIdeal.main_arg8) = vr (Proc.devRef .tc Cert.ReferenceIdeal.main_arg8) := by
  obtain ⟨h0, h1, h2, h3, h4, h5, h6, h7, h8⟩ := keptA9 vr
  exact ⟨h2, h5, h6, h7, h8⟩

/-- The arguments the pooling and the projection read are unchanged by the reference's second layer. -/
theorem keptB (vr : VR) :
    (after (Cert.ReferenceIdeal.RefRun.opsB (F := Ideal)) vr) (Proc.devRef .tc Cert.ReferenceIdeal.main_arg2) = vr (Proc.devRef .tc Cert.ReferenceIdeal.main_arg2)
    ∧ (after (Cert.ReferenceIdeal.RefRun.opsB (F := Ideal)) vr) (Proc.devRef .tc Cert.ReferenceIdeal.main_arg7) = vr (Proc.devRef .tc Cert.ReferenceIdeal.main_arg7)
    ∧ (after (Cert.ReferenceIdeal.RefRun.opsB (F := Ideal)) vr) (Proc.devRef .tc Cert.ReferenceIdeal.main_arg8) = vr (Proc.devRef .tc Cert.ReferenceIdeal.main_arg8) := by
  obtain ⟨h0, h1, h2, h3, h4, h5, h6, h7, h8⟩ := keptB9 vr
  exact ⟨h2, h7, h8⟩

/-- The reference's whole line of host operations leaves every argument as launched. -/
theorem keptAll (vr : VR) :
    (after (Cert.ReferenceIdeal.RefRun.opsC (F := Ideal)) (after (Cert.ReferenceIdeal.RefRun.opsB (F := Ideal)) (after (Cert.ReferenceIdeal.RefRun.opsA (F := Ideal)) vr))) (Proc.devRef .tc Cert.ReferenceIdeal.main_arg0) = vr (Proc.devRef .tc Cert.ReferenceIdeal.main_arg0)
    ∧ (after (Cert.ReferenceIdeal.RefRun.opsC (F := Ideal)) (after (Cert.ReferenceIdeal.RefRun.opsB (F := Ideal)) (after (Cert.ReferenceIdeal.RefRun.opsA (F := Ideal)) vr))) (Proc.devRef .tc Cert.ReferenceIdeal.main_arg1) = vr (Proc.devRef .tc Cert.ReferenceIdeal.main_arg1)
    ∧ (after (Cert.ReferenceIdeal.RefRun.opsC (F := Ideal)) (after (Cert.ReferenceIdeal.RefRun.opsB (F := Ideal)) (after (Cert.ReferenceIdeal.RefRun.opsA (F := Ideal)) vr))) (Proc.devRef .tc Cert.ReferenceIdeal.main_arg2) = vr (Proc.devRef .tc Cert.ReferenceIdeal.main_arg2)
    ∧ (after (Cert.ReferenceIdeal.RefRun.opsC (F := Ideal)) (after (Cert.ReferenceIdeal.RefRun.opsB (F := Ideal)) (after (Cert.ReferenceIdeal.RefRun.opsA (F := Ideal)) vr))) (Proc.devRef .tc Cert.ReferenceIdeal.main_arg3) = vr (Proc.devRef .tc Cert.ReferenceIdeal.main_arg3)
    ∧ (after (Cert.ReferenceIdeal.RefRun.opsC (F := Ideal)) (after (Cert.ReferenceIdeal.RefRun.opsB (F := Ideal)) (after (Cert.ReferenceIdeal.RefRun.opsA (F := Ideal)) vr))) (Proc.devRef .tc Cert.ReferenceIdeal.main_arg4) = vr (Proc.devRef .tc Cert.ReferenceIdeal.main_arg4)
    ∧ (after (Cert.ReferenceIdeal.RefRun.opsC (F := Ideal)) (after (Cert.ReferenceIdeal.RefRun.opsB (F := Ideal)) (after (Cert.ReferenceIdeal.RefRun.opsA (F := Ideal)) vr))) (Proc.devRef .tc Cert.ReferenceIdeal.main_arg5) = vr (Proc.devRef .tc Cert.ReferenceIdeal.main_arg5)
    ∧ (after (Cert.ReferenceIdeal.RefRun.opsC (F := Ideal)) (after (Cert.ReferenceIdeal.RefRun.opsB (F := Ideal)) (after (Cert.ReferenceIdeal.RefRun.opsA (F := Ideal)) vr))) (Proc.devRef .tc Cert.ReferenceIdeal.main_arg6) = vr (Proc.devRef .tc Cert.ReferenceIdeal.main_arg6)
    ∧ (after (Cert.ReferenceIdeal.RefRun.opsC (F := Ideal)) (after (Cert.ReferenceIdeal.RefRun.opsB (F := Ideal)) (after (Cert.ReferenceIdeal.RefRun.opsA (F := Ideal)) vr))) (Proc.devRef .tc Cert.ReferenceIdeal.main_arg7) = vr (Proc.devRef .tc Cert.ReferenceIdeal.main_arg7)
    ∧ (after (Cert.ReferenceIdeal.RefRun.opsC (F := Ideal)) (after (Cert.ReferenceIdeal.RefRun.opsB (F := Ideal)) (after (Cert.ReferenceIdeal.RefRun.opsA (F := Ideal)) vr))) (Proc.devRef .tc Cert.ReferenceIdeal.main_arg8) = vr (Proc.devRef .tc Cert.ReferenceIdeal.main_arg8) := by
  obtain ⟨a0, a1, a2, a3, a4, a5, a6, a7, a8⟩ := keptA9 vr
  obtain ⟨b0, b1, b2, b3, b4, b5, b6, b7, b8⟩ := keptB9 (after (Cert.ReferenceIdeal.RefRun.opsA (F := Ideal)) vr)
  obtain ⟨c0, c1, c2, c3, c4, c5, c6, c7, c8⟩ := keptC9 (after (Cert.ReferenceIdeal.RefRun.opsB (F := Ideal)) (after (Cert.ReferenceIdeal.RefRun.opsA (F := Ideal)) vr))
  exact ⟨c0.trans (b0.trans a0), c1.trans (b1.trans a1), c2.trans (b2.trans a2), c3.trans (b3.trans a3), c4.trans (b4.trans a4), c5.trans (b5.trans a5), c6.trans (b6.trans a6), c7.trans (b7.trans a7), c8.trans (b8.trans a8)⟩

end Cert.Bridge

end
-- ==== Proof.Compose.lean ====
/-
  From the pieces to the result. The kernel's program is: host operations, a dense region, host operations, a dense
  region, host operations, the projection region. Given what each region leaves in its output array as a function of
  its input arrays (a layer of the specification, and the projection), and that a region changes no other buffer, the
  program's result is the reference's: the host stretches are matched against the reference's three parts, the regions
  against the reference's dense layers and projection, and the arguments agree by hypothesis.
-/
import proofs.«178477_j50946902065605_1_alg».proof.Proof.BridgeA
import proofs.«178477_j50946902065605_1_alg».proof.Proof.BridgeB
import proofs.«178477_j50946902065605_1_alg».proof.Proof.BridgeC
import proofs.«178477_j50946902065605_1_alg».proof.Proof.BridgeC2
import proofs.«178477_j50946902065605_1_alg».proof.Proof.Spec

set_option maxRecDepth 16384

noncomputable section

namespace Cert.Bridge

open Idealize.ShloMosaic Idealize.ShloMosaic.StableHlo

set_option maxHeartbeats 4000000 in
/-- `vk`, `vr`: the two launch contents; `w4`, `w6`, `w8`: the kernel's buffer contents when its first, second
    and third region end. -/
theorem result_eq (vk : VK) (vr : VR) (w4 w6 w8 : VK)
    (H0 : vk (Proc.devRef .tc Cert.KernelIdeal.main_arg0) = vr (Proc.devRef .tc Cert.ReferenceIdeal.main_arg0)) (H1 : vk (Proc.devRef .tc Cert.KernelIdeal.main_arg1) = vr (Proc.devRef .tc Cert.ReferenceIdeal.main_arg1))
    (H2 : vk (Proc.devRef .tc Cert.KernelIdeal.main_arg2) = vr (Proc.devRef .tc Cert.ReferenceIdeal.main_arg2)) (H3 : vk (Proc.devRef .tc Cert.KernelIdeal.main_arg3) = vr (Proc.devRef .tc Cert.ReferenceIdeal.main_arg3))
    (H4 : vk (Proc.devRef .tc Cert.KernelIdeal.main_arg4) = vr (Proc.devRef .tc Cert.ReferenceIdeal.main_arg4)) (H5 : vk (Proc.devRef .tc Cert.KernelIdeal.main_arg5) = vr (Proc.devRef .tc Cert.ReferenceIdeal.main_arg5))
    (H6 : vk (Proc.devRef .tc Cert.KernelIdeal.main_arg6) = vr (Proc.devRef .tc Cert.ReferenceIdeal.main_arg6)) (H7 : vk (Proc.devRef .tc Cert.KernelIdeal.main_arg7) = vr (Proc.devRef .tc Cert.ReferenceIdeal.main_arg7))
    (H8 : vk (Proc.devRef .tc Cert.KernelIdeal.main_arg8) = vr (Proc.devRef .tc Cert.ReferenceIdeal.main_arg8))
    -- the reference's two dense layers and its projection
    (LA : (after (Cert.ReferenceIdeal.RefRun.opsA (F := Ideal)) vr) (Proc.devRef .tc Cert.ReferenceIdeal.main_v104) = Cert.Spec.dense (vr (Proc.devRef .tc Cert.ReferenceIdeal.main_arg0)) ((after (Cert.ReferenceIdeal.RefRun.opsA (F := Ideal)) vr) (Proc.devRef .tc Cert.ReferenceIdeal.main_v36)) ((after (Cert.ReferenceIdeal.RefRun.opsA (F := Ideal)) vr) (Proc.devRef .tc Cert.ReferenceIdeal.main_v56))
      ((after (Cert.ReferenceIdeal.RefRun.opsA (F := Ideal)) vr) (Proc.devRef .tc Cert.ReferenceIdeal.main_v76)) ((after (Cert.ReferenceIdeal.RefRun.opsA (F := Ideal)) vr) (Proc.devRef .tc Cert.ReferenceIdeal.main_v96)) (vr (Proc.devRef .tc Cert.ReferenceIdeal.main_arg3)) (vr (Proc.devRef .tc Cert.ReferenceIdeal.main_arg4)))
    (LB : (after (Cert.ReferenceIdeal.RefRun.opsB (F := Ideal)) (after (Cert.ReferenceIdeal.RefRun.opsA (F := Ideal)) vr)) (Proc.devRef .tc Cert.ReferenceIdeal.main_v205) = Cert.Spec.dense ((after (Cert.ReferenceIdeal.RefRun.opsA (F := Ideal)) vr) (Proc.devRef .tc Cert.ReferenceIdeal.main_v104)) ((after (Cert.ReferenceIdeal.RefRun.opsB (F := Ideal)) (after (Cert.ReferenceIdeal.RefRun.opsA (F := Ideal)) vr)) (Proc.devRef .tc Cert.ReferenceIdeal.main_v137)) ((after (Cert.ReferenceIdeal.RefRun.opsB (F := Ideal)) (after (Cert.ReferenceIdeal.RefRun.opsA (F := Ideal)) vr)) (Proc.devRef .tc Cert.ReferenceIdeal.main_v157))
      ((after (Cert.ReferenceIdeal.RefRun.opsB (F := Ideal)) (after (Cert.ReferenceIdeal.RefRun.opsA (F := Ideal)) vr)) (Proc.devRef .tc Cert.ReferenceIdeal.main_v177)) ((after (Cert.ReferenceIdeal.RefRun.opsB (F := Ideal)) (after (Cert.ReferenceIdeal.RefRun.opsA (F := Ideal)) vr)) (Proc.devRef .tc Cert.ReferenceIdeal.main_v197)) ((after (Cert.ReferenceIdeal.RefRun.opsA (F := Ideal)) vr) (Proc.devRef .tc Cert.ReferenceIdeal.main_arg5)) ((after (Cert.ReferenceIdeal.RefRun.opsA (F := Ideal)) vr) (Proc.devRef .tc Cert.ReferenceIdeal.main_arg6)))
    (LC : (after (Cert.ReferenceIdeal.RefRun.opsC (F := Ideal)) (after (Cert.ReferenceIdeal.RefRun.opsB (F := Ideal)) (after (Cert.ReferenceIdeal.RefRun.opsA (F := Ideal)) vr))) (Proc.devRef .tc Cert.ReferenceIdeal.main_v212) = Cert.Spec.fc ((after (Cert.ReferenceIdeal.RefRun.opsC (F := Ideal)) (after (Cert.ReferenceIdeal.RefRun.opsB (F := Ideal)) (after (Cert.ReferenceIdeal.RefRun.opsA (F := Ideal)) vr))) (Proc.devRef .tc Cert.ReferenceIdeal.main_v208)) ((after (Cert.ReferenceIdeal.RefRun.opsB (F := Ideal)) (after (Cert.ReferenceIdeal.RefRun.opsA (F := Ideal)) vr)) (Proc.devRef .tc Cert.ReferenceIdeal.main_arg7)) ((after (Cert.ReferenceIdeal.RefRun.opsB (F := Ideal)) (after (Cert.ReferenceIdeal.RefRun.opsA (F := Ideal)) vr)) (Proc.devRef .tc Cert.ReferenceIdeal.main_arg8)))
    -- the first region: its output array, and the buffers it leaves alone
    (e4 : w4 (Proc.devRef .tc Cert.KernelIdeal.main_v89) = Cert.Spec.dense ((after (Cert.KernelIdeal.Gen.hostOps0_2 (F := Ideal)) (after Cert.KernelIdeal.Gen.hostOps0_1 (after Cert.KernelIdeal.Gen.hostOps0 vk))) (Proc.devRef .tc Cert.KernelIdeal.main_v84)) ((after (Cert.KernelIdeal.Gen.hostOps0_2 (F := Ideal)) (after Cert.KernelIdeal.Gen.hostOps0_1 (after Cert.KernelIdeal.Gen.hostOps0 vk))) (Proc.devRef .tc Cert.KernelIdeal.main_v85)) ((after (Cert.KernelIdeal.Gen.hostOps0_2 (F := Ideal)) (after Cert.KernelIdeal.Gen.hostOps0_1 (after Cert.KernelIdeal.Gen.hostOps0 vk))) (Proc.devRef .tc Cert.KernelIdeal.main_v86))
      ((after (Cert.KernelIdeal.Gen.hostOps0_2 (F := Ideal)) (after Cert.KernelIdeal.Gen.hostOps0_1 (after Cert.KernelIdeal.Gen.hostOps0 vk))) (Proc.devRef .tc Cert.KernelIdeal.main_v87)) ((after (Cert.KernelIdeal.Gen.hostOps0_2 (F := Ideal)) (after Cert.KernelIdeal.Gen.hostOps0_1 (after Cert.KernelIdeal.Gen.hostOps0 vk))) (Proc.devRef .tc Cert.KernelIdeal.main_v88)) ((after (Cert.KernelIdeal.Gen.hostOps0_2 (F := Ideal)) (after Cert.KernelIdeal.Gen.hostOps0_1 (after Cert.KernelIdeal.Gen.hostOps0 vk))) (Proc.devRef .tc Cert.KernelIdeal.main_v21)) ((after (Cert.KernelIdeal.Gen.hostOps0_2 (F := Ideal)) (after Cert.KernelIdeal.Gen.hostOps0_1 (after Cert.KernelIdeal.Gen.hostOps0 vk))) (Proc.devRef .tc Cert.KernelIdeal.main_arg4)))
    (n4_v1 : w4 (Proc.devRef .tc Cert.KernelIdeal.main_v1) = (after (Cert.KernelIdeal.Gen.hostOps0_2 (F := Ideal)) (after Cert.KernelIdeal.Gen.hostOps0_1 (after Cert.KernelIdeal.Gen.hostOps0 vk))) (Proc.devRef .tc Cert.KernelIdeal.main_v1)) (n4_v3 : w4 (Proc.devRef .tc Cert.KernelIdeal.main_v3) = (after (Cert.KernelIdeal.Gen.hostOps0_2 (F := Ideal)) (after Cert.KernelIdeal.Gen.hostOps0_1 (after Cert.KernelIdeal.Gen.hostOps0 vk))) (Proc.devRef .tc Cert.KernelIdeal.main_v3))
    (n4_v20 : w4 (Proc.devRef .tc Cert.KernelIdeal.main_v20) = (after (Cert.KernelIdeal.Gen.hostOps0_2 (F := Ideal)) (after Cert.KernelIdeal.Gen.hostOps0_1 (after Cert.KernelIdeal.Gen.hostOps0 vk))) (Proc.devRef .tc Cert.KernelIdeal.main_v20)) (n4_v22 : w4 (Proc.devRef .tc Cert.KernelIdeal.main_v22) = (after (Cert.KernelIdeal.Gen.hostOps0_2 (F := Ideal)) (after Cert.KernelIdeal.Gen.hostOps0_1 (after Cert.KernelIdeal.Gen.hostOps0 vk))) (Proc.devRef .tc Cert.KernelIdeal.main_v22))
    (n4_a2 : w4 (Proc.devRef .tc Cert.KernelIdeal.main_arg2) = (after (Cert.KernelIdeal.Gen.hostOps0_2 (F := Ideal)) (after Cert.KernelIdeal.Gen.hostOps0_1 (after Cert.KernelIdeal.Gen.hostOps0 vk))) (Proc.devRef .tc Cert.KernelIdeal.main_arg2)) (n4_a6 : w4 (Proc.devRef .tc Cert.KernelIdeal.main_arg6) = (after (Cert.KernelIdeal.Gen.hostOps0_2 (F := Ideal)) (after Cert.KernelIdeal.Gen.hostOps0_1 (after Cert.KernelIdeal.Gen.hostOps0 vk))) (Proc.devRef .tc Cert.KernelIdeal.main_arg6))
    (n4_a7 : w4 (Proc.devRef .tc Cert.KernelIdeal.main_arg7) = (after (Cert.KernelIdeal.Gen.hostOps0_2 (F := Ideal)) (after Cert.KernelIdeal.Gen.hostOps0_1 (after Cert.KernelIdeal.Gen.hostOps0 vk))) (Proc.devRef .tc Cert.KernelIdeal.main_arg7)) (n4_a8 : w4 (Proc.devRef .tc Cert.KernelIdeal.main_arg8) = (after (Cert.KernelIdeal.Gen.hostOps0_2 (F := Ideal)) (after Cert.KernelIdeal.Gen.hostOps0_1 (after Cert.KernelIdeal.Gen.hostOps0 vk))) (Proc.devRef .tc Cert.KernelIdeal.main_arg8))
    -- the second region
    (e6 : w6 (Proc.devRef .tc Cert.KernelIdeal.main_v156) = Cert.Spec.dense ((after (Cert.KernelIdeal.Gen.hostOps1 (F := Ideal)) w4) (Proc.devRef .tc Cert.KernelIdeal.main_v151)) ((after (Cert.KernelIdeal.Gen.hostOps1 (F := Ideal)) w4) (Proc.devRef .tc Cert.KernelIdeal.main_v152)) ((after (Cert.KernelIdeal.Gen.hostOps1 (F := Ideal)) w4) (Proc.devRef .tc Cert.KernelIdeal.main_v153))
      ((after (Cert.KernelIdeal.Gen.hostOps1 (F := Ideal)) w4) (Proc.devRef .tc Cert.KernelIdeal.main_v154)) ((after (Cert.KernelIdeal.Gen.hostOps1 (F := Ideal)) w4) (Proc.devRef .tc Cert.KernelIdeal.main_v155)) ((after (Cert.KernelIdeal.Gen.hostOps1 (F := Ideal)) w4) (Proc.devRef .tc Cert.KernelIdeal.main_v22)) ((after (Cert.KernelIdeal.Gen.hostOps1 (F := Ideal)) w4) (Proc.devRef .tc Cert.KernelIdeal.main_arg6)))
    (n6_a2 : w6 (Proc.devRef .tc Cert.KernelIdeal.main_arg2) = (after (Cert.KernelIdeal.Gen.hostOps1 (F := Ideal)) w4) (Proc.devRef .tc Cert.KernelIdeal.main_arg2)) (n6_a7 : w6 (Proc.devRef .tc Cert.KernelIdeal.main_arg7) = (after (Cert.KernelIdeal.Gen.hostOps1 (F := Ideal)) w4) (Proc.devRef .tc Cert.KernelIdeal.main_arg7))
    (n6_a8 : w6 (Proc.devRef .tc Cert.KernelIdeal.main_arg8) = (after (Cert.KernelIdeal.Gen.hostOps1 (F := Ideal)) w4) (Proc.devRef .tc Cert.KernelIdeal.main_arg8))
    -- the third region
    (e8 : w8 (Proc.devRef .tc Cert.KernelIdeal.main_v162) = Cert.Spec.fc ((after (Cert.KernelIdeal.Gen.hostOps2 (F := Ideal)) w6) (Proc.devRef .tc Cert.KernelIdeal.main_v160)) ((after (Cert.KernelIdeal.Gen.hostOps2 (F := Ideal)) w6) (Proc.devRef .tc Cert.KernelIdeal.main_v161)) ((after (Cert.KernelIdeal.Gen.hostOps2 (F := Ideal)) w6) (Proc.devRef .tc Cert.KernelIdeal.main_arg8))) :
    w8 (Proc.devRef .tc Cert.KernelIdeal.main_v162) = (after (Cert.ReferenceIdeal.RefRun.opsC (F := Ideal)) (after (Cert.ReferenceIdeal.RefRun.opsB (F := Ideal)) (after (Cert.ReferenceIdeal.RefRun.opsA (F := Ideal)) vr))) (Proc.devRef .tc Cert.ReferenceIdeal.main_v212) := by
  obtain ⟨a84, a85, a86, a87, a88, a21, a1, a3, a20⟩ := layer1 vk vr H0 H1 H3
  obtain ⟨k2, k4, k6, k7, k8, k22⟩ := kept0 vk
  obtain ⟨rA2, rA5, rA6, rA7, rA8⟩ := keptA vr
  obtain ⟨rB2, rB7, rB8⟩ := keptB (after (Cert.ReferenceIdeal.RefRun.opsA (F := Ideal)) vr)
  have s1 : w4 (Proc.devRef .tc Cert.KernelIdeal.main_v89) = (after (Cert.ReferenceIdeal.RefRun.opsA (F := Ideal)) vr) (Proc.devRef .tc Cert.ReferenceIdeal.main_v104) := by
    rw [e4, LA, a84, a85, a86, a87, a88, a21, k4, H4]
  obtain ⟨b151, b152, b153, b154, b155⟩ :=
    layer2 w4 (after (Cert.ReferenceIdeal.RefRun.opsA (F := Ideal)) vr) s1 (n4_v1.trans a1) (n4_v3.trans a3) ((n4_v20.trans a20).trans (weights_again vr))
  obtain ⟨j2, j6, j7, j8, j22⟩ := kept1 w4
  have s2 : w6 (Proc.devRef .tc Cert.KernelIdeal.main_v156) = (after (Cert.ReferenceIdeal.RefRun.opsB (F := Ideal)) (after (Cert.ReferenceIdeal.RefRun.opsA (F := Ideal)) vr)) (Proc.devRef .tc Cert.ReferenceIdeal.main_v205) := by
    rw [e6, LB, b151, b152, b153, b154, b155, j22, n4_v22, k22, H5, rA5, j6, n4_a6, k6, H6, rA6]
  have hp2 : w6 (Proc.devRef .tc Cert.KernelIdeal.main_arg2) = (after (Cert.ReferenceIdeal.RefRun.opsB (F := Ideal)) (after (Cert.ReferenceIdeal.RefRun.opsA (F := Ideal)) vr)) (Proc.devRef .tc Cert.ReferenceIdeal.main_arg2) := by
    rw [n6_a2, j2, n4_a2, k2, H2, rB2, rA2]
  obtain ⟨c160, c161, c8⟩ := pooled w6 (after (Cert.ReferenceIdeal.RefRun.opsB (F := Ideal)) (after (Cert.ReferenceIdeal.RefRun.opsA (F := Ideal)) vr)) s2 hp2
  rw [e8, LC, c160, c161, c8, n6_a7, j7, n4_a7, k7, H7, rB7, rA7, n6_a8, j8, n4_a8, k8, H8, rB8, rA8]

end Cert.Bridge

end
-- ==== Proof.LibOpenLists.lean ====
/-
  Two programs' host operations read side by side. A line of host operations turns the buffers' contents before it into
  the contents after it (the fold `after`). Opened operation by operation, the contents of one result buffer become a
  term in the contents the line started from; when two programs apply the same operations in the same order to contents
  that agree, the two terms are the same term, and an equation between a buffer of one and a buffer of the other is
  closed without unfolding any operation (a gather, a scatter, a sort stay closed). A line cut in two is read through
  the cut; a change of float format is the identity on extended reals, so a table rounded to another format is the table.
-/
import Idealize.ShloMosaic.Lib.StableHlo.Run
import Idealize.ShloMosaic.PureOps.Ideal

noncomputable section

namespace Cert.OpenLists

open Idealize.ShloMosaic Idealize.ShloMosaic.StableHlo

/-- Two lines run one after the other: the contents after the second, from the contents after the first. -/
theorem after_append {τ : Topo} {sig : RefSig} {Val : EltTy → Type} (l₁ l₂ : List (HloOp τ sig Val)) (V : Valuation τ sig Val) :
    after (l₁ ++ l₂) V = after l₂ (after l₁ V) := by
  induction l₁ generalizing V with
  | nil => rfl
  | cons op l ih => exact ih (op.result V)

/-- A table rounded to a narrower float format is the table, on extended reals. -/
theorem truncf_id {s : Shape} {φ ψ : FTy} (a : FVec Ideal s φ) (h : ψ.bits < φ.bits) : (truncf ψ a h : FVec Ideal s ψ) = a := rfl

/-- A table widened to a wider float format is the table, on extended reals. -/
theorem extf_id {s : Shape} {φ ψ : FTy} (a : FVec Ideal s φ) (h : φ.bits < ψ.bits) : (extf ψ a h : FVec Ideal s ψ) = a := rfl

/-- Opens every `after <literal list> V (Proc.devRef .tc r)` in the goal, on both sides of an equation and in every
    conjunct, down to the contents the lines started from, in one pass; hypotheses that relate the two programs' starting
    contents (`vk … = vr …`) are rewritten on the way. What is left, if anything, is an equation between the same operations
    spelt in the two programs' vocabularies: `rfl` — provided no side is applied to an index or wrapped in something `rfl`
    would have to unfold. -/
macro "open_lists" "[" hs:Lean.Parser.Tactic.simpLemma,* "]" : tactic =>
  `(tactic| (simp (disch := decide) only [after_append, after_cons, after_nil,
      nullary_result', unary_result', binary_result', ternary_result', quaternary_result', reshape_result',
      nullary_result_ne', unary_result_ne', binary_result_ne', ternary_result_ne', quaternary_result_ne', reshape_result_ne',
      cast_eq, truncf_id, extf_id, and_self, and_true, true_and, $hs,*]))

end Cert.OpenLists

end
-- ==== Proof.lean ====
/-
  The certificate of a two-layer Chebyshev graph network (K = 5) with SELU, graph-wise sum pooling and a final linear
  layer, written as host graph operations around three pipelined regions, against its plain reference.

  The three frames. The two kernel programs' frames are the generated ones. The reference is a straight line of host
  operations: its run leaves every buffer at the fold of the operations over the launch contents, and no operation
  writes an argument.

  The value. At the ideal values both programs apply the same graph operations in the same order — out-degrees by a
  scatter-add of ones, their inverses (zero where the degree is zero), edge weights minus the inverse degree of the
  source, and the propagation L̂u = scatter-add at the destinations of the weighted rows gathered at the sources, in the
  recurrence T₀ = x, T₁ = L̂T₀, Tₖ = 2L̂Tₖ₋₁ − Tₖ₋₂ — so their buffers hold the same terms in the launch contents, which
  agree. Where the reference then adds the five products TₖW[k], the bias, and applies SELU by host operations, the
  kernel's program runs a region over blocks of 5000 rows: both are the layer of the specification, index by index (a
  sum from a zero accumulator is the sum; eˣ − 1 is the reference's expm1 by definition on the branch that is taken;
  rounding to bf16 is the identity on extended reals). The pooled rows and the final projection likewise. No law that
  needs finiteness is used, so the precondition is never opened.
-/
import proofs.«178477_j50946902065605_1_alg».proof.Defs
import proofs.«178477_j50946902065605_1_alg».proof.Proof.Gen.Kernel
import proofs.«178477_j50946902065605_1_alg».proof.Proof.Gen.Kernel.Skeleton
import proofs.«178477_j50946902065605_1_alg».proof.Proof.Gen.Kernel.Launch
import proofs.«178477_j50946902065605_1_alg».proof.Proof.Gen.Kernel.Points
import proofs.«178477_j50946902065605_1_alg».proof.Proof.Gen.Kernel.Frame
import proofs.«178477_j50946902065605_1_alg».proof.Proof.Gen.KernelIdeal
import proofs.«178477_j50946902065605_1_alg».proof.Proof.Gen.KernelIdeal.Skeleton
import proofs.«178477_j50946902065605_1_alg».proof.Proof.Gen.KernelIdeal.Launch
import proofs.«178477_j50946902065605_1_alg».proof.Proof.Gen.KernelIdeal.Points
import proofs.«178477_j50946902065605_1_alg».proof.Proof.Gen.KernelIdeal.Frame
import proofs.«178477_j50946902065605_1_alg».proof.Proof.Gen.ReferenceIdeal
import proofs.«178477_j50946902065605_1_alg».proof.Proof.Gen.Pre_finite_inputs
import proofs.«178477_j50946902065605_1_alg».proof.Proof.KerRun
import proofs.«178477_j50946902065605_1_alg».proof.Proof.RefRun
import proofs.«178477_j50946902065605_1_alg».proof.Proof.RefDense
import proofs.«178477_j50946902065605_1_alg».proof.Proof.KerDense0
import proofs.«178477_j50946902065605_1_alg».proof.Proof.KerDense1
import proofs.«178477_j50946902065605_1_alg».proof.Proof.KerFc
import proofs.«178477_j50946902065605_1_alg».proof.Proof.Compose
import proofs.«178477_j50946902065605_1_alg».proof.Proof.LibOpenLists
import Idealize.ShloMosaic.Adequacy
import Idealize.ShloMosaic.Init

set_option maxRecDepth 16384

noncomputable section

namespace Cert.Proof

open Idealize.ShloMosaic Idealize.ShloMosaic.TcCoe Idealize.SL.Sem

theorem frame_p : Cert.frame_Kernel := fun m ρ _ => Cert.Kernel.Gen.frame m ρ

theorem frame_pi : Cert.frame_KernelIdeal := fun m ρ _ => Cert.KernelIdeal.Gen.frame m ρ

/-- The reference's run, with its arguments read back through the whole line: none is written. -/
theorem frame_ri : Cert.frame_ReferenceIdeal := fun m ρ _ =>
  (θ_run Cert.ReferenceIdeal.defs _ _).mono (fun r h c => by
    obtain ⟨q0, q1, q2, q3, q4, q5, q6, q7, q8⟩ := Cert.Bridge.keptAll (StableHlo.launchContents m c)
    exact ⟨(h c Cert.ReferenceIdeal.main_arg0).trans q0, (h c Cert.ReferenceIdeal.main_arg1).trans q1, (h c Cert.ReferenceIdeal.main_arg2).trans q2,
      (h c Cert.ReferenceIdeal.main_arg3).trans q3, (h c Cert.ReferenceIdeal.main_arg4).trans q4, (h c Cert.ReferenceIdeal.main_arg5).trans q5,
      (h c Cert.ReferenceIdeal.main_arg6).trans q6, (h c Cert.ReferenceIdeal.main_arg7).trans q7, (h c Cert.ReferenceIdeal.main_arg8).trans q8⟩)
    (Cert.ReferenceIdeal.RefRun.run (F := Ideal) m ρ)

/-- The kernel's result buffer at the end of its run holds what the reference's line leaves in its result buffer, from
    launch contents that agree on the nine arguments. -/
theorem value_eq (m : (ℓ : Loc Cert.KernelIdeal.nD Cert.KernelIdeal.τ Cert.KernelIdeal.sig) → Buf (Elt Ideal) ℓ) (ρ : Dev Cert.KernelIdeal.nD → PrngReg)
    (m' : (ℓ : Loc Cert.ReferenceIdeal.nD Cert.ReferenceIdeal.τ Cert.ReferenceIdeal.sig) → Buf (Elt Ideal) ℓ) (c : Dev Cert.KernelIdeal.nD)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧       m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧       m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧       m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧       m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧       m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧       m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧       m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧       m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) :
    Cert.KernelIdeal.Gen.W8 (F := Ideal) m ρ c (Proc.devRef .tc Cert.KernelIdeal.main_v162)
      = StableHlo.after (Cert.ReferenceIdeal.RefRun.opsC (F := Ideal)) (StableHlo.after Cert.ReferenceIdeal.RefRun.opsB (StableHlo.after Cert.ReferenceIdeal.RefRun.opsA (StableHlo.launchContents m' c)))
          (Proc.devRef .tc Cert.ReferenceIdeal.main_v212) :=
  Cert.Bridge.result_eq (Cert.KernelIdeal.Gen.W0 (F := Ideal) m ρ c) (StableHlo.launchContents m' c) (Cert.KernelIdeal.Gen.W4 (F := Ideal) m ρ c) (Cert.KernelIdeal.Gen.W6 (F := Ideal) m ρ c) (Cert.KernelIdeal.Gen.W8 (F := Ideal) m ρ c)
    ((hagree c).1).symm
    ((hagree c).2.1).symm
    ((hagree c).2.2.1).symm
    ((hagree c).2.2.2.1).symm
    ((hagree c).2.2.2.2.1).symm
    ((hagree c).2.2.2.2.2.1).symm
    ((hagree c).2.2.2.2.2.2.1).symm
    ((hagree c).2.2.2.2.2.2.2.1).symm
    ((hagree c).2.2.2.2.2.2.2.2).symm
    (Cert.ReferenceIdeal.RefDense.layerA (StableHlo.launchContents m' c))
    (Cert.ReferenceIdeal.RefDense.layerB (StableHlo.after Cert.ReferenceIdeal.RefRun.opsA (StableHlo.launchContents m' c)))
    (Cert.ReferenceIdeal.RefDense.fcC (StableHlo.after Cert.ReferenceIdeal.RefRun.opsB (StableHlo.after Cert.ReferenceIdeal.RefRun.opsA (StableHlo.launchContents m' c))))
    ((Cert.KernelIdeal.Gen.W4_arr m ρ c 7).trans (Cert.KernelIdeal.Dense.region0 (Cert.KernelIdeal.Gen.V3 m ρ) c))
    (Cert.KernelIdeal.Gen.W4_of_ne m ρ c Cert.KernelIdeal.main_v1 (by decide)) (Cert.KernelIdeal.Gen.W4_of_ne m ρ c Cert.KernelIdeal.main_v3 (by decide))
    (Cert.KernelIdeal.Gen.W4_of_ne m ρ c Cert.KernelIdeal.main_v20 (by decide)) (Cert.KernelIdeal.Gen.W4_of_ne m ρ c Cert.KernelIdeal.main_v22 (by decide))
    (Cert.KernelIdeal.Gen.W4_of_ne m ρ c Cert.KernelIdeal.main_arg2 (by decide)) (Cert.KernelIdeal.Gen.W4_of_ne m ρ c Cert.KernelIdeal.main_arg6 (by decide))
    (Cert.KernelIdeal.Gen.W4_of_ne m ρ c Cert.KernelIdeal.main_arg7 (by decide)) (Cert.KernelIdeal.Gen.W4_of_ne m ρ c Cert.KernelIdeal.main_arg8 (by decide))
    ((Cert.KernelIdeal.Gen.W6_arr m ρ c 7).trans (Cert.KernelIdeal.Dense.region1 (Cert.KernelIdeal.Gen.V5 m ρ) c))
    (Cert.KernelIdeal.Gen.W6_of_ne m ρ c Cert.KernelIdeal.main_arg2 (by decide)) (Cert.KernelIdeal.Gen.W6_of_ne m ρ c Cert.KernelIdeal.main_arg7 (by decide))
    (Cert.KernelIdeal.Gen.W6_of_ne m ρ c Cert.KernelIdeal.main_arg8 (by decide))
    ((Cert.KernelIdeal.Gen.W8_arr m ρ c 3).trans (Cert.KernelIdeal.Fc.region2 (Cert.KernelIdeal.Gen.V7 m ρ) c))

/-- Both idealized programs run, from memories that agree on the arguments, to the same result, the arguments
    unchanged. -/
theorem algebraic : Cert.algebraic_KernelIdeal_ReferenceIdeal := by
  intro m ρ m' ρ' _ hagree
  refine ⟨fun c => Cert.KernelIdeal.Gen.W8 (F := Ideal) m ρ c (Proc.devRef .tc Cert.KernelIdeal.main_v162), Cert.KernelIdeal.KerRun.value_run m ρ, ?_⟩
  refine (θ_run Cert.ReferenceIdeal.defs _ _).mono (fun r h c => ?_) (Cert.ReferenceIdeal.RefRun.run (F := Ideal) m' ρ')
  obtain ⟨q0, q1, q2, q3, q4, q5, q6, q7, q8⟩ := Cert.Bridge.keptAll (StableHlo.launchContents m' c)
  exact ⟨(h c Cert.ReferenceIdeal.main_v212).trans (value_eq m ρ m' c hagree).symm,
    (h c Cert.ReferenceIdeal.main_arg0).trans q0, (h c Cert.ReferenceIdeal.main_arg1).trans q1, (h c Cert.ReferenceIdeal.main_arg2).trans q2,
    (h c Cert.ReferenceIdeal.main_arg3).trans q3, (h c Cert.ReferenceIdeal.main_arg4).trans q4, (h c Cert.ReferenceIdeal.main_arg5).trans q5,
    (h c Cert.ReferenceIdeal.main_arg6).trans q6, (h c Cert.ReferenceIdeal.main_arg7).trans q7, (h c Cert.ReferenceIdeal.main_arg8).trans q8⟩

theorem claim : Cert.Claim :=
  ⟨Cert.Kernel.Gen.facts, Cert.KernelIdeal.Gen.facts, Cert.ReferenceIdeal.Gen.facts, Cert.Pre_finite_inputs.Gen.facts,
    frame_p, frame_pi, frame_ri, trivial, algebraic⟩

end Cert.Proof

end
